-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)) (v2 : (c : Dev Cert.KernelIdeal.nD) → Buf (Elt Ideal) ((c.tc : Thread Cert.KernelIdeal.nD Cert.KernelIdeal.τ).loc Cert.KernelIdeal.main_v10_2)) (v3 : (c : Dev Cert.KernelIdeal.nD) → Buf (Elt Ideal) ((c.tc : Thread Cert.KernelIdeal.nD Cert.KernelIdeal.τ).loc Cert.KernelIdeal.main_v10_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_v10_2) = v2 c
          ∧ r.2.mem ((c.tc : Thread Cert.KernelIdeal.nD Cert.KernelIdeal.τ).loc Cert.KernelIdeal.main_v10_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_v40) = v2 c
          ∧ r.2.mem ((c.tc : Thread Cert.ReferenceIdeal.nD Cert.ReferenceIdeal.τ).loc Cert.ReferenceIdeal.main_v35) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4096x2048 : Shape := ⟨2, ![4096, 2048]⟩
abbrev S2048x1024 : Shape := ⟨2, ![2048, 1024]⟩
abbrev S2048 : Shape := ⟨1, ![2048]⟩
abbrev S2048x2048 : Shape := ⟨2, ![2048, 2048]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_
  bcast_S_S2048x1024 : S_.BroadcastsInDim S2048x1024 (![] : Fin 0 → Fin S2048x1024.rank)
  reducesTo_S2048x1024_S_d0_1 : S2048x1024.ReducesTo [0, 1] S_
  bcast_S_S2048 : S_.BroadcastsInDim S2048 (![] : Fin 0 → Fin S2048.rank)
  reducesTo_S2048_S_d0 : S2048.ReducesTo [0] S_
  bcast_S_S2048x2048 : S_.BroadcastsInDim S2048x2048 (![] : Fin 0 → Fin S2048x2048.rank)
  reducesTo_S2048x2048_S_d0_1 : S2048x2048.ReducesTo [0, 1] S_

variable [Facts]

def fn_part5 {F : FTy → Type} [FloatOps F] (main_arg18 : FVec F S2048 .f32) (main_v83 : IVec S_ 1) (main_v84 : FVec F S2048 .f32) (main_cst_32 : FVec F S_ .f32) : IVec S_ 1 :=
  let main_v85 : FVec F S2048 .f32 := broadcastInDim S2048 ![] bcast_S_S2048 main_cst_32
  let main_v86 : IVec S2048 1 := cmpf .olt main_v84 main_v85
  let main_c_33 : IVec S_ 1 := constantI S_ 1 1#1
  let main_v87 : IVec S_ 1 := (fun x v => Host.reduce IntOp.andi x v reducesTo_S2048_S_d0 h_S_) main_v86 main_c_33
  let main_v88 : IVec S_ 1 := andi main_v83 main_v87
  let main_v89 : FVec F S2048 .f32 := Host.absf main_arg18
  let main_cst_34 : FVec F S_ .f32 := constant S_ .f32 0x7F800000#32
  let main_v90 : FVec F S2048 .f32 := broadcastInDim S2048 ![] bcast_S_S2048 main_cst_34
  let main_v91 : IVec S2048 1 := cmpf .olt main_v89 main_v90
  let main_c_35 : IVec S_ 1 := constantI S_ 1 1#1
  let main_v92 : IVec S_ 1 := (fun x v => Host.reduce IntOp.andi x v reducesTo_S2048_S_d0 h_S_) main_v91 main_c_35
  let main_v93 : IVec S_ 1 := andi main_v88 main_v92
  main_v93

def fn_part4 {F : FTy → Type} [FloatOps F] (main_arg14 : FVec F S2048x2048 .f32) (main_arg15 : FVec F S2048x2048 .f32) (main_arg16 : FVec F S2048x2048 .f32) (main_arg17 : FVec F S2048 .f32) (main_arg18 : FVec F S2048 .f32) (main_v63 : IVec S_ 1) (main_v67 : IVec S_ 1) : IVec S_ 1 :=
  let main_v68 : IVec S_ 1 := andi main_v63 main_v67
  let main_v69 : FVec F S2048x2048 .f32 := Host.absf main_arg14
  let main_cst_26 : FVec F S_ .f32 := constant S_ .f32 0x7F800000#32
  let main_v70 : FVec F S2048x2048 .f32 := broadcastInDim S2048x2048 ![] bcast_S_S2048x2048 main_cst_26
  let main_v71 : IVec S2048x2048 1 := cmpf .olt main_v69 main_v70
  let main_c_27 : IVec S_ 1 := constantI S_ 1 1#1
  let main_v72 : IVec S_ 1 := (fun x v => Host.reduce IntOp.andi x v reducesTo_S2048x2048_S_d0_1 h_S_) main_v71 main_c_27
  let main_v73 : IVec S_ 1 := andi main_v68 main_v72
  let main_v74 : FVec F S2048x2048 .f32 := Host.absf main_arg15
  let main_cst_28 : FVec F S_ .f32 := constant S_ .f32 0x7F800000#32
  let main_v75 : FVec F S2048x2048 .f32 := broadcastInDim S2048x2048 ![] bcast_S_S2048x2048 main_cst_28
  let main_v76 : IVec S2048x2048 1 := cmpf .olt main_v74 main_v75
  let main_c_29 : IVec S_ 1 := constantI S_ 1 1#1
  let main_v77 : IVec S_ 1 := (fun x v => Host.reduce IntOp.andi x v reducesTo_S2048x2048_S_d0_1 h_S_) main_v76 main_c_29
  let main_v78 : IVec S_ 1 := andi main_v73 main_v77
  let main_v79 : FVec F S2048x2048 .f32 := Host.absf main_arg16
  let main_cst_30 : FVec F S_ .f32 := constant S_ .f32 0x7F800000#32
  let main_v80 : FVec F S2048x2048 .f32 := broadcastInDim S2048x2048 ![] bcast_S_S2048x2048 main_cst_30
  let main_v81 : IVec S2048x2048 1 := cmpf .olt main_v79 main_v80
  let main_c_31 : IVec S_ 1 := constantI S_ 1 1#1
  let main_v82 : IVec S_ 1 := (fun x v => Host.reduce IntOp.andi x v reducesTo_S2048x2048_S_d0_1 h_S_) main_v81 main_c_31
  let main_v83 : IVec S_ 1 := andi main_v78 main_v82
  let main_v84 : FVec F S2048 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S2048 .f32) (main_arg12 : FVec F S2048 .f32) (main_arg13 : FVec F S2048x2048 .f32) (main_arg14 : FVec F S2048x2048 .f32) (main_arg15 : FVec F S2048x2048 .f32) (main_arg16 : FVec F S2048x2048 .f32) (main_arg17 : FVec F S2048 .f32) (main_arg18 : FVec F S2048 .f32) (main_v48 : IVec S_ 1) (main_v49 : FVec F S2048 .f32) (main_v50 : FVec F S2048 .f32) : IVec S_ 1 :=
  let main_v51 : IVec S2048 1 := cmpf .olt main_v49 main_v50
  let main_c_19 : IVec S_ 1 := constantI S_ 1 1#1
  let main_v52 : IVec S_ 1 := (fun x v => Host.reduce IntOp.andi x v reducesTo_S2048_S_d0 h_S_) main_v51 main_c_19
  let main_v53 : IVec S_ 1 := andi main_v48 main_v52
  let main_v54 : FVec F S2048 .f32 := Host.absf main_arg11
  let main_cst_20 : FVec F S_ .f32 := constant S_ .f32 0x7F800000#32
  let main_v55 : FVec F S2048 .f32 := broadcastInDim S2048 ![] bcast_S_S2048 main_cst_20
  let main_v56 : IVec S2048 1 := cmpf .olt main_v54 main_v55
  let main_c_21 : IVec S_ 1 := constantI S_ 1 1#1
  let main_v57 : IVec S_ 1 := (fun x v => Host.reduce IntOp.andi x v reducesTo_S2048_S_d0 h_S_) main_v56 main_c_21
  let main_v58 : IVec S_ 1 := andi main_v53 main_v57
  let main_v59 : FVec F S2048 .f32 := Host.absf main_arg12
  let main_cst_22 : FVec F S_ .f32 := constant S_ .f32 0x7F800000#32
  let main_v60 : FVec F S2048 .f32 := broadcastInDim S2048 ![] bcast_S_S2048 main_cst_22
  let main_v61 : IVec S2048 1 := cmpf .olt main_v59 main_v60
  let main_c_23 : IVec S_ 1 := constantI S_ 1 1#1
  let main_v62 : IVec S_ 1 := (fun x v => Host.reduce IntOp.andi x v reducesTo_S2048_S_d0 h_S_) main_v61 main_c_23
  let main_v63 : IVec S_ 1 := andi main_v58 main_v62
  let main_v64 : FVec F S2048x2048 .f32 := Host.absf main_arg13
  let main_cst_24 : FVec F S_ .f32 := constant S_ .f32 0x7F800000#32
  let main_v65 : FVec F S2048x2048 .f32 := broadcastInDim S2048x2048 ![] bcast_S_S2048x2048 main_cst_24
  let main_v66 : IVec S2048x2048 1 := cmpf .olt main_v64 main_v65
  let main_c_25 : IVec S_ 1 := constantI S_ 1 1#1
  let main_v67 : IVec S_ 1 := (fun x v => Host.reduce IntOp.andi x v reducesTo_S2048x2048_S_d0_1 h_S_) main_v66 main_c_25
  fn_part4 (F := F) main_arg14 main_arg15 main_arg16 main_arg17 main_arg18 main_v63 main_v67

def fn_part2 {F : FTy → Type} [FloatOps F] (main_arg7 : FVec F S2048x1024 .f32) (main_arg8 : FVec F S2048x1024 .f32) (main_arg9 : FVec F S2048 .f32) (main_arg10 : FVec F S2048 .f32) (main_arg11 : FVec F S2048 .f32) (main_arg12 : FVec F S2048 .f32) (main_arg13 : FVec F S2048x2048 .f32) (main_arg14 : FVec F S2048x2048 .f32) (main_arg15 : FVec F S2048x2048 .f32) (main_arg16 : FVec F S2048x2048 .f32) (main_arg17 : FVec F S2048 .f32) (main_arg18 : FVec F S2048 .f32) (main_v33 : IVec S_ 1) : IVec S_ 1 :=
  let main_v34 : FVec F S2048x1024 .f32 := Host.absf main_arg7
  let main_cst_12 : FVec F S_ .f32 := constant S_ .f32 0x7F800000#32
  let main_v35 : FVec F S2048x1024 .f32 := broadcastInDim S2048x1024 ![] bcast_S_S2048x1024 main_cst_12
  let main_v36 : IVec S2048x1024 1 := cmpf .olt main_v34 main_v35
  let main_c_13 : IVec S_ 1 := constantI S_ 1 1#1
  let main_v37 : IVec S_ 1 := (fun x v => Host.reduce IntOp.andi x v reducesTo_S2048x1024_S_d0_1 h_S_) main_v36 main_c_13
  let main_v38 : IVec S_ 1 := andi main_v33 main_v37
  let main_v39 : FVec F S2048x1024 .f32 := Host.absf main_arg8
  let main_cst_14 : FVec F S_ .f32 := constant S_ .f32 0x7F800000#32
  let main_v40 : FVec F S2048x1024 .f32 := broadcastInDim S2048x1024 ![] bcast_S_S2048x1024 main_cst_14
  let main_v41 : IVec S2048x1024 1 := cmpf .olt main_v39 main_v40
  let main_c_15 : IVec S_ 1 := constantI S_ 1 1#1
  let main_v42 : IVec S_ 1 := (fun x v => Host.reduce IntOp.andi x v reducesTo_S2048x1024_S_d0_1 h_S_) main_v41 main_c_15
  let main_v43 : IVec S_ 1 := andi main_v38 main_v42
  let main_v44 : FVec F S2048 .f32 := Host.absf main_arg9
  let main_cst_16 : FVec F S_ .f32 := constant S_ .f32 0x7F800000#32
  let main_v45 : FVec F S2048 .f32 := broadcastInDim S2048 ![] bcast_S_S2048 main_cst_16
  let main_v46 : IVec S2048 1 := cmpf .olt main_v44 main_v45
  let main_c_17 : IVec S_ 1 := constantI S_ 1 1#1
  let main_v47 : IVec S_ 1 := (fun x v => Host.reduce IntOp.andi x v reducesTo_S2048_S_d0 h_S_) main_v46 main_c_17
  let main_v48 : IVec S_ 1 := andi main_v43 main_v47
  let main_v49 : FVec F S2048 .f32 := Host.absf main_arg10
  let main_cst_18 : FVec F S_ .f32 := constant S_ .f32 0x7F800000#32
  let main_v50 : FVec F S2048 .f32 := broadcastInDim S2048 ![] bcast_S_S2048 main_cst_18
  fn_part3 (F := F) main_arg11 main_arg12 main_arg13 main_arg14 main_arg15 main_arg16 main_arg17 main_arg18 main_v48 main_v49 main_v50

def fn_part1 {F : FTy → Type} [FloatOps F] (main_arg4 : FVec F S4096x2048 .f32) (main_arg5 : FVec F S2048x1024 .f32) (main_arg6 : FVec F S2048x1024 .f32) (main_arg7 : FVec F S2048x1024 .f32) (main_arg8 : FVec F S2048x1024 .f32) (main_arg9 : FVec F S2048 .f32) (main_arg10 : FVec F S2048 .f32) (main_arg11 : FVec F S2048 .f32) (main_arg12 : FVec F S2048 .f32) (main_arg13 : FVec F S2048x2048 .f32) (main_arg14 : FVec F S2048x2048 .f32) (main_arg15 : FVec F S2048x2048 .f32) (main_arg16 : FVec F S2048x2048 .f32) (main_arg17 : FVec F S2048 .f32) (main_arg18 : FVec F S2048 .f32) (main_v13 : IVec S_ 1) (main_v16 : IVec S4096x2048 1) : IVec S_ 1 :=
  let main_c_5 : IVec S_ 1 := constantI S_ 1 1#1
  let main_v17 : IVec S_ 1 := (fun x v => Host.reduce IntOp.andi x v reducesTo_S4096x2048_S_d0_1 h_S_) main_v16 main_c_5
  let main_v18 : IVec S_ 1 := andi main_v13 main_v17
  let main_v19 : FVec F S4096x2048 .f32 := Host.absf main_arg4
  let main_cst_6 : FVec F S_ .f32 := constant S_ .f32 0x7F800000#32
  let main_v20 : FVec F S4096x2048 .f32 := broadcastInDim S4096x2048 ![] bcast_S_S4096x2048 main_cst_6
  let main_v21 : IVec S4096x2048 1 := cmpf .olt main_v19 main_v20
  let main_c_7 : IVec S_ 1 := constantI S_ 1 1#1
  let main_v22 : IVec S_ 1 := (fun x v => Host.reduce IntOp.andi x v reducesTo_S4096x2048_S_d0_1 h_S_) main_v21 main_c_7
  let main_v23 : IVec S_ 1 := andi main_v18 main_v22
  let main_v24 : FVec F S2048x1024 .f32 := Host.absf main_arg5
  let main_cst_8 : FVec F S_ .f32 := constant S_ .f32 0x7F800000#32
  let main_v25 : FVec F S2048x1024 .f32 := broadcastInDim S2048x1024 ![] bcast_S_S2048x1024 main_cst_8
  let main_v26 : IVec S2048x1024 1 := cmpf .olt main_v24 main_v25
  let main_c_9 : IVec S_ 1 := constantI S_ 1 1#1
  let main_v27 : IVec S_ 1 := (fun x v => Host.reduce IntOp.andi x v reducesTo_S2048x1024_S_d0_1 h_S_) main_v26 main_c_9
  let main_v28 : IVec S_ 1 := andi main_v23 main_v27
  let main_v29 : FVec F S2048x1024 .f32 := Host.absf main_arg6
  let main_cst_10 : FVec F S_ .f32 := constant S_ .f32 0x7F800000#32
  let main_v30 : FVec F S2048x1024 .f32 := broadcastInDim S2048x1024 ![] bcast_S_S2048x1024 main_cst_10
  let main_v31 : IVec S2048x1024 1 := cmpf .olt main_v29 main_v30
  let main_c_11 : IVec S_ 1 := constantI S_ 1 1#1
  let main_v32 : IVec S_ 1 := (fun x v => Host.reduce IntOp.andi x v reducesTo_S2048x1024_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S4096x1024 .f32) (main_arg1 : FVec F S4096x2048 .f32) (main_arg2 : FVec F S4096x2048 .f32) (main_arg3 : FVec F S4096x2048 .f32) (main_arg4 : FVec F S4096x2048 .f32) (main_arg5 : FVec F S2048x1024 .f32) (main_arg6 : FVec F S2048x1024 .f32) (main_arg7 : FVec F S2048x1024 .f32) (main_arg8 : FVec F S2048x1024 .f32) (main_arg9 : FVec F S2048 .f32) (main_arg10 : FVec F S2048 .f32) (main_arg11 : FVec F S2048 .f32) (main_arg12 : FVec F S2048 .f32) (main_arg13 : FVec F S2048x2048 .f32) (main_arg14 : FVec F S2048x2048 .f32) (main_arg15 : FVec F S2048x2048 .f32) (main_arg16 : FVec F S2048x2048 .f32) (main_arg17 : FVec F S2048 .f32) (main_arg18 : FVec F S2048 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S4096x2048 .f32 := Host.absf main_arg3
  let main_cst_4 : FVec F S_ .f32 := constant S_ .f32 0x7F800000#32
  let main_v15 : FVec F S4096x2048 .f32 := broadcastInDim S4096x2048 ![] bcast_S_S4096x2048 main_cst_4
  let main_v16 : IVec S4096x2048 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S4096x1024 : Shape := ⟨2, ![4096, 1024]⟩
abbrev S4096x2048 : Shape := ⟨2, ![4096, 2048]⟩
abbrev S2048x1024 : Shape := ⟨2, ![2048, 1024]⟩
abbrev S2048 : Shape := ⟨1, ![2048]⟩
abbrev S2048x2048 : Shape := ⟨2, ![2048, 2048]⟩
abbrev S8192x1024 : Shape := ⟨2, ![8192, 1024]⟩
abbrev S8192 : Shape := ⟨1, ![8192]⟩
abbrev S8192x2048 : Shape := ⟨2, ![8192, 2048]⟩
abbrev S4096x3072 : Shape := ⟨2, ![4096, 3072]⟩
abbrev S8192x3072 : Shape := ⟨2, ![8192, 3072]⟩
abbrev S1x8192 : Shape := ⟨2, ![1, 8192]⟩
abbrev S1x2048 : Shape := ⟨2, ![1, 2048]⟩
abbrev S256x256 : Shape := ⟨2, ![256, 256]⟩
abbrev S8192x256 : Shape := ⟨2, ![8192, 256]⟩
abbrev S256x2048 : Shape := ⟨2, ![256, 2048]⟩
abbrev S256x8192 : Shape := ⟨2, ![256, 8192]⟩
abbrev S256 : Shape := ⟨1, ![256]⟩
abbrev S256x1 : Shape := ⟨2, ![256, 1]⟩

abbrev nBuf : Space → Nat
  | .hbm => 33
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048, .f32⟩
  | .hbm, ⟨10, _⟩ => ⟨S2048, .f32⟩
  | .hbm, ⟨11, _⟩ => ⟨S2048, .f32⟩
  | .hbm, ⟨12, _⟩ => ⟨S2048, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048, .f32⟩
  | .hbm, ⟨18, _⟩ => ⟨S2048, .f32⟩
  | .hbm, ⟨19, _⟩ => ⟨S8192x1024, .f32⟩
  | .hbm, ⟨20, _⟩ => ⟨S8192, .f32⟩
  | .hbm, ⟨21, _⟩ => ⟨S8192x2048, .f32⟩
  | .hbm, ⟨22, _⟩ => ⟨S4096x3072, .f32⟩
  | .hbm, ⟨23, _⟩ => ⟨S4096x3072, .bf16⟩
  | .hbm, ⟨24, _⟩ => ⟨S8192x3072, .f32⟩
  | .hbm, ⟨25, _⟩ => ⟨S8192x3072, .bf16⟩
  | .hbm, ⟨26, _⟩ => ⟨S1x8192, .f32⟩
  | .hbm, ⟨27, _⟩ => ⟨S1x2048, .f32⟩
  | .hbm, ⟨28, _⟩ => ⟨S1x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S4096x2048, .f32⟩
  | .local _ .vmem, ⟨0, _⟩ => ⟨S256x256, .bf16⟩
  | .local _ .vmem, ⟨1, _⟩ => ⟨S256x256, .bf16⟩
  | .local _ .vmem, ⟨2, _⟩ => ⟨S8192x256, .bf16⟩
  | .local _ .vmem, ⟨3, _⟩ => ⟨S8192x256, .bf16⟩
  | .local _ .vmem, ⟨4, _⟩ => ⟨S1x8192, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S1x2048, .f32⟩
  | .local _ .vmem, ⟨9, _⟩ => ⟨S1x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x8192, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10_0 : Ref sig .tc := ⟨.hbm, 29, rfl⟩
abbrev main_v10_1 : Ref sig .tc := ⟨.hbm, 30, rfl⟩
abbrev main_v10_2 : Ref sig .tc := ⟨.hbm, 31, rfl⟩
abbrev main_v10_3 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13

abbrev nD : Nat := 1
abbrev τ : Topo := Topo.v7x

variable {F : FTy → Type} [FloatOps F]

abbrev grid0 : Pipeline.Grid := ⟨2, ![16, 12], ![false, false]⟩

def k0_cond2 (i : grid0.Coords) : BitVec 1 :=
  let arg1 : BitVec 32 := BitVec.ofNat 32 (i 1).val
  let c11_i32 : BitVec 32 := 11#32
  let v13 : BitVec 1 := Scalar.cmpi .eq arg1 c11_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S256x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]

abbrev stage0_9 : Fin 1 → Memref sig .tc .vmem S256x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, false]

abbrev stage0_10 : Fin 1 → Memref sig .tc .vmem S256x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, false]

abbrev stage0_11 : Fin 1 → Memref sig .tc .vmem S256x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, false]

class Facts₀ : Prop where
  concatenates_S2048x1024_S2048x1024_S2048x1024_S2048x1024_S8192x1024_d0 : Shape.Concatenates [S2048x1024, S2048x1024, S2048x1024, S2048x1024] S8192x1024 0
  concatenates_S2048_S2048_S2048_S2048_S8192_d0 : Shape.Concatenates [S2048, S2048, S2048, S2048] S8192 0
  concatenates_S2048x2048_S2048x2048_S2048x2048_S2048x2048_S8192x2048_d0 : Shape.Concatenates [S2048x2048, S2048x2048, S2048x2048, S2048x2048] S8192x2048 0
  concatenates_S4096x1024_S4096x2048_S4096x3072_d1 : Shape.Concatenates [S4096x1024, S4096x2048] S4096x3072 1
  bitsLt_bf16_f32 : FTy.bits .bf16 < FTy.bits .f32
  concatenates_S8192x1024_S8192x2048_S8192x3072_d1 : Shape.Concatenates [S8192x1024, S8192x2048] S8192x3072 1
  shapeCasts_S8192_S1x8192 : S8192.ShapeCasts S1x8192
  shapeCasts_S2048_S1x2048 : S2048.ShapeCasts S1x2048
  inb_S256x8192_S256x8192_0_0 : ∀ a, (![0, 0] : Fin 2 → Nat) a + S256x8192.size a ≤ S256x8192.size a
  h_S256x8192 : 0 < S256x8192.numel
  shapeCasts_S256x8192_S256x8192 : S256x8192.ShapeCasts S256x8192
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S8192x256_S8192x256_0_0 : ∀ a, (![0, 0] : Fin 2 → Nat) a + S8192x256.size a ≤ S8192x256.size a
  h_S8192x256 : 0 < S8192x256.numel
  shapeCasts_S8192x256_S8192x256 : S8192x256.ShapeCasts S8192x256
  inb_S256x8192_S256x2048_0_0 : ∀ a, (![0, 0] : Fin 2 → Nat) a + S256x2048.size a ≤ S256x8192.size a
  h_S256x2048 : 0 < S256x2048.numel
  inb_S1x8192_S1x2048_0_0 : ∀ a, (![0, 0] : Fin 2 → Nat) a + S1x2048.size a ≤ S1x8192.size a
  h_S1x2048 : 0 < S1x2048.numel
  shapeCasts_S1x2048_S1x2048 : S1x2048.ShapeCasts S1x2048
  broadcasts_S1x2048_S256x2048 : S1x2048.Broadcasts S256x2048
  inb_S256x8192_S256x2048_0_2048 : ∀ a, (![0, 2048] : Fin 2 → Nat) a + S256x2048.size a ≤ S256x8192.size a
  inb_S1x8192_S1x2048_0_2048 : ∀ a, (![0, 2048] : Fin 2 → Nat) a + S1x2048.size a ≤ S1x8192.size a
  inb_S256x8192_S256x2048_0_4096 : ∀ a, (![0, 4096] : Fin 2 → Nat) a + S256x2048.size a ≤ S256x8192.size a
  inb_S1x8192_S1x2048_0_4096 : ∀ a, (![0, 4096] : Fin 2 → Nat) a + S1x2048.size a ≤ S1x8192.size a
  inb_S256x8192_S256x2048_0_6144 : ∀ a, (![0, 6144] : Fin 2 → Nat) a + S256x2048.size a ≤ S256x8192.size a
  inb_S1x8192_S1x2048_0_6144 : ∀ a, (![0, 6144] : Fin 2 → Nat) a + S1x2048.size a ≤ S1x8192.size a
  inb_S256x2048_S256x2048_0_0 : ∀ a, (![0, 0] : Fin 2 → Nat) a + S256x2048.size a ≤ S256x2048.size a
  reduces_S256x2048_S256 : S256x2048.Reduces [1] S256
  shapeCasts_S256_S256x1 : S256.ShapeCasts S256x1
  broadcasts_S256x1_S256x2048 : S256x1.Broadcasts S256x2048
  inb_S1x2048_S1x2048_0_0 : ∀ a, (![0, 0] : Fin 2 → Nat) a + S1x2048.size a ≤ S1x2048.size a
  dot_S256x256_S8192x256_S256x8192_1_1_0_0_n_n_wf : DotDims.WF S256x256 S8192x256 S256x8192 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x256.size a ≤ S4096x3072.size a
  hwx0_0 : ∀ i : grid0.Coords, EltTy.bits .bf16 = 32 ∨ (Rect.block (s := S4096x3072) S256x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x256.size a ≤ S8192x3072.size a
  hwx0_1 : ∀ i : grid0.Coords, EltTy.bits .bf16 = 32 ∨ (Rect.block (s := S8192x3072) S8192x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x8192.size a ≤ S1x8192.size a
  hwx0_2 : ∀ i : grid0.Coords, EltTy.bits .f32 = 32 ∨ (Rect.block (s := S1x8192) S1x8192.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x2048.size a ≤ S4096x2048.size a
  hwx0_3 : ∀ i : grid0.Coords, EltTy.bits .f32 = 32 ∨ (Rect.block (s := S4096x2048) S256x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x2048.size a ≤ S4096x2048.size a
  hwx0_4 : ∀ i : grid0.Coords, EltTy.bits .f32 = 32 ∨ (Rect.block (s := S4096x2048) S256x2048.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x2048.size a ≤ S4096x2048.size a
  hwx0_5 : ∀ i : grid0.Coords, EltTy.bits .f32 = 32 ∨ (Rect.block (s := S4096x2048) S256x2048.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x2048.size a ≤ S1x2048.size a
  hwx0_6 : ∀ i : grid0.Coords, EltTy.bits .f32 = 32 ∨ (Rect.block (s := S1x2048) S1x2048.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x2048.size a ≤ S1x2048.size a
  hwx0_7 : ∀ i : grid0.Coords, EltTy.bits .f32 = 32 ∨ (Rect.block (s := S1x2048) S1x2048.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x2048.size a ≤ S4096x2048.size a
  hwx0_8 : ∀ i : grid0.Coords, EltTy.bits .f32 = 32 ∨ (Rect.block (s := S4096x2048) S256x2048.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x2048.size a ≤ S4096x2048.size a
  hwx0_9 : ∀ i : grid0.Coords, EltTy.bits .f32 = 32 ∨ (Rect.block (s := S4096x2048) S256x2048.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256x2048.size a ≤ S4096x2048.size a
  hwx0_10 : ∀ i : grid0.Coords, EltTy.bits .f32 = 32 ∨ (Rect.block (s := S4096x2048) S256x2048.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256x2048.size a ≤ S4096x2048.size a
  hwx0_11 : ∀ i : grid0.Coords, EltTy.bits .f32 = 32 ∨ (Rect.block (s := S4096x2048) S256x2048.size (cc0_transform_11 i) (hinb0_11 i)).WholeWords (EltTy.packing .f32)

variable [Facts₀]

def dot_S256x256_S8192x256_S256x8192_1_1_0_0_n_n : DotDims S256x256 S8192x256 S256x8192 where
  lhsContracting := [1]
  rhsContracting := [1]
  lhsNonContracting := [0]
  rhsNonContracting := [0]
  lhsBatch := []
  rhsBatch := []
  wf := dot_S256x256_S8192x256_S256x8192_1_1_0_0_n_n_wf

abbrev win0_0 : Pipeline.Window sig grid0 :=
  Pipeline.Window.ofSpec (Memref.whole main_v4) S256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S8192x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x8192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S256x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S256x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S256x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S1x2048.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v10_0) S256x2048.size cc0_transform_8 reads0_8 true true 1 stage0_8 sem0_8
    hrank0 hreads0_8 hinb0_8 nbuf0_8 (Memref.isWhole_whole _) hwx0_8 hstage0_8

abbrev win0_9 : Pipeline.Window sig grid0 :=
  Pipeline.Window.ofSpec (Memref.whole main_v10_1) S256x2048.size cc0_transform_9 reads0_9 true true 1 stage0_9 sem0_9
    hrank0 hreads0_9 hinb0_9 nbuf0_9 (Memref.isWhole_whole _) hwx0_9 hstage0_9

abbrev win0_10 : Pipeline.Window sig grid0 :=
  Pipeline.Window.ofSpec (Memref.whole main_v10_2) S256x2048.size cc0_transform_10 reads0_10 true true 1 stage0_10 sem0_10
    hrank0 hreads0_10 hinb0_10 nbuf0_10 (Memref.isWhole_whole _) hwx0_10 hstage0_10

abbrev win0_11 : Pipeline.Window sig grid0 :=
  Pipeline.Window.ofSpec (Memref.whole main_v10_3) S256x2048.size cc0_transform_11 reads0_11 true true 1 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev idle0 : Fin 12 → grid0.Coords → Bool := fun | 0 => fun _ => false | 1 => fun _ => false | 2 => fun _ => false | 3 => fun _ => false | 4 => fun _ => false | 5 => fun _ => false | 6 => fun _ => false | 7 => fun _ => false | 8 => fun i => !(k0_cond2 i == 1#1) | 9 => fun i => !(k0_cond2 i == 1#1) | 10 => fun i => !(k0_cond2 i == 1#1) | 11 => fun i => !(k0_cond2 i == 1#1) | ⟨_ + 12, h⟩ => absurd h (Nat.not_lt.2 (Nat.le_add_left _ _))

class Facts : Prop extends Facts₀ where

variable [Facts]
-- ==== ReferenceIdeal.lean ====
abbrev S4096x1024 : Shape := ⟨2, ![4096, 1024]⟩
abbrev S4096x2048 : Shape := ⟨2, ![4096, 2048]⟩
abbrev S2048x1024 : Shape := ⟨2, ![2048, 1024]⟩
abbrev S2048 : Shape := ⟨1, ![2048]⟩
abbrev S2048x2048 : Shape := ⟨2, ![2048, 2048]⟩
abbrev S8192x1024 : Shape := ⟨2, ![8192, 1024]⟩
abbrev S8192 : Shape := ⟨1, ![8192]⟩
abbrev S8192x2048 : Shape := ⟨2, ![8192, 2048]⟩
abbrev S1024x8192 : Shape := ⟨2, ![1024, 8192]⟩
abbrev S4096x8192 : Shape := ⟨2, ![4096, 8192]⟩
abbrev S1x8192 : Shape := ⟨2, ![1, 8192]⟩
abbrev S2048x8192 : Shape := ⟨2, ![2048, 8192]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 98
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048, .f32⟩
  | .hbm, ⟨10, _⟩ => ⟨S2048, .f32⟩
  | .hbm, ⟨11, _⟩ => ⟨S2048, .f32⟩
  | .hbm, ⟨12, _⟩ => ⟨S2048, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048, .f32⟩
  | .hbm, ⟨18, _⟩ => ⟨S2048, .f32⟩
  | .hbm, ⟨19, _⟩ => ⟨S8192x1024, .f32⟩
  | .hbm, ⟨20, _⟩ => ⟨S8192, .f32⟩
  | .hbm, ⟨21, _⟩ => ⟨S8192x2048, .f32⟩
  | .hbm, ⟨22, _⟩ => ⟨S1024x8192, .f32⟩
  | .hbm, ⟨23, _⟩ => ⟨S4096x8192, .f32⟩
  | .hbm, ⟨24, _⟩ => ⟨S1x8192, .f32⟩
  | .hbm, ⟨25, _⟩ => ⟨S4096x8192, .f32⟩
  | .hbm, ⟨26, _⟩ => ⟨S4096x8192, .f32⟩
  | .hbm, ⟨27, _⟩ => ⟨S2048x8192, .f32⟩
  | .hbm, ⟨28, _⟩ => ⟨S4096x8192, .f32⟩
  | .hbm, ⟨29, _⟩ => ⟨S4096x8192, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S_, .f32⟩
  | .hbm, ⟨37, _⟩ => ⟨S4096x2048, .f32⟩
  | .hbm, ⟨38, _⟩ => ⟨S4096x2048, .f32⟩
  | .hbm, ⟨39, _⟩ => ⟨S_, .f32⟩
  | .hbm, ⟨40, _⟩ => ⟨S4096x2048, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S_, .f32⟩
  | .hbm, ⟨45, _⟩ => ⟨S4096x2048, .f32⟩
  | .hbm, ⟨46, _⟩ => ⟨S4096x2048, .f32⟩
  | .hbm, ⟨47, _⟩ => ⟨S_, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S4096x2048, .f32⟩
  | .hbm, ⟨53, _⟩ => ⟨S_, .f32⟩
  | .hbm, ⟨54, _⟩ => ⟨S4096x2048, .f32⟩
  | .hbm, ⟨55, _⟩ => ⟨S4096x2048, .f32⟩
  | .hbm, ⟨56, _⟩ => ⟨S_, .f32⟩
  | .hbm, ⟨57, _⟩ => ⟨S4096x2048, .f32⟩
  | .hbm, ⟨58, _⟩ => ⟨S4096x2048, .f32⟩
  | .hbm, ⟨59, _⟩ => ⟨S4096x2048, .f32⟩
  | .hbm, ⟨60, _⟩ => ⟨S4096x2048, .f32⟩
  | .hbm, ⟨61, _⟩ => ⟨S4096x2048, .f32⟩
  | .hbm, ⟨62, _⟩ => ⟨S4096x2048, .f32⟩
  | .hbm, ⟨63, _⟩ => ⟨S4096x2048, .f32⟩
  | .hbm, ⟨64, _⟩ => ⟨S4096x2048, .f32⟩
  | .hbm, ⟨65, _⟩ => ⟨S4096x2048, .f32⟩
  | .hbm, ⟨66, _⟩ => ⟨S4096x2048, .f32⟩
  | .hbm, ⟨67, _⟩ => ⟨S_, .f32⟩
  | .hbm, ⟨68, _⟩ => ⟨S4096, .f32⟩
  | .hbm, ⟨69, _⟩ => ⟨S4096x1, .f32⟩
  | .hbm, ⟨70, _⟩ => ⟨S_, .f32⟩
  | .hbm, ⟨71, _⟩ => ⟨S4096x1, .f32⟩
  | .hbm, ⟨72, _⟩ => ⟨S4096x1, .f32⟩
  | .hbm, ⟨73, _⟩ => ⟨S4096x2048, .f32⟩
  | .hbm, ⟨74, _⟩ => ⟨S4096x2048, .f32⟩
  | .hbm, ⟨75, _⟩ => ⟨S4096x2048, .f32⟩
  | .hbm, ⟨76, _⟩ => ⟨S_, .f32⟩
  | .hbm, ⟨77, _⟩ => ⟨S4096, .f32⟩
  | .hbm, ⟨78, _⟩ => ⟨S4096x1, .f32⟩
  | .hbm, ⟨79, _⟩ => ⟨S_, .f32⟩
  | .hbm, ⟨80, _⟩ => ⟨S4096x1, .f32⟩
  | .hbm, ⟨81, _⟩ => ⟨S4096x1, .f32⟩
  | .hbm, ⟨82, _⟩ => ⟨S4096x2048, .f32⟩
  | .hbm, ⟨83, _⟩ => ⟨S4096x2048, .f32⟩
  | .hbm, ⟨84, _⟩ => ⟨S_, .f32⟩
  | .hbm, ⟨85, _⟩ => ⟨S4096x1, .f32⟩
  | .hbm, ⟨86, _⟩ => ⟨S4096x1, .f32⟩
  | .hbm, ⟨87, _⟩ => ⟨S4096x1, .f32⟩
  | .hbm, ⟨88, _⟩ => ⟨S4096x2048, .f32⟩
  | .hbm, ⟨89, _⟩ => ⟨S4096x2048, .f32⟩
  | .hbm, ⟨90, _⟩ => ⟨S1x2048, .f32⟩
  | .hbm, ⟨91, _⟩ => ⟨S4096x2048, .f32⟩
  | .hbm, ⟨92, _⟩ => ⟨S4096x2048, .f32⟩
  | .hbm, ⟨93, _⟩ => ⟨S1x2048, .f32⟩
  | .hbm, ⟨94, _⟩ => ⟨S4096x2048, .f32⟩
  | .hbm, ⟨95, _⟩ => ⟨S4096x2048, .f32⟩
  | .hbm, ⟨96, _⟩ => ⟨S4096x2048, .f32⟩
  | .hbm, ⟨97, _⟩ => ⟨S4096x2048, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_cst : Ref sig .tc := ⟨.hbm, 36, rfl⟩
abbrev main_v17 : Ref sig .tc := ⟨.hbm, 37, rfl⟩
abbrev main_v18 : Ref sig .tc := ⟨.hbm, 38, rfl⟩
abbrev main_cst_0 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst_1 : Ref sig .tc := ⟨.hbm, 44, rfl⟩
abbrev main_v23 : Ref sig .tc := ⟨.hbm, 45, rfl⟩
abbrev main_v24 : Ref sig .tc := ⟨.hbm, 46, rfl⟩
abbrev main_cst_2 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_3 : Ref sig .tc := ⟨.hbm, 53, rfl⟩
abbrev main_v30 : Ref sig .tc := ⟨.hbm, 54, rfl⟩
abbrev main_v31 : Ref sig .tc := ⟨.hbm, 55, rfl⟩
abbrev main_cst_4 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_5 : Ref sig .tc := ⟨.hbm, 67, rfl⟩
abbrev main_v42 : Ref sig .tc := ⟨.hbm, 68, rfl⟩
abbrev main_v43 : Ref sig .tc := ⟨.hbm, 69, rfl⟩
abbrev main_cst_6 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_7 : Ref sig .tc := ⟨.hbm, 76, rfl⟩
abbrev main_v49 : Ref sig .tc := ⟨.hbm, 77, rfl⟩
abbrev main_v50 : Ref sig .tc := ⟨.hbm, 78, rfl⟩
abbrev main_cst_8 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst_9 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩

abbrev nD : Nat := 1
abbrev τ : Topo := Topo.v7x

variable {F : FTy → Type} [FloatOps F]

class Facts₀ : Prop where
  concatenates_S2048x1024_S2048x1024_S2048x1024_S2048x1024_S8192x1024_d0 : Shape.Concatenates [S2048x1024, S2048x1024, S2048x1024, S2048x1024] S8192x1024 0
  concatenates_S2048_S2048_S2048_S2048_S8192_d0 : Shape.Concatenates [S2048, S2048, S2048, S2048] S8192 0
  concatenates_S2048x2048_S2048x2048_S2048x2048_S2048x2048_S8192x2048_d0 : Shape.Concatenates [S2048x2048, S2048x2048, S2048x2048, S2048x2048] S8192x2048 0
  transposes_S8192x1024_S1024x8192_1_0 : S8192x1024.Transposes [1, 0] S1024x8192
  bcast_S8192_S1x8192_1 : S8192.BroadcastsInDim S1x8192 (![1] : Fin 1 → Fin S1x8192.rank)
  bcast_S1x8192_S4096x8192_0_1 : S1x8192.BroadcastsInDim S4096x8192 (![0, 1] : Fin 2 → Fin S4096x8192.rank)
  transposes_S8192x2048_S2048x8192_1_0 : S8192x2048.Transposes [1, 0] S2048x8192
  slices_S4096x8192_S4096x2048_0_0 : S4096x8192.Slices ![0, 0] S4096x2048
  slices_S4096x8192_S4096x2048_0_2048 : S4096x8192.Slices ![0, 2048] S4096x2048
  slices_S4096x8192_S4096x2048_0_4096 : S4096x8192.Slices ![0, 4096] S4096x2048
  slices_S4096x8192_S4096x2048_0_6144 : S4096x8192.Slices ![0, 6144] S4096x2048
  bcast_S_S4096x2048 : S_.BroadcastsInDim S4096x2048 (![] : Fin 0 → Fin S4096x2048.rank)
  reducesTo_S4096x2048_S4096_d1 : S4096x2048.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x2048_0_1 : S4096x1.BroadcastsInDim S4096x2048 (![0, 1] : Fin 2 → Fin S4096x2048.rank)
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  dot_S4096x1024_S1024x8192_S4096x8192_1_0_0_1_n_n_wf : DotDims.WF S4096x1024 S1024x8192 S4096x8192 [1] [0] [0] [1] [] []
  dot_S4096x2048_S2048x8192_S4096x8192_1_0_0_1_n_n_wf : DotDims.WF S4096x2048 S2048x8192 S4096x8192 [1] [0] [0] [1] [] []

variable [Facts₀]

def dot_S4096x1024_S1024x8192_S4096x8192_1_0_0_1_n_n : DotDims S4096x1024 S1024x8192 S4096x8192 where
  lhsContracting := [1]
  rhsContracting := [0]
  lhsNonContracting := [0]
  rhsNonContracting := [1]
  lhsBatch := []
  rhsBatch := []
  wf := dot_S4096x1024_S1024x8192_S4096x8192_1_0_0_1_n_n_wf
def dot_S4096x2048_S2048x8192_S4096x8192_1_0_0_1_n_n : DotDims S4096x2048 S2048x8192 S4096x8192 where
  lhsContracting := [1]
  rhsContracting := [0]
  lhsNonContracting := [0]
  rhsNonContracting := [1]
  lhsBatch := []
  rhsBatch := []
  wf := dot_S4096x2048_S2048x8192_S4096x8192_1_0_0_1_n_n_wf

class Facts : Prop extends Facts₀ where

variable [Facts]
-- ==== Proof.FrBaseK.lean ====
/-
  The launch side of the frame of this program, shared by the three runs of the kernel body: the arrays as the
  region finds them (after the ten host lines that concatenate the weights, biases and inputs and reshape the
  three vectors), each window's block at a grid point, the two conditions of the body decided over the 16 × 12
  grid (the reduction coordinate k = t mod 12 is 0, resp. 11), where the four output windows are idle, and the
  staging memrefs by name.
-/
import proofs.«142335_j2551210574034_2_alg».proof.Proof.Gen.Kernel.Launch
import proofs.«142335_j2551210574034_2_alg».proof.Proof.Gen.Kernel.Skeleton
import proofs.«142335_j2551210574034_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: after the ten host lines. -/
abbrev V (c : Dev nD) (b : Ref sig .tc) : Buf (Elt F) ((c : Thread nD τ).loc b) :=
  StableHlo.after (List.flatten [hostOps0]) (fun b => m (c, b)) b

theorem hostOps0_fresh : (hostOps0 : List (HloOp τ sig (Elt F))).Forall fun op => op.fresh = ∅ := by
  simp only [List.Forall]; repeat' constructor

/-- @main is its host lines, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

/-- No host line before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nary_writes, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nary_writes, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nary_writes, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nary_writes, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nary_writes, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nary_writes, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nary_writes, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nary_writes, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nary_writes, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nary_writes, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nary_writes, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nary_writes, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nary_writes, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes argument 13: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nary_writes, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes argument 14: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nary_writes, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes argument 15: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.flatten_cons, List.flatten_nil, List.append_nil, List.cons_append,
      List.nil_append, List.Forall, StableHlo.nary_writes, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes argument 16: the region finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.flatten_cons, List.flatten_nil, List.append_nil, List.cons_append,
      List.nil_append, List.Forall, StableHlo.nary_writes, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes argument 17: the region finds it as launched. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.flatten_cons, List.flatten_nil, List.append_nil, List.cons_append,
      List.nil_append, List.Forall, StableHlo.nary_writes, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes argument 18: the region finds it as launched. -/
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.flatten_cons, List.flatten_nil, List.append_nil, List.cons_append,
      List.nil_append, List.Forall, StableHlo.nary_writes, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run's -/

/-- For any proof data whose arrays are the region-entry contents, a run to the library's frame post read at the
    nineteen argument arrays: c_prev, n_prev, m_prev are staged inputs (windows 3, 4, 5), the other sixteen bypass the
    pipeline. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 3).trans (((dats 0 c).arrAt_in 3 rfl _).trans ((hA c 3).trans (V_main_arg2 m c))),
      ((h c).1 4).trans (((dats 0 c).arrAt_in 4 rfl _).trans ((hA c 4).trans (V_main_arg3 m c))),
      ((h c).1 5).trans (((dats 0 c).arrAt_in 5 rfl _).trans ((hA c 5).trans (V_main_arg4 m c))),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c)⟩) h

/-! ## The body's two conditions over the grid -/

/-- The first branch is taken where the reduction coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 12 = 0 :=
  (by decide +kernel : ∀ t : Fin grid0.N, cond0_0 (grid0.coords t) ↔ t.val % 12 = 0)
/-- The epilogue runs where the reduction coordinate is 11. -/
abbrev cond0_1 (i : grid0.Coords) : Prop := k0_cond2 i = 1#1
theorem hcond0_1 : ∀ t : Fin cfg0.N, cond0_1 (grid0.coords t) ↔ t.val % 12 = 11 :=
  (by decide +kernel : ∀ t : Fin grid0.N, cond0_1 (grid0.coords t) ↔ t.val % 12 = 11)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
theorem idleAt0_8 : ∀ t : Fin cfg0.N, ¬cond0_1 (grid0.coords t) → cfg0.idle 8 (grid0.coords t) = true := by decide +kernel
theorem noFlush0_8 : ∀ t : Fin cfg0.N, ¬cond0_1 (grid0.coords t) → (cfg0.win 8).flush t = false := by decide +kernel
theorem liveAt0_8_C : ∀ t : Fin cfg0.N, cond0_1 (grid0.coords t) → cfg0.idle 8 (grid0.coords t) = false := by decide +kernel
abbrev VO0_8 : View sig .tc .vmem S256x2048 .f32 := (Memref.whole cc0_stg8_0 : Memref sig .tc .vmem S256x2048 .f32).view
theorem idleAt0_9 : ∀ t : Fin cfg0.N, ¬cond0_1 (grid0.coords t) → cfg0.idle 9 (grid0.coords t) = true := by decide +kernel
theorem noFlush0_9 : ∀ t : Fin cfg0.N, ¬cond0_1 (grid0.coords t) → (cfg0.win 9).flush t = false := by decide +kernel
theorem liveAt0_9_C : ∀ t : Fin cfg0.N, cond0_1 (grid0.coords t) → cfg0.idle 9 (grid0.coords t) = false := by decide +kernel
abbrev VO0_9 : View sig .tc .vmem S256x2048 .f32 := (Memref.whole cc0_stg9_0 : Memref sig .tc .vmem S256x2048 .f32).view
theorem idleAt0_10 : ∀ t : Fin cfg0.N, ¬cond0_1 (grid0.coords t) → cfg0.idle 10 (grid0.coords t) = true := by decide +kernel
theorem noFlush0_10 : ∀ t : Fin cfg0.N, ¬cond0_1 (grid0.coords t) → (cfg0.win 10).flush t = false := by decide +kernel
theorem liveAt0_10_C : ∀ t : Fin cfg0.N, cond0_1 (grid0.coords t) → cfg0.idle 10 (grid0.coords t) = false := by decide +kernel
abbrev VO0_10 : View sig .tc .vmem S256x2048 .f32 := (Memref.whole cc0_stg10_0 : Memref sig .tc .vmem S256x2048 .f32).view
theorem idleAt0_11 : ∀ t : Fin cfg0.N, ¬cond0_1 (grid0.coords t) → cfg0.idle 11 (grid0.coords t) = true := by decide +kernel
theorem noFlush0_11 : ∀ t : Fin cfg0.N, ¬cond0_1 (grid0.coords t) → (cfg0.win 11).flush t = false := by decide +kernel
theorem liveAt0_11_C : ∀ t : Fin cfg0.N, cond0_1 (grid0.coords t) → cfg0.idle 11 (grid0.coords t) = false := by decide +kernel
abbrev VO0_11 : View sig .tc .vmem S256x2048 .f32 := (Memref.whole cc0_stg11_0 : Memref sig .tc .vmem S256x2048 .f32).view

/-! ## The staging memrefs -/

abbrev ms0_0 (t : Fin cfg0.N) : Memref sig .tc .vmem S256x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8192x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x8192 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x2048 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x2048 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x2048 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x2048 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x2048 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x2048 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S256x2048 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S256x2048 .f32 := win0_11.stage (cfg0.slots t 11)
abbrev hs0_11 (t : Fin cfg0.N) : (ms0_11 t).IsWhole := hstage0_11 ((cfg0.slots t 11).cast nbuf0_11)
/-- The accumulator: a whole scoped buffer of the kernel's own. -/
abbrev scM0_0 : Memref sig .tc .vmem S256x8192 .f32 := Memref.whole cc0_scratch0
abbrev VS0_0 : View sig .tc .vmem S256x8192 .f32 := scM0_0.view

/-- The class invariant with the accumulator as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Fr

end
-- ==== Proof.FrRunAK.lean ====
/-
  The kernel body run where the reduction coordinate is 0: the accumulator, found at anything, is zeroed and the first partial product added; the four output buffers are not touched.
-/
import proofs.«142335_j2551210574034_2_alg».proof.Proof.FrBaseK

set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- What the body leaves in the accumulator, as the pieces its stores wrote (last first), with the proof that on whole staging memrefs — the eight inputs at their contents, the four outputs handed back untouched, the accumulator at anything — the body runs to the continuation. -/
noncomputable def kernelRun0_A (c : Dev nD) (i : grid0.Coords) (arg2 : Memref sig .tc .vmem S256x256 .bf16) (harg2 : arg2.IsWhole) (arg3 : Memref sig .tc .vmem S8192x256 .bf16) (harg3 : arg3.IsWhole) (arg4 : Memref sig .tc .vmem S1x8192 .f32) (harg4 : arg4.IsWhole) (arg5 : Memref sig .tc .vmem S256x2048 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S256x2048 .f32) (harg10 : arg10.IsWhole) (arg11 : Memref sig .tc .vmem S256x2048 .f32) (harg11 : arg11.IsWhole) (arg12 : Memref sig .tc .vmem S256x2048 .f32) (harg12 : arg12.IsWhole) (arg13 : Memref sig .tc .vmem S256x2048 .f32) (harg13 : arg13.IsWhole) (arg14 : Memref sig .tc .vmem S256x8192 .f32) (harg14 : arg14.IsWhole) (hc0 : cond0_0 i) (hc1 : ¬cond0_1 i)
    (x0 : Vec F S256x256 .bf16) (x1 : Vec F S8192x256 .bf16) (x2 : Vec F S1x8192 .f32) (x3 : Vec F S256x2048 .f32) (x4 : Vec F S256x2048 .f32) (x5 : Vec F S256x2048 .f32) (x6 : Vec F S1x2048 .f32) (x7 : Vec F S1x2048 .f32) :
    { LS0 : List (View.Piece (Elt F) S256x8192 .f32) //
      ∀ (xi8 xi9 xi10 xi11 : Vec F S256x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xi9 ∗ owns (c : Thread nD τ) arg12 fullShare xi10 ∗ owns (c : Thread nD τ) arg13 fullShare xi11 ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xi9 ∗ owns (c : Thread nD τ) arg12 fullShare xi10 ∗ owns (c : Thread nD τ) arg13 fullShare xi11 ∗ (∃ f, arg14.view.loc (c : Thread nD τ) ↦[arg14.view.set]{fullShare} arg14.view.writes (Elt F) f LS0)) -∗ K ⟨⟩))
          ⊢ wp frame (wpE (defs₀ (F := F)) Variants.none c none) E (cc0__slstm_kernel i arg2 harg2 arg3 harg3 arg4 harg4 arg5 harg5 arg6 harg6 arg7 harg7 arg8 harg8 arg9 harg9 arg10 harg10 arg11 harg11 arg12 harg12 arg13 harg13 arg14 harg14) K } := by
  refine ⟨?_, fun xi8 xi9 xi10 xi11 E K => ?run⟩
  case run =>
    simp only [cc0__slstm_kernel_eq_skeleton]; unfold cc0__slstm_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    iexists _; iexact HS0

end Cert.Kernel.Fr

end
-- ==== Proof.FrRunBK.lean ====
/-
  The kernel body run where the reduction coordinate is 1 … 10: the next partial product is added to the accumulator the point before left; the four output buffers are not touched.
-/
import proofs.«142335_j2551210574034_2_alg».proof.Proof.FrRunAK

set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- What the body leaves in the accumulator, as pieces, from the accumulator at the contents the point before left. -/
noncomputable def kernelRun0_B (c : Dev nD) (i : grid0.Coords) (arg2 : Memref sig .tc .vmem S256x256 .bf16) (harg2 : arg2.IsWhole) (arg3 : Memref sig .tc .vmem S8192x256 .bf16) (harg3 : arg3.IsWhole) (arg4 : Memref sig .tc .vmem S1x8192 .f32) (harg4 : arg4.IsWhole) (arg5 : Memref sig .tc .vmem S256x2048 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S256x2048 .f32) (harg10 : arg10.IsWhole) (arg11 : Memref sig .tc .vmem S256x2048 .f32) (harg11 : arg11.IsWhole) (arg12 : Memref sig .tc .vmem S256x2048 .f32) (harg12 : arg12.IsWhole) (arg13 : Memref sig .tc .vmem S256x2048 .f32) (harg13 : arg13.IsWhole) (arg14 : Memref sig .tc .vmem S256x8192 .f32) (harg14 : arg14.IsWhole) (hc0 : ¬cond0_0 i) (hc1 : ¬cond0_1 i)
    (x0 : Vec F S256x256 .bf16) (x1 : Vec F S8192x256 .bf16) (x2 : Vec F S1x8192 .f32) (x3 : Vec F S256x2048 .f32) (x4 : Vec F S256x2048 .f32) (x5 : Vec F S256x2048 .f32) (x6 : Vec F S1x2048 .f32) (x7 : Vec F S1x2048 .f32) (xs0 : Vec F S256x8192 .f32) :
    { LS0 : List (View.Piece (Elt F) S256x8192 .f32) //
      ∀ (xi8 xi9 xi10 xi11 : Vec F S256x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xi9 ∗ owns (c : Thread nD τ) arg12 fullShare xi10 ∗ owns (c : Thread nD τ) arg13 fullShare xi11 ∗ owns (c : Thread nD τ) arg14 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xi9 ∗ owns (c : Thread nD τ) arg12 fullShare xi10 ∗ owns (c : Thread nD τ) arg13 fullShare xi11 ∗ (∃ f, arg14.view.loc (c : Thread nD τ) ↦[arg14.view.set]{fullShare} arg14.view.writes (Elt F) f LS0)) -∗ K ⟨⟩))
          ⊢ wp frame (wpE (defs₀ (F := F)) Variants.none c none) E (cc0__slstm_kernel i arg2 harg2 arg3 harg3 arg4 harg4 arg5 harg5 arg6 harg6 arg7 harg7 arg8 harg8 arg9 harg9 arg10 harg10 arg11 harg11 arg12 harg12 arg13 harg13 arg14 harg14) K } := by
  refine ⟨?_, fun xi8 xi9 xi10 xi11 E K => ?run⟩
  case run =>
    simp only [cc0__slstm_kernel_eq_skeleton]; unfold cc0__slstm_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    iexists _; iexact HS0

end Cert.Kernel.Fr

end
-- ==== Proof.FrRunCK.lean ====
/-
  The kernel body run where the reduction coordinate is 11: the last partial product is added to the accumulator, then the epilogue reads the four gate blocks of it, adds the bias row, and stores the new m, c, n and h blocks.
-/
import proofs.«142335_j2551210574034_2_alg».proof.Proof.FrRunBK

set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- What the body leaves in each output's buffer and in the accumulator, as pieces (last first), from the accumulator at the
    contents the point before left, the outputs' buffers at anything. -/
noncomputable def kernelRun0_C (c : Dev nD) (i : grid0.Coords) (arg2 : Memref sig .tc .vmem S256x256 .bf16) (harg2 : arg2.IsWhole) (arg3 : Memref sig .tc .vmem S8192x256 .bf16) (harg3 : arg3.IsWhole) (arg4 : Memref sig .tc .vmem S1x8192 .f32) (harg4 : arg4.IsWhole) (arg5 : Memref sig .tc .vmem S256x2048 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S256x2048 .f32) (harg10 : arg10.IsWhole) (arg11 : Memref sig .tc .vmem S256x2048 .f32) (harg11 : arg11.IsWhole) (arg12 : Memref sig .tc .vmem S256x2048 .f32) (harg12 : arg12.IsWhole) (arg13 : Memref sig .tc .vmem S256x2048 .f32) (harg13 : arg13.IsWhole) (arg14 : Memref sig .tc .vmem S256x8192 .f32) (harg14 : arg14.IsWhole) (hc0 : ¬cond0_0 i) (hc1 : cond0_1 i)
    (x0 : Vec F S256x256 .bf16) (x1 : Vec F S8192x256 .bf16) (x2 : Vec F S1x8192 .f32) (x3 : Vec F S256x2048 .f32) (x4 : Vec F S256x2048 .f32) (x5 : Vec F S256x2048 .f32) (x6 : Vec F S1x2048 .f32) (x7 : Vec F S1x2048 .f32) (xs0 : Vec F S256x8192 .f32) :
    Σ' (L8 : List (View.Piece (Elt F) S256x2048 .f32)) (L9 : List (View.Piece (Elt F) S256x2048 .f32)) (L10 : List (View.Piece (Elt F) S256x2048 .f32)) (L11 : List (View.Piece (Elt F) S256x2048 .f32)), { LS0 : List (View.Piece (Elt F) S256x8192 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f LS0)) -∗ K ⟨⟩))
          ⊢ wp frame (wpE (defs₀ (F := F)) Variants.none c none) E (cc0__slstm_kernel i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, fun E K => ?run⟩
  case run =>
    simp only [cc0__slstm_kernel_eq_skeleton]; unfold cc0__slstm_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg14.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    isplitl [H10]; · iexists _; iexact H10
    isplitl [H11]; · iexists _; iexact H11
    iexists _; iexact HS0

end Cert.Kernel.Fr

end
-- ==== Proof.FrFrameK.lean ====
/-
  The frame of this program: what the accumulator holds after each grid point (by recursion on the point: the body's case at the point, run on the point's blocks and on what the point before left), what the four output buffers hold after the points that store them, the proof data of the pipeline, the body obligation at every point, the run of @main and the frame claim.
-/
import proofs.«142335_j2551210574034_2_alg».proof.Proof.FrRunCK

set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- Case A's pieces for the accumulator cover it. -/
theorem scover0_A_0 (c : Dev nD) (i : grid0.Coords) (arg2 : Memref sig .tc .vmem S256x256 .bf16) (harg2 : arg2.IsWhole) (arg3 : Memref sig .tc .vmem S8192x256 .bf16) (harg3 : arg3.IsWhole) (arg4 : Memref sig .tc .vmem S1x8192 .f32) (harg4 : arg4.IsWhole) (arg5 : Memref sig .tc .vmem S256x2048 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S256x2048 .f32) (harg10 : arg10.IsWhole) (arg11 : Memref sig .tc .vmem S256x2048 .f32) (harg11 : arg11.IsWhole) (arg12 : Memref sig .tc .vmem S256x2048 .f32) (harg12 : arg12.IsWhole) (arg13 : Memref sig .tc .vmem S256x2048 .f32) (harg13 : arg13.IsWhole) (arg14 : Memref sig .tc .vmem S256x8192 .f32) (harg14 : arg14.IsWhole) (hc0 : cond0_0 i) (hc1 : ¬cond0_1 i)
    (x0 : Vec F S256x256 .bf16) (x1 : Vec F S8192x256 .bf16) (x2 : Vec F S1x8192 .f32) (x3 : Vec F S256x2048 .f32) (x4 : Vec F S256x2048 .f32) (x5 : Vec F S256x2048 .f32) (x6 : Vec F S1x2048 .f32) (x7 : Vec F S1x2048 .f32) (y : S256x8192.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7).1 S256x8192.size (by sl_kernel_rfl) y
/-- What case A leaves in the accumulator. -/
def sout0_A_0 (c : Dev nD) (i : grid0.Coords) (arg2 : Memref sig .tc .vmem S256x256 .bf16) (harg2 : arg2.IsWhole) (arg3 : Memref sig .tc .vmem S8192x256 .bf16) (harg3 : arg3.IsWhole) (arg4 : Memref sig .tc .vmem S1x8192 .f32) (harg4 : arg4.IsWhole) (arg5 : Memref sig .tc .vmem S256x2048 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S256x2048 .f32) (harg10 : arg10.IsWhole) (arg11 : Memref sig .tc .vmem S256x2048 .f32) (harg11 : arg11.IsWhole) (arg12 : Memref sig .tc .vmem S256x2048 .f32) (harg12 : arg12.IsWhole) (arg13 : Memref sig .tc .vmem S256x2048 .f32) (harg13 : arg13.IsWhole) (arg14 : Memref sig .tc .vmem S256x8192 .f32) (harg14 : arg14.IsWhole) (hc0 : cond0_0 i) (hc1 : ¬cond0_1 i)
    (x0 : Vec F S256x256 .bf16) (x1 : Vec F S8192x256 .bf16) (x2 : Vec F S1x8192 .f32) (x3 : Vec F S256x2048 .f32) (x4 : Vec F S256x2048 .f32) (x5 : Vec F S256x2048 .f32) (x6 : Vec F S1x2048 .f32) (x7 : Vec F S1x2048 .f32) : Vec F S256x8192 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7).1)

/-- Case B's pieces for the accumulator cover it. -/
theorem scover0_B_0 (c : Dev nD) (i : grid0.Coords) (arg2 : Memref sig .tc .vmem S256x256 .bf16) (harg2 : arg2.IsWhole) (arg3 : Memref sig .tc .vmem S8192x256 .bf16) (harg3 : arg3.IsWhole) (arg4 : Memref sig .tc .vmem S1x8192 .f32) (harg4 : arg4.IsWhole) (arg5 : Memref sig .tc .vmem S256x2048 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S256x2048 .f32) (harg10 : arg10.IsWhole) (arg11 : Memref sig .tc .vmem S256x2048 .f32) (harg11 : arg11.IsWhole) (arg12 : Memref sig .tc .vmem S256x2048 .f32) (harg12 : arg12.IsWhole) (arg13 : Memref sig .tc .vmem S256x2048 .f32) (harg13 : arg13.IsWhole) (arg14 : Memref sig .tc .vmem S256x8192 .f32) (harg14 : arg14.IsWhole) (hc0 : ¬cond0_0 i) (hc1 : ¬cond0_1 i)
    (x0 : Vec F S256x256 .bf16) (x1 : Vec F S8192x256 .bf16) (x2 : Vec F S1x8192 .f32) (x3 : Vec F S256x2048 .f32) (x4 : Vec F S256x2048 .f32) (x5 : Vec F S256x2048 .f32) (x6 : Vec F S1x2048 .f32) (x7 : Vec F S1x2048 .f32) (xs0 : Vec F S256x8192 .f32) (y : S256x8192.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0).1 S256x8192.size (by sl_kernel_rfl) y
/-- What case B leaves in the accumulator. -/
def sout0_B_0 (c : Dev nD) (i : grid0.Coords) (arg2 : Memref sig .tc .vmem S256x256 .bf16) (harg2 : arg2.IsWhole) (arg3 : Memref sig .tc .vmem S8192x256 .bf16) (harg3 : arg3.IsWhole) (arg4 : Memref sig .tc .vmem S1x8192 .f32) (harg4 : arg4.IsWhole) (arg5 : Memref sig .tc .vmem S256x2048 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S256x2048 .f32) (harg10 : arg10.IsWhole) (arg11 : Memref sig .tc .vmem S256x2048 .f32) (harg11 : arg11.IsWhole) (arg12 : Memref sig .tc .vmem S256x2048 .f32) (harg12 : arg12.IsWhole) (arg13 : Memref sig .tc .vmem S256x2048 .f32) (harg13 : arg13.IsWhole) (arg14 : Memref sig .tc .vmem S256x8192 .f32) (harg14 : arg14.IsWhole) (hc0 : ¬cond0_0 i) (hc1 : ¬cond0_1 i)
    (x0 : Vec F S256x256 .bf16) (x1 : Vec F S8192x256 .bf16) (x2 : Vec F S1x8192 .f32) (x3 : Vec F S256x2048 .f32) (x4 : Vec F S256x2048 .f32) (x5 : Vec F S256x2048 .f32) (x6 : Vec F S1x2048 .f32) (x7 : Vec F S1x2048 .f32) (xs0 : Vec F S256x8192 .f32) : Vec F S256x8192 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0).1)

/-- Case C's pieces for the accumulator cover it. -/
theorem scover0_C_0 (c : Dev nD) (i : grid0.Coords) (arg2 : Memref sig .tc .vmem S256x256 .bf16) (harg2 : arg2.IsWhole) (arg3 : Memref sig .tc .vmem S8192x256 .bf16) (harg3 : arg3.IsWhole) (arg4 : Memref sig .tc .vmem S1x8192 .f32) (harg4 : arg4.IsWhole) (arg5 : Memref sig .tc .vmem S256x2048 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S256x2048 .f32) (harg10 : arg10.IsWhole) (arg11 : Memref sig .tc .vmem S256x2048 .f32) (harg11 : arg11.IsWhole) (arg12 : Memref sig .tc .vmem S256x2048 .f32) (harg12 : arg12.IsWhole) (arg13 : Memref sig .tc .vmem S256x2048 .f32) (harg13 : arg13.IsWhole) (arg14 : Memref sig .tc .vmem S256x8192 .f32) (harg14 : arg14.IsWhole) (hc0 : ¬cond0_0 i) (hc1 : cond0_1 i)
    (x0 : Vec F S256x256 .bf16) (x1 : Vec F S8192x256 .bf16) (x2 : Vec F S1x8192 .f32) (x3 : Vec F S256x2048 .f32) (x4 : Vec F S256x2048 .f32) (x5 : Vec F S256x2048 .f32) (x6 : Vec F S1x2048 .f32) (x7 : Vec F S1x2048 .f32) (xs0 : Vec F S256x8192 .f32) (y : S256x8192.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0).2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0).2.2.2.2.1 S256x8192.size (by sl_kernel_rfl) y
/-- What case C leaves in the accumulator. -/
def sout0_C_0 (c : Dev nD) (i : grid0.Coords) (arg2 : Memref sig .tc .vmem S256x256 .bf16) (harg2 : arg2.IsWhole) (arg3 : Memref sig .tc .vmem S8192x256 .bf16) (harg3 : arg3.IsWhole) (arg4 : Memref sig .tc .vmem S1x8192 .f32) (harg4 : arg4.IsWhole) (arg5 : Memref sig .tc .vmem S256x2048 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S256x2048 .f32) (harg10 : arg10.IsWhole) (arg11 : Memref sig .tc .vmem S256x2048 .f32) (harg11 : arg11.IsWhole) (arg12 : Memref sig .tc .vmem S256x2048 .f32) (harg12 : arg12.IsWhole) (arg13 : Memref sig .tc .vmem S256x2048 .f32) (harg13 : arg13.IsWhole) (arg14 : Memref sig .tc .vmem S256x8192 .f32) (harg14 : arg14.IsWhole) (hc0 : ¬cond0_0 i) (hc1 : cond0_1 i)
    (x0 : Vec F S256x256 .bf16) (x1 : Vec F S8192x256 .bf16) (x2 : Vec F S1x8192 .f32) (x3 : Vec F S256x2048 .f32) (x4 : Vec F S256x2048 .f32) (x5 : Vec F S256x2048 .f32) (x6 : Vec F S1x2048 .f32) (x7 : Vec F S1x2048 .f32) (xs0 : Vec F S256x8192 .f32) : Vec F S256x8192 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0).2.2.2.2.1)

/-- Case C's pieces for output window 8 tile its block. -/
theorem cover0_C_8 (c : Dev nD) (i : grid0.Coords) (arg2 : Memref sig .tc .vmem S256x256 .bf16) (harg2 : arg2.IsWhole) (arg3 : Memref sig .tc .vmem S8192x256 .bf16) (harg3 : arg3.IsWhole) (arg4 : Memref sig .tc .vmem S1x8192 .f32) (harg4 : arg4.IsWhole) (arg5 : Memref sig .tc .vmem S256x2048 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S256x2048 .f32) (harg10 : arg10.IsWhole) (arg11 : Memref sig .tc .vmem S256x2048 .f32) (harg11 : arg11.IsWhole) (arg12 : Memref sig .tc .vmem S256x2048 .f32) (harg12 : arg12.IsWhole) (arg13 : Memref sig .tc .vmem S256x2048 .f32) (harg13 : arg13.IsWhole) (arg14 : Memref sig .tc .vmem S256x8192 .f32) (harg14 : arg14.IsWhole) (hc0 : ¬cond0_0 i) (hc1 : cond0_1 i)
    (x0 : Vec F S256x256 .bf16) (x1 : Vec F S8192x256 .bf16) (x2 : Vec F S1x8192 .f32) (x3 : Vec F S256x2048 .f32) (x4 : Vec F S256x2048 .f32) (x5 : Vec F S256x2048 .f32) (x6 : Vec F S1x2048 .f32) (x7 : Vec F S1x2048 .f32) (xs0 : Vec F S256x8192 .f32) (y : S256x2048.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0).1 S256x2048.size (by sl_kernel_rfl) y
/-- What case C leaves in output window 8's buffer: its pieces read back. -/
def out0_C_8 (c : Dev nD) (i : grid0.Coords) (arg2 : Memref sig .tc .vmem S256x256 .bf16) (harg2 : arg2.IsWhole) (arg3 : Memref sig .tc .vmem S8192x256 .bf16) (harg3 : arg3.IsWhole) (arg4 : Memref sig .tc .vmem S1x8192 .f32) (harg4 : arg4.IsWhole) (arg5 : Memref sig .tc .vmem S256x2048 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S256x2048 .f32) (harg10 : arg10.IsWhole) (arg11 : Memref sig .tc .vmem S256x2048 .f32) (harg11 : arg11.IsWhole) (arg12 : Memref sig .tc .vmem S256x2048 .f32) (harg12 : arg12.IsWhole) (arg13 : Memref sig .tc .vmem S256x2048 .f32) (harg13 : arg13.IsWhole) (arg14 : Memref sig .tc .vmem S256x8192 .f32) (harg14 : arg14.IsWhole) (hc0 : ¬cond0_0 i) (hc1 : cond0_1 i)
    (x0 : Vec F S256x256 .bf16) (x1 : Vec F S8192x256 .bf16) (x2 : Vec F S1x8192 .f32) (x3 : Vec F S256x2048 .f32) (x4 : Vec F S256x2048 .f32) (x5 : Vec F S256x2048 .f32) (x6 : Vec F S1x2048 .f32) (x7 : Vec F S1x2048 .f32) (xs0 : Vec F S256x8192 .f32) : Vec F S256x2048 .f32 :=
  VO0_8.read (Elt F) (VO0_8.writes (Elt F) VO0_8.junk (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0).1)

/-- Case C's pieces for output window 9 tile its block. -/
theorem cover0_C_9 (c : Dev nD) (i : grid0.Coords) (arg2 : Memref sig .tc .vmem S256x256 .bf16) (harg2 : arg2.IsWhole) (arg3 : Memref sig .tc .vmem S8192x256 .bf16) (harg3 : arg3.IsWhole) (arg4 : Memref sig .tc .vmem S1x8192 .f32) (harg4 : arg4.IsWhole) (arg5 : Memref sig .tc .vmem S256x2048 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S256x2048 .f32) (harg10 : arg10.IsWhole) (arg11 : Memref sig .tc .vmem S256x2048 .f32) (harg11 : arg11.IsWhole) (arg12 : Memref sig .tc .vmem S256x2048 .f32) (harg12 : arg12.IsWhole) (arg13 : Memref sig .tc .vmem S256x2048 .f32) (harg13 : arg13.IsWhole) (arg14 : Memref sig .tc .vmem S256x8192 .f32) (harg14 : arg14.IsWhole) (hc0 : ¬cond0_0 i) (hc1 : cond0_1 i)
    (x0 : Vec F S256x256 .bf16) (x1 : Vec F S8192x256 .bf16) (x2 : Vec F S1x8192 .f32) (x3 : Vec F S256x2048 .f32) (x4 : Vec F S256x2048 .f32) (x5 : Vec F S256x2048 .f32) (x6 : Vec F S1x2048 .f32) (x7 : Vec F S1x2048 .f32) (xs0 : Vec F S256x8192 .f32) (y : S256x2048.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0).2.1 S256x2048.size (by sl_kernel_rfl) y
/-- What case C leaves in output window 9's buffer: its pieces read back. -/
def out0_C_9 (c : Dev nD) (i : grid0.Coords) (arg2 : Memref sig .tc .vmem S256x256 .bf16) (harg2 : arg2.IsWhole) (arg3 : Memref sig .tc .vmem S8192x256 .bf16) (harg3 : arg3.IsWhole) (arg4 : Memref sig .tc .vmem S1x8192 .f32) (harg4 : arg4.IsWhole) (arg5 : Memref sig .tc .vmem S256x2048 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S256x2048 .f32) (harg10 : arg10.IsWhole) (arg11 : Memref sig .tc .vmem S256x2048 .f32) (harg11 : arg11.IsWhole) (arg12 : Memref sig .tc .vmem S256x2048 .f32) (harg12 : arg12.IsWhole) (arg13 : Memref sig .tc .vmem S256x2048 .f32) (harg13 : arg13.IsWhole) (arg14 : Memref sig .tc .vmem S256x8192 .f32) (harg14 : arg14.IsWhole) (hc0 : ¬cond0_0 i) (hc1 : cond0_1 i)
    (x0 : Vec F S256x256 .bf16) (x1 : Vec F S8192x256 .bf16) (x2 : Vec F S1x8192 .f32) (x3 : Vec F S256x2048 .f32) (x4 : Vec F S256x2048 .f32) (x5 : Vec F S256x2048 .f32) (x6 : Vec F S1x2048 .f32) (x7 : Vec F S1x2048 .f32) (xs0 : Vec F S256x8192 .f32) : Vec F S256x2048 .f32 :=
  VO0_9.read (Elt F) (VO0_9.writes (Elt F) VO0_9.junk (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0).2.1)

/-- Case C's pieces for output window 10 tile its block. -/
theorem cover0_C_10 (c : Dev nD) (i : grid0.Coords) (arg2 : Memref sig .tc .vmem S256x256 .bf16) (harg2 : arg2.IsWhole) (arg3 : Memref sig .tc .vmem S8192x256 .bf16) (harg3 : arg3.IsWhole) (arg4 : Memref sig .tc .vmem S1x8192 .f32) (harg4 : arg4.IsWhole) (arg5 : Memref sig .tc .vmem S256x2048 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S256x2048 .f32) (harg10 : arg10.IsWhole) (arg11 : Memref sig .tc .vmem S256x2048 .f32) (harg11 : arg11.IsWhole) (arg12 : Memref sig .tc .vmem S256x2048 .f32) (harg12 : arg12.IsWhole) (arg13 : Memref sig .tc .vmem S256x2048 .f32) (harg13 : arg13.IsWhole) (arg14 : Memref sig .tc .vmem S256x8192 .f32) (harg14 : arg14.IsWhole) (hc0 : ¬cond0_0 i) (hc1 : cond0_1 i)
    (x0 : Vec F S256x256 .bf16) (x1 : Vec F S8192x256 .bf16) (x2 : Vec F S1x8192 .f32) (x3 : Vec F S256x2048 .f32) (x4 : Vec F S256x2048 .f32) (x5 : Vec F S256x2048 .f32) (x6 : Vec F S1x2048 .f32) (x7 : Vec F S1x2048 .f32) (xs0 : Vec F S256x8192 .f32) (y : S256x2048.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0).2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0).2.2.1 S256x2048.size (by sl_kernel_rfl) y
/-- What case C leaves in output window 10's buffer: its pieces read back. -/
def out0_C_10 (c : Dev nD) (i : grid0.Coords) (arg2 : Memref sig .tc .vmem S256x256 .bf16) (harg2 : arg2.IsWhole) (arg3 : Memref sig .tc .vmem S8192x256 .bf16) (harg3 : arg3.IsWhole) (arg4 : Memref sig .tc .vmem S1x8192 .f32) (harg4 : arg4.IsWhole) (arg5 : Memref sig .tc .vmem S256x2048 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S256x2048 .f32) (harg10 : arg10.IsWhole) (arg11 : Memref sig .tc .vmem S256x2048 .f32) (harg11 : arg11.IsWhole) (arg12 : Memref sig .tc .vmem S256x2048 .f32) (harg12 : arg12.IsWhole) (arg13 : Memref sig .tc .vmem S256x2048 .f32) (harg13 : arg13.IsWhole) (arg14 : Memref sig .tc .vmem S256x8192 .f32) (harg14 : arg14.IsWhole) (hc0 : ¬cond0_0 i) (hc1 : cond0_1 i)
    (x0 : Vec F S256x256 .bf16) (x1 : Vec F S8192x256 .bf16) (x2 : Vec F S1x8192 .f32) (x3 : Vec F S256x2048 .f32) (x4 : Vec F S256x2048 .f32) (x5 : Vec F S256x2048 .f32) (x6 : Vec F S1x2048 .f32) (x7 : Vec F S1x2048 .f32) (xs0 : Vec F S256x8192 .f32) : Vec F S256x2048 .f32 :=
  VO0_10.read (Elt F) (VO0_10.writes (Elt F) VO0_10.junk (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0).2.2.1)

/-- Case C's pieces for output window 11 tile its block. -/
theorem cover0_C_11 (c : Dev nD) (i : grid0.Coords) (arg2 : Memref sig .tc .vmem S256x256 .bf16) (harg2 : arg2.IsWhole) (arg3 : Memref sig .tc .vmem S8192x256 .bf16) (harg3 : arg3.IsWhole) (arg4 : Memref sig .tc .vmem S1x8192 .f32) (harg4 : arg4.IsWhole) (arg5 : Memref sig .tc .vmem S256x2048 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S256x2048 .f32) (harg10 : arg10.IsWhole) (arg11 : Memref sig .tc .vmem S256x2048 .f32) (harg11 : arg11.IsWhole) (arg12 : Memref sig .tc .vmem S256x2048 .f32) (harg12 : arg12.IsWhole) (arg13 : Memref sig .tc .vmem S256x2048 .f32) (harg13 : arg13.IsWhole) (arg14 : Memref sig .tc .vmem S256x8192 .f32) (harg14 : arg14.IsWhole) (hc0 : ¬cond0_0 i) (hc1 : cond0_1 i)
    (x0 : Vec F S256x256 .bf16) (x1 : Vec F S8192x256 .bf16) (x2 : Vec F S1x8192 .f32) (x3 : Vec F S256x2048 .f32) (x4 : Vec F S256x2048 .f32) (x5 : Vec F S256x2048 .f32) (x6 : Vec F S1x2048 .f32) (x7 : Vec F S1x2048 .f32) (xs0 : Vec F S256x8192 .f32) (y : S256x2048.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0).2.2.2.1 S256x2048.size (by sl_kernel_rfl) y
/-- What case C leaves in output window 11's buffer: its pieces read back. -/
def out0_C_11 (c : Dev nD) (i : grid0.Coords) (arg2 : Memref sig .tc .vmem S256x256 .bf16) (harg2 : arg2.IsWhole) (arg3 : Memref sig .tc .vmem S8192x256 .bf16) (harg3 : arg3.IsWhole) (arg4 : Memref sig .tc .vmem S1x8192 .f32) (harg4 : arg4.IsWhole) (arg5 : Memref sig .tc .vmem S256x2048 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S256x2048 .f32) (harg10 : arg10.IsWhole) (arg11 : Memref sig .tc .vmem S256x2048 .f32) (harg11 : arg11.IsWhole) (arg12 : Memref sig .tc .vmem S256x2048 .f32) (harg12 : arg12.IsWhole) (arg13 : Memref sig .tc .vmem S256x2048 .f32) (harg13 : arg13.IsWhole) (arg14 : Memref sig .tc .vmem S256x8192 .f32) (harg14 : arg14.IsWhole) (hc0 : ¬cond0_0 i) (hc1 : cond0_1 i)
    (x0 : Vec F S256x256 .bf16) (x1 : Vec F S8192x256 .bf16) (x2 : Vec F S1x8192 .f32) (x3 : Vec F S256x2048 .f32) (x4 : Vec F S256x2048 .f32) (x5 : Vec F S256x2048 .f32) (x6 : Vec F S1x2048 .f32) (x7 : Vec F S1x2048 .f32) (xs0 : Vec F S256x8192 .f32) : Vec F S256x2048 .f32 :=
  VO0_11.read (Elt F) (VO0_11.writes (Elt F) VO0_11.junk (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0).2.2.2.1)

/-! ## The accumulator point by point -/

theorem hc0_of_last (t : Fin cfg0.N) (h1 : t.val % 12 = 11) : ¬cond0_0 (grid0.coords t) :=
  fun h => by have := (hcond0_0 t).mp h; omega

/-- THE ACCUMULATION: what the accumulator holds after the body at position `n`: the case the reduction coordinate selects, run at the
    point's memrefs and input blocks, from what the point before left. -/
def accAt (c : Dev nD) : (n : ℕ) → n < cfg0.N → Vec F S256x8192 .f32
  | 0, hn =>
      sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩)
  | n + 1, hn =>
    if h0 : (n + 1) % 12 = 0 then
      sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) ((hcond0_0 ⟨n + 1, hn⟩).mpr h0) (fun h => (fun h => by (try dsimp only at h); omega) ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩)
    else if h1 : (n + 1) % 12 = 11 then
      sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (accAt c n (Nat.lt_of_succ_lt hn))
    else
      sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (accAt c n (Nat.lt_of_succ_lt hn))

/-- What the point before `t` left in the accumulator (at the first point: what position 0 leaves — consulted by nothing). -/
def accBefore (c : Dev nD) (t : Fin cfg0.N) : Vec F S256x8192 .f32 :=
  accAt m c (t.val - 1) (Nat.lt_of_le_of_lt (Nat.sub_le _ _) t.isLt)

theorem accAt_A (c : Dev nD) (t : Fin cfg0.N) (h0 : t.val % 12 = 0) (h1 : ¬t.val % 12 = 11) :
    accAt m c t.val t.isLt = sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) := by
  obtain ⟨n, hn⟩ := t
  cases n with
  | zero => exact rfl
  | succ n => exact (dif_pos h0).trans rfl

theorem accAt_B (c : Dev nD) (t : Fin cfg0.N) (h0 : ¬t.val % 12 = 0) (h1 : ¬t.val % 12 = 11) :
    accAt m c t.val t.isLt = sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (accBefore m c t) := by
  obtain ⟨n, hn⟩ := t
  cases n with
  | zero => exact (by exfalso; (try dsimp only at h0); exact absurd (Nat.zero_mod _) h0)
  | succ n => exact (dif_neg h0).trans ((dif_neg h1).trans rfl)

theorem accAt_C (c : Dev nD) (t : Fin cfg0.N) (h0 : ¬t.val % 12 = 0) (h1 : t.val % 12 = 11) :
    accAt m c t.val t.isLt = sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (accBefore m c t) := by
  obtain ⟨n, hn⟩ := t
  cases n with
  | zero => exact (by exfalso; (try dsimp only at h0); exact absurd (Nat.zero_mod _) h0)
  | succ n => exact (dif_neg h0).trans ((dif_pos h1).trans rfl)

/-- Output window 8's buffer after the body at point `t`: the epilogue's block where the reduction coordinate is 11; elsewhere the
    window is idle and not written back, and this value is consulted by nothing. -/
def outAt8 (c : Dev nD) (t : Fin cfg0.N) : Vec F S256x2048 .f32 :=
  if h1 : t.val % 12 = 11 then
    out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (hc0_of_last t h1) ((hcond0_1 t).mpr h1) (iblk m c 0 t) (iblk m c 1 t) (iblk m c 2 t) (iblk m c 3 t) (iblk m c 4 t) (iblk m c 5 t) (iblk m c 6 t) (iblk m c 7 t) (accBefore m c t)
  else VO0_8.read (Elt F) VO0_8.junk
theorem outAt8_C (c : Dev nD) (t : Fin cfg0.N) (h1 : t.val % 12 = 11) :
    outAt8 m c t = out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (hc0_of_last t h1) ((hcond0_1 t).mpr h1) (iblk m c 0 t) (iblk m c 1 t) (iblk m c 2 t) (iblk m c 3 t) (iblk m c 4 t) (iblk m c 5 t) (iblk m c 6 t) (iblk m c 7 t) (accBefore m c t) := dif_pos h1

/-- Output window 9's buffer after the body at point `t`: the epilogue's block where the reduction coordinate is 11; elsewhere the
    window is idle and not written back, and this value is consulted by nothing. -/
def outAt9 (c : Dev nD) (t : Fin cfg0.N) : Vec F S256x2048 .f32 :=
  if h1 : t.val % 12 = 11 then
    out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (hc0_of_last t h1) ((hcond0_1 t).mpr h1) (iblk m c 0 t) (iblk m c 1 t) (iblk m c 2 t) (iblk m c 3 t) (iblk m c 4 t) (iblk m c 5 t) (iblk m c 6 t) (iblk m c 7 t) (accBefore m c t)
  else VO0_9.read (Elt F) VO0_9.junk
theorem outAt9_C (c : Dev nD) (t : Fin cfg0.N) (h1 : t.val % 12 = 11) :
    outAt9 m c t = out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (hc0_of_last t h1) ((hcond0_1 t).mpr h1) (iblk m c 0 t) (iblk m c 1 t) (iblk m c 2 t) (iblk m c 3 t) (iblk m c 4 t) (iblk m c 5 t) (iblk m c 6 t) (iblk m c 7 t) (accBefore m c t) := dif_pos h1

/-- Output window 10's buffer after the body at point `t`: the epilogue's block where the reduction coordinate is 11; elsewhere the
    window is idle and not written back, and this value is consulted by nothing. -/
def outAt10 (c : Dev nD) (t : Fin cfg0.N) : Vec F S256x2048 .f32 :=
  if h1 : t.val % 12 = 11 then
    out0_C_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (hc0_of_last t h1) ((hcond0_1 t).mpr h1) (iblk m c 0 t) (iblk m c 1 t) (iblk m c 2 t) (iblk m c 3 t) (iblk m c 4 t) (iblk m c 5 t) (iblk m c 6 t) (iblk m c 7 t) (accBefore m c t)
  else VO0_10.read (Elt F) VO0_10.junk
theorem outAt10_C (c : Dev nD) (t : Fin cfg0.N) (h1 : t.val % 12 = 11) :
    outAt10 m c t = out0_C_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (hc0_of_last t h1) ((hcond0_1 t).mpr h1) (iblk m c 0 t) (iblk m c 1 t) (iblk m c 2 t) (iblk m c 3 t) (iblk m c 4 t) (iblk m c 5 t) (iblk m c 6 t) (iblk m c 7 t) (accBefore m c t) := dif_pos h1

/-- Output window 11's buffer after the body at point `t`: the epilogue's block where the reduction coordinate is 11; elsewhere the
    window is idle and not written back, and this value is consulted by nothing. -/
def outAt11 (c : Dev nD) (t : Fin cfg0.N) : Vec F S256x2048 .f32 :=
  if h1 : t.val % 12 = 11 then
    out0_C_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (hc0_of_last t h1) ((hcond0_1 t).mpr h1) (iblk m c 0 t) (iblk m c 1 t) (iblk m c 2 t) (iblk m c 3 t) (iblk m c 4 t) (iblk m c 5 t) (iblk m c 6 t) (iblk m c 7 t) (accBefore m c t)
  else VO0_11.read (Elt F) VO0_11.junk
theorem outAt11_C (c : Dev nD) (t : Fin cfg0.N) (h1 : t.val % 12 = 11) :
    outAt11 m c t = out0_C_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (hc0_of_last t h1) ((hcond0_1 t).mpr h1) (iblk m c 0 t) (iblk m c 1 t) (iblk m c 2 t) (iblk m c 3 t) (iblk m c 4 t) (iblk m c 5 t) (iblk m c 6 t) (iblk m c 7 t) (accBefore m c t) := dif_pos h1

/-! ## The region invariant -/

/-- Before the first point the class's invariant (the accumulator at anything); afterwards the accumulator at what the point
    before left, and the generator register at some state. -/
def PhiS (c : Dev nD) : (n : ℕ) → n ≤ cfg0.N → sProp 𝕄
  | 0, _ => Pipeline.ΦA spec0 c
  | n + 1, hn => iprop(iprop(owns (c : Thread nD τ) scM0_0 fullShare (accAt m c n hn)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0_0 fullShare (accAt m c n hn)) ∗ (∃ r, prngReg c r)) := rfl
theorem PhiS_pos (c : Dev nD) (n : ℕ) (h : n ≤ cfg0.N) (hz : n ≠ 0) :
    PhiS m c n h = iprop(iprop(owns (c : Thread nD τ) scM0_0 fullShare (accAt m c (n - 1) (by omega))) ∗ (∃ r, prngReg c r)) := by
  cases n with
  | zero => exact absurd rfl hz
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outAt8 m c t
    | ⟨9, _⟩ => outAt9 m c t
    | ⟨10, _⟩ => outAt10 m c t
    | ⟨11, _⟩ => outAt11 m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = outAt8 m c t := by dsimp only [dats]
theorem after0_9 (c : Dev nD) (t : Fin cfg0.N) : (dats m 0 c).after 9 t = outAt9 m c t := by dsimp only [dats]
theorem after0_10 (c : Dev nD) (t : Fin cfg0.N) : (dats m 0 c).after 10 t = outAt10 m c t := by dsimp only [dats]
theorem after0_11 (c : Dev nD) (t : Fin cfg0.N) : (dats m 0 c).after 11 t = outAt11 m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

set_option maxHeartbeats 8000000 in
/-- The body at any point: the inputs' memrefs hold their blocks; the reduction coordinate says which case the point is in; the
    invariant hands the body the accumulator at what the point before left and takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  have hN : t.val < 192 := lt_of_lt_of_eq t.isLt (show cfg0.N = 192 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  by_cases h1 : t.val % 12 = 11
  · have h0 : ¬t.val % 12 = 0 := by omega
    have hz : t.val ≠ 0 := by omega
    rw [show (dats m 0 c).leavesExact 8 t = owns (c : Thread nD τ) (ms0_8 t) fullShare ((dats m 0 c).after 8 t) from by
      unfold Dat.leavesExact; rw [liveAt0_8_C t ((hcond0_1 t).mpr h1)], after0_8, outAt8_C m c t h1]
    rw [show (dats m 0 c).leavesExact 9 t = owns (c : Thread nD τ) (ms0_9 t) fullShare ((dats m 0 c).after 9 t) from by
      unfold Dat.leavesExact; rw [liveAt0_9_C t ((hcond0_1 t).mpr h1)], after0_9, outAt9_C m c t h1]
    rw [show (dats m 0 c).leavesExact 10 t = owns (c : Thread nD τ) (ms0_10 t) fullShare ((dats m 0 c).after 10 t) from by
      unfold Dat.leavesExact; rw [liveAt0_10_C t ((hcond0_1 t).mpr h1)], after0_10, outAt10_C m c t h1]
    rw [show (dats m 0 c).leavesExact 11 t = owns (c : Thread nD τ) (ms0_11 t) fullShare ((dats m 0 c).after 11 t) from by
      unfold Dat.leavesExact; rw [liveAt0_11_C t ((hcond0_1 t).mpr h1)], after0_11, outAt11_C m c t h1]
    rw [accAt_C m c t h0 h1]
    unfold out0_C_8 out0_C_9 out0_C_10 out0_C_11 sout0_C_0; (try dsimp only)
    rw [PhiS_castSucc m c t, PhiS_pos m c _ _ hz]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((kernelRun0_C c (grid0.coords t) _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (accBefore m c t)).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [HS0]; · iexact HS0
    iintro ⟨H0, H1, H2, H3, H4, H5, H6, H7, ⟨%e8, H8⟩, ⟨%e9, H9⟩, ⟨%e10, H10⟩, ⟨%e11, H11⟩, ⟨%es0, HS0⟩⟩
    isplitl [HS0 Hg]
    · isplitl [HS0]
      · unfold owns; iexists _; isplitr
        swap; · iexact HS0
        ipureintro; exact View.read_writes_of_cover _ _ _ _ _ (scover0_C_0 c _ _ _ _ _ _ _ _ _ _ _ _ _ _ _ _ _ _ _ _ _ _ _ _ _ _ _ _ _ _ _ _ _ _ _ _ _ _ )
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_of_cover _ _ _ _ _ (cover0_C_8 c _ _ _ _ _ _ _ _ _ _ _ _ _ _ _ _ _ _ _ _ _ _ _ _ _ _ _ _ _ _ _ _ _ _ _ _ _ _ )
    isplitl [H9]
    · unfold owns; iexists _; isplitr
      swap; · iexact H9
      ipureintro; exact View.read_writes_of_cover _ _ _ _ _ (cover0_C_9 c _ _ _ _ _ _ _ _ _ _ _ _ _ _ _ _ _ _ _ _ _ _ _ _ _ _ _ _ _ _ _ _ _ _ _ _ _ _ )
    isplitl [H10]
    · unfold owns; iexists _; isplitr
      swap; · iexact H10
      ipureintro; exact View.read_writes_of_cover _ _ _ _ _ (cover0_C_10 c _ _ _ _ _ _ _ _ _ _ _ _ _ _ _ _ _ _ _ _ _ _ _ _ _ _ _ _ _ _ _ _ _ _ _ _ _ _ )
    unfold owns; iexists _; isplitr
    swap; · iexact H11
    ipureintro; exact View.read_writes_of_cover _ _ _ _ _ (cover0_C_11 c _ _ _ _ _ _ _ _ _ _ _ _ _ _ _ _ _ _ _ _ _ _ _ _ _ _ _ _ _ _ _ _ _ _ _ _ _ _ )
  · by_cases h0 : t.val % 12 = 0
    · rw [accAt_A m c t h0 h1]
      rw [Dat.leavesExact_idle (dats m 0 c) 8 t (idleAt0_8 t (fun h => h1 ((hcond0_1 t).mp h))) (noFlush0_8 t (fun h => h1 ((hcond0_1 t).mp h)))]
      rw [Dat.leavesExact_idle (dats m 0 c) 9 t (idleAt0_9 t (fun h => h1 ((hcond0_1 t).mp h))) (noFlush0_9 t (fun h => h1 ((hcond0_1 t).mp h)))]
      rw [Dat.leavesExact_idle (dats m 0 c) 10 t (idleAt0_10 t (fun h => h1 ((hcond0_1 t).mp h))) (noFlush0_10 t (fun h => h1 ((hcond0_1 t).mp h)))]
      rw [Dat.leavesExact_idle (dats m 0 c) 11 t (idleAt0_11 t (fun h => h1 ((hcond0_1 t).mp h))) (noFlush0_11 t (fun h => h1 ((hcond0_1 t).mp h)))]
      unfold sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
        iapply ((kernelRun0_A c (grid0.coords t) _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)).2 _ _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [HS0]; · iexact HS0
        iintro ⟨H0, H1, H2, H3, H4, H5, H6, H7, H8, H9, H10, H11, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _ _ _ )
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexists _; iexact H9
        isplitl [H10]; · iexists _; iexact H10
        iexists _; iexact H11
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
        iapply ((kernelRun0_A c (grid0.coords t) _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)).2 _ _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [HS0]; · iexists _; iexact HS0
        iintro ⟨H0, H1, H2, H3, H4, H5, H6, H7, H8, H9, H10, H11, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _ _ _ )
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexists _; iexact H9
        isplitl [H10]; · iexists _; iexact H10
        iexists _; iexact H11
    · have hz : t.val ≠ 0 := fun h => h0 (by rw [h])
      rw [accAt_B m c t h0 h1]
      rw [Dat.leavesExact_idle (dats m 0 c) 8 t (idleAt0_8 t (fun h => h1 ((hcond0_1 t).mp h))) (noFlush0_8 t (fun h => h1 ((hcond0_1 t).mp h)))]
      rw [Dat.leavesExact_idle (dats m 0 c) 9 t (idleAt0_9 t (fun h => h1 ((hcond0_1 t).mp h))) (noFlush0_9 t (fun h => h1 ((hcond0_1 t).mp h)))]
      rw [Dat.leavesExact_idle (dats m 0 c) 10 t (idleAt0_10 t (fun h => h1 ((hcond0_1 t).mp h))) (noFlush0_10 t (fun h => h1 ((hcond0_1 t).mp h)))]
      rw [Dat.leavesExact_idle (dats m 0 c) 11 t (idleAt0_11 t (fun h => h1 ((hcond0_1 t).mp h))) (noFlush0_11 t (fun h => h1 ((hcond0_1 t).mp h)))]
      unfold sout0_B_0; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((kernelRun0_B c (grid0.coords t) _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (accBefore m c t)).2 _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [HS0]; · iexact HS0
      iintro ⟨H0, H1, H2, H3, H4, H5, H6, H7, H8, H9, H10, H11, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _ _ _ _ _ _ _ _ _ _ _ _ _ _ _ _ _ _ _ _ _ _ )
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      iexists _; iexact H11

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 192 := N_0; omega)

/-! ## The run and the frame -/

set_option backward.isDefEq.respectTransparency.types false in
/-- Every weakly fair execution of @main terminates, and every final state has every array of the pipeline at what the library
    computes from the proof data and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m)
    (hmain := hmain m Variants.none) (hA := A_eq m) (hin := hin m) (hout := hout m)

/-- THE FRAME: the program runs to the end, faults nowhere, and leaves its nineteen argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  frame_of m ρ (dats m) (A_eq m) (run_main m ρ)

end Cert.Kernel.Fr

end
-- ==== Proof.FrBaseKI.lean ====
/-
  The launch side of the frame of this program, shared by the three runs of the kernel body: the arrays as the
  region finds them (after the ten host lines that concatenate the weights, biases and inputs and reshape the
  three vectors), each window's block at a grid point, the two conditions of the body decided over the 16 × 12
  grid (the reduction coordinate k = t mod 12 is 0, resp. 11), where the four output windows are idle, and the
  staging memrefs by name.
-/
import proofs.«142335_j2551210574034_2_alg».proof.Proof.Gen.KernelIdeal.Launch
import proofs.«142335_j2551210574034_2_alg».proof.Proof.Gen.KernelIdeal.Skeleton
import proofs.«142335_j2551210574034_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: after the ten host lines. -/
abbrev V (c : Dev nD) (b : Ref sig .tc) : Buf (Elt F) ((c : Thread nD τ).loc b) :=
  StableHlo.after (List.flatten [hostOps0]) (fun b => m (c, b)) b

theorem hostOps0_fresh : (hostOps0 : List (HloOp τ sig (Elt F))).Forall fun op => op.fresh = ∅ := by
  simp only [List.Forall]; repeat' constructor

/-- @main is its host lines, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

/-- No host line before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nary_writes, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nary_writes, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nary_writes, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nary_writes, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nary_writes, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nary_writes, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nary_writes, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nary_writes, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nary_writes, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nary_writes, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nary_writes, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nary_writes, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nary_writes, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes argument 13: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nary_writes, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes argument 14: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nary_writes, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes argument 15: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.flatten_cons, List.flatten_nil, List.append_nil, List.cons_append,
      List.nil_append, List.Forall, StableHlo.nary_writes, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes argument 16: the region finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.flatten_cons, List.flatten_nil, List.append_nil, List.cons_append,
      List.nil_append, List.Forall, StableHlo.nary_writes, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes argument 17: the region finds it as launched. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.flatten_cons, List.flatten_nil, List.append_nil, List.cons_append,
      List.nil_append, List.Forall, StableHlo.nary_writes, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes argument 18: the region finds it as launched. -/
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.flatten_cons, List.flatten_nil, List.append_nil, List.cons_append,
      List.nil_append, List.Forall, StableHlo.nary_writes, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run's -/

/-- For any proof data whose arrays are the region-entry contents, a run to the library's frame post read at the
    nineteen argument arrays: c_prev, n_prev, m_prev are staged inputs (windows 3, 4, 5), the other sixteen bypass the
    pipeline. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 3).trans (((dats 0 c).arrAt_in 3 rfl _).trans ((hA c 3).trans (V_main_arg2 m c))),
      ((h c).1 4).trans (((dats 0 c).arrAt_in 4 rfl _).trans ((hA c 4).trans (V_main_arg3 m c))),
      ((h c).1 5).trans (((dats 0 c).arrAt_in 5 rfl _).trans ((hA c 5).trans (V_main_arg4 m c))),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c)⟩) h

/-! ## The body's two conditions over the grid -/

/-- The first branch is taken where the reduction coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 12 = 0 :=
  (by decide +kernel : ∀ t : Fin grid0.N, cond0_0 (grid0.coords t) ↔ t.val % 12 = 0)
/-- The epilogue runs where the reduction coordinate is 11. -/
abbrev cond0_1 (i : grid0.Coords) : Prop := k0_cond2 i = 1#1
theorem hcond0_1 : ∀ t : Fin cfg0.N, cond0_1 (grid0.coords t) ↔ t.val % 12 = 11 :=
  (by decide +kernel : ∀ t : Fin grid0.N, cond0_1 (grid0.coords t) ↔ t.val % 12 = 11)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
theorem idleAt0_8 : ∀ t : Fin cfg0.N, ¬cond0_1 (grid0.coords t) → cfg0.idle 8 (grid0.coords t) = true := by decide +kernel
theorem noFlush0_8 : ∀ t : Fin cfg0.N, ¬cond0_1 (grid0.coords t) → (cfg0.win 8).flush t = false := by decide +kernel
theorem liveAt0_8_C : ∀ t : Fin cfg0.N, cond0_1 (grid0.coords t) → cfg0.idle 8 (grid0.coords t) = false := by decide +kernel
abbrev VO0_8 : View sig .tc .vmem S256x2048 .f32 := (Memref.whole cc0_stg8_0 : Memref sig .tc .vmem S256x2048 .f32).view
theorem idleAt0_9 : ∀ t : Fin cfg0.N, ¬cond0_1 (grid0.coords t) → cfg0.idle 9 (grid0.coords t) = true := by decide +kernel
theorem noFlush0_9 : ∀ t : Fin cfg0.N, ¬cond0_1 (grid0.coords t) → (cfg0.win 9).flush t = false := by decide +kernel
theorem liveAt0_9_C : ∀ t : Fin cfg0.N, cond0_1 (grid0.coords t) → cfg0.idle 9 (grid0.coords t) = false := by decide +kernel
abbrev VO0_9 : View sig .tc .vmem S256x2048 .f32 := (Memref.whole cc0_stg9_0 : Memref sig .tc .vmem S256x2048 .f32).view
theorem idleAt0_10 : ∀ t : Fin cfg0.N, ¬cond0_1 (grid0.coords t) → cfg0.idle 10 (grid0.coords t) = true := by decide +kernel
theorem noFlush0_10 : ∀ t : Fin cfg0.N, ¬cond0_1 (grid0.coords t) → (cfg0.win 10).flush t = false := by decide +kernel
theorem liveAt0_10_C : ∀ t : Fin cfg0.N, cond0_1 (grid0.coords t) → cfg0.idle 10 (grid0.coords t) = false := by decide +kernel
abbrev VO0_10 : View sig .tc .vmem S256x2048 .f32 := (Memref.whole cc0_stg10_0 : Memref sig .tc .vmem S256x2048 .f32).view
theorem idleAt0_11 : ∀ t : Fin cfg0.N, ¬cond0_1 (grid0.coords t) → cfg0.idle 11 (grid0.coords t) = true := by decide +kernel
theorem noFlush0_11 : ∀ t : Fin cfg0.N, ¬cond0_1 (grid0.coords t) → (cfg0.win 11).flush t = false := by decide +kernel
theorem liveAt0_11_C : ∀ t : Fin cfg0.N, cond0_1 (grid0.coords t) → cfg0.idle 11 (grid0.coords t) = false := by decide +kernel
abbrev VO0_11 : View sig .tc .vmem S256x2048 .f32 := (Memref.whole cc0_stg11_0 : Memref sig .tc .vmem S256x2048 .f32).view

/-! ## The staging memrefs -/

abbrev ms0_0 (t : Fin cfg0.N) : Memref sig .tc .vmem S256x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8192x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x8192 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x2048 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x2048 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x2048 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x2048 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x2048 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x2048 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S256x2048 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S256x2048 .f32 := win0_11.stage (cfg0.slots t 11)
abbrev hs0_11 (t : Fin cfg0.N) : (ms0_11 t).IsWhole := hstage0_11 ((cfg0.slots t 11).cast nbuf0_11)
/-- The accumulator: a whole scoped buffer of the kernel's own. -/
abbrev scM0_0 : Memref sig .tc .vmem S256x8192 .f32 := Memref.whole cc0_scratch0
abbrev VS0_0 : View sig .tc .vmem S256x8192 .f32 := scM0_0.view

/-- The class invariant with the accumulator as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Fr

end
-- ==== Proof.FrRunAKI.lean ====
/-
  The kernel body run where the reduction coordinate is 0: the accumulator, found at anything, is zeroed and the first partial product added; the four output buffers are not touched.
-/
import proofs.«142335_j2551210574034_2_alg».proof.Proof.FrBaseKI

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- What the body leaves in the accumulator, as the pieces its stores wrote (last first), with the proof that on whole staging memrefs — the eight inputs at their contents, the four outputs handed back untouched, the accumulator at anything — the body runs to the continuation. -/
noncomputable def kernelRun0_A (c : Dev nD) (i : grid0.Coords) (arg2 : Memref sig .tc .vmem S256x256 .bf16) (harg2 : arg2.IsWhole) (arg3 : Memref sig .tc .vmem S8192x256 .bf16) (harg3 : arg3.IsWhole) (arg4 : Memref sig .tc .vmem S1x8192 .f32) (harg4 : arg4.IsWhole) (arg5 : Memref sig .tc .vmem S256x2048 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S256x2048 .f32) (harg10 : arg10.IsWhole) (arg11 : Memref sig .tc .vmem S256x2048 .f32) (harg11 : arg11.IsWhole) (arg12 : Memref sig .tc .vmem S256x2048 .f32) (harg12 : arg12.IsWhole) (arg13 : Memref sig .tc .vmem S256x2048 .f32) (harg13 : arg13.IsWhole) (arg14 : Memref sig .tc .vmem S256x8192 .f32) (harg14 : arg14.IsWhole) (hc0 : cond0_0 i) (hc1 : ¬cond0_1 i)
    (x0 : Vec F S256x256 .bf16) (x1 : Vec F S8192x256 .bf16) (x2 : Vec F S1x8192 .f32) (x3 : Vec F S256x2048 .f32) (x4 : Vec F S256x2048 .f32) (x5 : Vec F S256x2048 .f32) (x6 : Vec F S1x2048 .f32) (x7 : Vec F S1x2048 .f32) :
    { LS0 : List (View.Piece (Elt F) S256x8192 .f32) //
      ∀ (xi8 xi9 xi10 xi11 : Vec F S256x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xi9 ∗ owns (c : Thread nD τ) arg12 fullShare xi10 ∗ owns (c : Thread nD τ) arg13 fullShare xi11 ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xi9 ∗ owns (c : Thread nD τ) arg12 fullShare xi10 ∗ owns (c : Thread nD τ) arg13 fullShare xi11 ∗ (∃ f, arg14.view.loc (c : Thread nD τ) ↦[arg14.view.set]{fullShare} arg14.view.writes (Elt F) f LS0)) -∗ K ⟨⟩))
          ⊢ wp frame (wpE (defs₀ (F := F)) Variants.none c none) E (cc0__slstm_kernel i arg2 harg2 arg3 harg3 arg4 harg4 arg5 harg5 arg6 harg6 arg7 harg7 arg8 harg8 arg9 harg9 arg10 harg10 arg11 harg11 arg12 harg12 arg13 harg13 arg14 harg14) K } := by
  refine ⟨?_, fun xi8 xi9 xi10 xi11 E K => ?run⟩
  case run =>
    simp only [cc0__slstm_kernel_eq_skeleton]; unfold cc0__slstm_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    iexists _; iexact HS0

end Cert.KernelIdeal.Fr

end
-- ==== Proof.FrRunBKI.lean ====
/-
  The kernel body run where the reduction coordinate is 1 … 10: the next partial product is added to the accumulator the point before left; the four output buffers are not touched.
-/
import proofs.«142335_j2551210574034_2_alg».proof.Proof.FrRunAKI

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- What the body leaves in the accumulator, as pieces, from the accumulator at the contents the point before left. -/
noncomputable def kernelRun0_B (c : Dev nD) (i : grid0.Coords) (arg2 : Memref sig .tc .vmem S256x256 .bf16) (harg2 : arg2.IsWhole) (arg3 : Memref sig .tc .vmem S8192x256 .bf16) (harg3 : arg3.IsWhole) (arg4 : Memref sig .tc .vmem S1x8192 .f32) (harg4 : arg4.IsWhole) (arg5 : Memref sig .tc .vmem S256x2048 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S256x2048 .f32) (harg10 : arg10.IsWhole) (arg11 : Memref sig .tc .vmem S256x2048 .f32) (harg11 : arg11.IsWhole) (arg12 : Memref sig .tc .vmem S256x2048 .f32) (harg12 : arg12.IsWhole) (arg13 : Memref sig .tc .vmem S256x2048 .f32) (harg13 : arg13.IsWhole) (arg14 : Memref sig .tc .vmem S256x8192 .f32) (harg14 : arg14.IsWhole) (hc0 : ¬cond0_0 i) (hc1 : ¬cond0_1 i)
    (x0 : Vec F S256x256 .bf16) (x1 : Vec F S8192x256 .bf16) (x2 : Vec F S1x8192 .f32) (x3 : Vec F S256x2048 .f32) (x4 : Vec F S256x2048 .f32) (x5 : Vec F S256x2048 .f32) (x6 : Vec F S1x2048 .f32) (x7 : Vec F S1x2048 .f32) (xs0 : Vec F S256x8192 .f32) :
    { LS0 : List (View.Piece (Elt F) S256x8192 .f32) //
      ∀ (xi8 xi9 xi10 xi11 : Vec F S256x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xi9 ∗ owns (c : Thread nD τ) arg12 fullShare xi10 ∗ owns (c : Thread nD τ) arg13 fullShare xi11 ∗ owns (c : Thread nD τ) arg14 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xi9 ∗ owns (c : Thread nD τ) arg12 fullShare xi10 ∗ owns (c : Thread nD τ) arg13 fullShare xi11 ∗ (∃ f, arg14.view.loc (c : Thread nD τ) ↦[arg14.view.set]{fullShare} arg14.view.writes (Elt F) f LS0)) -∗ K ⟨⟩))
          ⊢ wp frame (wpE (defs₀ (F := F)) Variants.none c none) E (cc0__slstm_kernel i arg2 harg2 arg3 harg3 arg4 harg4 arg5 harg5 arg6 harg6 arg7 harg7 arg8 harg8 arg9 harg9 arg10 harg10 arg11 harg11 arg12 harg12 arg13 harg13 arg14 harg14) K } := by
  refine ⟨?_, fun xi8 xi9 xi10 xi11 E K => ?run⟩
  case run =>
    simp only [cc0__slstm_kernel_eq_skeleton]; unfold cc0__slstm_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    iexists _; iexact HS0

end Cert.KernelIdeal.Fr

end
-- ==== Proof.FrRunCKI.lean ====
/-
  The kernel body run where the reduction coordinate is 11: the last partial product is added to the accumulator, then the epilogue reads the four gate blocks of it, adds the bias row, and stores the new m, c, n and h blocks.
-/
import proofs.«142335_j2551210574034_2_alg».proof.Proof.FrRunBKI

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- What the body leaves in each output's buffer and in the accumulator, as pieces (last first), from the accumulator at the
    contents the point before left, the outputs' buffers at anything. -/
noncomputable def kernelRun0_C (c : Dev nD) (i : grid0.Coords) (arg2 : Memref sig .tc .vmem S256x256 .bf16) (harg2 : arg2.IsWhole) (arg3 : Memref sig .tc .vmem S8192x256 .bf16) (harg3 : arg3.IsWhole) (arg4 : Memref sig .tc .vmem S1x8192 .f32) (harg4 : arg4.IsWhole) (arg5 : Memref sig .tc .vmem S256x2048 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S256x2048 .f32) (harg10 : arg10.IsWhole) (arg11 : Memref sig .tc .vmem S256x2048 .f32) (harg11 : arg11.IsWhole) (arg12 : Memref sig .tc .vmem S256x2048 .f32) (harg12 : arg12.IsWhole) (arg13 : Memref sig .tc .vmem S256x2048 .f32) (harg13 : arg13.IsWhole) (arg14 : Memref sig .tc .vmem S256x8192 .f32) (harg14 : arg14.IsWhole) (hc0 : ¬cond0_0 i) (hc1 : cond0_1 i)
    (x0 : Vec F S256x256 .bf16) (x1 : Vec F S8192x256 .bf16) (x2 : Vec F S1x8192 .f32) (x3 : Vec F S256x2048 .f32) (x4 : Vec F S256x2048 .f32) (x5 : Vec F S256x2048 .f32) (x6 : Vec F S1x2048 .f32) (x7 : Vec F S1x2048 .f32) (xs0 : Vec F S256x8192 .f32) :
    Σ' (L8 : List (View.Piece (Elt F) S256x2048 .f32)) (L9 : List (View.Piece (Elt F) S256x2048 .f32)) (L10 : List (View.Piece (Elt F) S256x2048 .f32)) (L11 : List (View.Piece (Elt F) S256x2048 .f32)), { LS0 : List (View.Piece (Elt F) S256x8192 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f LS0)) -∗ K ⟨⟩))
          ⊢ wp frame (wpE (defs₀ (F := F)) Variants.none c none) E (cc0__slstm_kernel i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, fun E K => ?run⟩
  case run =>
    simp only [cc0__slstm_kernel_eq_skeleton]; unfold cc0__slstm_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg14.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    isplitl [H10]; · iexists _; iexact H10
    isplitl [H11]; · iexists _; iexact H11
    iexists _; iexact HS0

end Cert.KernelIdeal.Fr

end
-- ==== Proof.FrFrameKI.lean ====
/-
  The frame of this program: what the accumulator holds after each grid point (by recursion on the point: the body's case at the point, run on the point's blocks and on what the point before left), what the four output buffers hold after the points that store them, the proof data of the pipeline, the body obligation at every point, the run of @main and the frame claim.
-/
import proofs.«142335_j2551210574034_2_alg».proof.Proof.FrRunCKI

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- Case A's pieces for the accumulator cover it. -/
theorem scover0_A_0 (c : Dev nD) (i : grid0.Coords) (arg2 : Memref sig .tc .vmem S256x256 .bf16) (harg2 : arg2.IsWhole) (arg3 : Memref sig .tc .vmem S8192x256 .bf16) (harg3 : arg3.IsWhole) (arg4 : Memref sig .tc .vmem S1x8192 .f32) (harg4 : arg4.IsWhole) (arg5 : Memref sig .tc .vmem S256x2048 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S256x2048 .f32) (harg10 : arg10.IsWhole) (arg11 : Memref sig .tc .vmem S256x2048 .f32) (harg11 : arg11.IsWhole) (arg12 : Memref sig .tc .vmem S256x2048 .f32) (harg12 : arg12.IsWhole) (arg13 : Memref sig .tc .vmem S256x2048 .f32) (harg13 : arg13.IsWhole) (arg14 : Memref sig .tc .vmem S256x8192 .f32) (harg14 : arg14.IsWhole) (hc0 : cond0_0 i) (hc1 : ¬cond0_1 i)
    (x0 : Vec F S256x256 .bf16) (x1 : Vec F S8192x256 .bf16) (x2 : Vec F S1x8192 .f32) (x3 : Vec F S256x2048 .f32) (x4 : Vec F S256x2048 .f32) (x5 : Vec F S256x2048 .f32) (x6 : Vec F S1x2048 .f32) (x7 : Vec F S1x2048 .f32) (y : S256x8192.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7).1 S256x8192.size (by sl_kernel_rfl) y
/-- What case A leaves in the accumulator. -/
def sout0_A_0 (c : Dev nD) (i : grid0.Coords) (arg2 : Memref sig .tc .vmem S256x256 .bf16) (harg2 : arg2.IsWhole) (arg3 : Memref sig .tc .vmem S8192x256 .bf16) (harg3 : arg3.IsWhole) (arg4 : Memref sig .tc .vmem S1x8192 .f32) (harg4 : arg4.IsWhole) (arg5 : Memref sig .tc .vmem S256x2048 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S256x2048 .f32) (harg10 : arg10.IsWhole) (arg11 : Memref sig .tc .vmem S256x2048 .f32) (harg11 : arg11.IsWhole) (arg12 : Memref sig .tc .vmem S256x2048 .f32) (harg12 : arg12.IsWhole) (arg13 : Memref sig .tc .vmem S256x2048 .f32) (harg13 : arg13.IsWhole) (arg14 : Memref sig .tc .vmem S256x8192 .f32) (harg14 : arg14.IsWhole) (hc0 : cond0_0 i) (hc1 : ¬cond0_1 i)
    (x0 : Vec F S256x256 .bf16) (x1 : Vec F S8192x256 .bf16) (x2 : Vec F S1x8192 .f32) (x3 : Vec F S256x2048 .f32) (x4 : Vec F S256x2048 .f32) (x5 : Vec F S256x2048 .f32) (x6 : Vec F S1x2048 .f32) (x7 : Vec F S1x2048 .f32) : Vec F S256x8192 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7).1)

/-- Case B's pieces for the accumulator cover it. -/
theorem scover0_B_0 (c : Dev nD) (i : grid0.Coords) (arg2 : Memref sig .tc .vmem S256x256 .bf16) (harg2 : arg2.IsWhole) (arg3 : Memref sig .tc .vmem S8192x256 .bf16) (harg3 : arg3.IsWhole) (arg4 : Memref sig .tc .vmem S1x8192 .f32) (harg4 : arg4.IsWhole) (arg5 : Memref sig .tc .vmem S256x2048 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S256x2048 .f32) (harg10 : arg10.IsWhole) (arg11 : Memref sig .tc .vmem S256x2048 .f32) (harg11 : arg11.IsWhole) (arg12 : Memref sig .tc .vmem S256x2048 .f32) (harg12 : arg12.IsWhole) (arg13 : Memref sig .tc .vmem S256x2048 .f32) (harg13 : arg13.IsWhole) (arg14 : Memref sig .tc .vmem S256x8192 .f32) (harg14 : arg14.IsWhole) (hc0 : ¬cond0_0 i) (hc1 : ¬cond0_1 i)
    (x0 : Vec F S256x256 .bf16) (x1 : Vec F S8192x256 .bf16) (x2 : Vec F S1x8192 .f32) (x3 : Vec F S256x2048 .f32) (x4 : Vec F S256x2048 .f32) (x5 : Vec F S256x2048 .f32) (x6 : Vec F S1x2048 .f32) (x7 : Vec F S1x2048 .f32) (xs0 : Vec F S256x8192 .f32) (y : S256x8192.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0).1 S256x8192.size (by sl_kernel_rfl) y
/-- What case B leaves in the accumulator. -/
def sout0_B_0 (c : Dev nD) (i : grid0.Coords) (arg2 : Memref sig .tc .vmem S256x256 .bf16) (harg2 : arg2.IsWhole) (arg3 : Memref sig .tc .vmem S8192x256 .bf16) (harg3 : arg3.IsWhole) (arg4 : Memref sig .tc .vmem S1x8192 .f32) (harg4 : arg4.IsWhole) (arg5 : Memref sig .tc .vmem S256x2048 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S256x2048 .f32) (harg10 : arg10.IsWhole) (arg11 : Memref sig .tc .vmem S256x2048 .f32) (harg11 : arg11.IsWhole) (arg12 : Memref sig .tc .vmem S256x2048 .f32) (harg12 : arg12.IsWhole) (arg13 : Memref sig .tc .vmem S256x2048 .f32) (harg13 : arg13.IsWhole) (arg14 : Memref sig .tc .vmem S256x8192 .f32) (harg14 : arg14.IsWhole) (hc0 : ¬cond0_0 i) (hc1 : ¬cond0_1 i)
    (x0 : Vec F S256x256 .bf16) (x1 : Vec F S8192x256 .bf16) (x2 : Vec F S1x8192 .f32) (x3 : Vec F S256x2048 .f32) (x4 : Vec F S256x2048 .f32) (x5 : Vec F S256x2048 .f32) (x6 : Vec F S1x2048 .f32) (x7 : Vec F S1x2048 .f32) (xs0 : Vec F S256x8192 .f32) : Vec F S256x8192 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0).1)

/-- Case C's pieces for the accumulator cover it. -/
theorem scover0_C_0 (c : Dev nD) (i : grid0.Coords) (arg2 : Memref sig .tc .vmem S256x256 .bf16) (harg2 : arg2.IsWhole) (arg3 : Memref sig .tc .vmem S8192x256 .bf16) (harg3 : arg3.IsWhole) (arg4 : Memref sig .tc .vmem S1x8192 .f32) (harg4 : arg4.IsWhole) (arg5 : Memref sig .tc .vmem S256x2048 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S256x2048 .f32) (harg10 : arg10.IsWhole) (arg11 : Memref sig .tc .vmem S256x2048 .f32) (harg11 : arg11.IsWhole) (arg12 : Memref sig .tc .vmem S256x2048 .f32) (harg12 : arg12.IsWhole) (arg13 : Memref sig .tc .vmem S256x2048 .f32) (harg13 : arg13.IsWhole) (arg14 : Memref sig .tc .vmem S256x8192 .f32) (harg14 : arg14.IsWhole) (hc0 : ¬cond0_0 i) (hc1 : cond0_1 i)
    (x0 : Vec F S256x256 .bf16) (x1 : Vec F S8192x256 .bf16) (x2 : Vec F S1x8192 .f32) (x3 : Vec F S256x2048 .f32) (x4 : Vec F S256x2048 .f32) (x5 : Vec F S256x2048 .f32) (x6 : Vec F S1x2048 .f32) (x7 : Vec F S1x2048 .f32) (xs0 : Vec F S256x8192 .f32) (y : S256x8192.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0).2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0).2.2.2.2.1 S256x8192.size (by sl_kernel_rfl) y
/-- What case C leaves in the accumulator. -/
def sout0_C_0 (c : Dev nD) (i : grid0.Coords) (arg2 : Memref sig .tc .vmem S256x256 .bf16) (harg2 : arg2.IsWhole) (arg3 : Memref sig .tc .vmem S8192x256 .bf16) (harg3 : arg3.IsWhole) (arg4 : Memref sig .tc .vmem S1x8192 .f32) (harg4 : arg4.IsWhole) (arg5 : Memref sig .tc .vmem S256x2048 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S256x2048 .f32) (harg10 : arg10.IsWhole) (arg11 : Memref sig .tc .vmem S256x2048 .f32) (harg11 : arg11.IsWhole) (arg12 : Memref sig .tc .vmem S256x2048 .f32) (harg12 : arg12.IsWhole) (arg13 : Memref sig .tc .vmem S256x2048 .f32) (harg13 : arg13.IsWhole) (arg14 : Memref sig .tc .vmem S256x8192 .f32) (harg14 : arg14.IsWhole) (hc0 : ¬cond0_0 i) (hc1 : cond0_1 i)
    (x0 : Vec F S256x256 .bf16) (x1 : Vec F S8192x256 .bf16) (x2 : Vec F S1x8192 .f32) (x3 : Vec F S256x2048 .f32) (x4 : Vec F S256x2048 .f32) (x5 : Vec F S256x2048 .f32) (x6 : Vec F S1x2048 .f32) (x7 : Vec F S1x2048 .f32) (xs0 : Vec F S256x8192 .f32) : Vec F S256x8192 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0).2.2.2.2.1)

/-- Case C's pieces for output window 8 tile its block. -/
theorem cover0_C_8 (c : Dev nD) (i : grid0.Coords) (arg2 : Memref sig .tc .vmem S256x256 .bf16) (harg2 : arg2.IsWhole) (arg3 : Memref sig .tc .vmem S8192x256 .bf16) (harg3 : arg3.IsWhole) (arg4 : Memref sig .tc .vmem S1x8192 .f32) (harg4 : arg4.IsWhole) (arg5 : Memref sig .tc .vmem S256x2048 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S256x2048 .f32) (harg10 : arg10.IsWhole) (arg11 : Memref sig .tc .vmem S256x2048 .f32) (harg11 : arg11.IsWhole) (arg12 : Memref sig .tc .vmem S256x2048 .f32) (harg12 : arg12.IsWhole) (arg13 : Memref sig .tc .vmem S256x2048 .f32) (harg13 : arg13.IsWhole) (arg14 : Memref sig .tc .vmem S256x8192 .f32) (harg14 : arg14.IsWhole) (hc0 : ¬cond0_0 i) (hc1 : cond0_1 i)
    (x0 : Vec F S256x256 .bf16) (x1 : Vec F S8192x256 .bf16) (x2 : Vec F S1x8192 .f32) (x3 : Vec F S256x2048 .f32) (x4 : Vec F S256x2048 .f32) (x5 : Vec F S256x2048 .f32) (x6 : Vec F S1x2048 .f32) (x7 : Vec F S1x2048 .f32) (xs0 : Vec F S256x8192 .f32) (y : S256x2048.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0).1 S256x2048.size (by sl_kernel_rfl) y
/-- What case C leaves in output window 8's buffer: its pieces read back. -/
def out0_C_8 (c : Dev nD) (i : grid0.Coords) (arg2 : Memref sig .tc .vmem S256x256 .bf16) (harg2 : arg2.IsWhole) (arg3 : Memref sig .tc .vmem S8192x256 .bf16) (harg3 : arg3.IsWhole) (arg4 : Memref sig .tc .vmem S1x8192 .f32) (harg4 : arg4.IsWhole) (arg5 : Memref sig .tc .vmem S256x2048 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S256x2048 .f32) (harg10 : arg10.IsWhole) (arg11 : Memref sig .tc .vmem S256x2048 .f32) (harg11 : arg11.IsWhole) (arg12 : Memref sig .tc .vmem S256x2048 .f32) (harg12 : arg12.IsWhole) (arg13 : Memref sig .tc .vmem S256x2048 .f32) (harg13 : arg13.IsWhole) (arg14 : Memref sig .tc .vmem S256x8192 .f32) (harg14 : arg14.IsWhole) (hc0 : ¬cond0_0 i) (hc1 : cond0_1 i)
    (x0 : Vec F S256x256 .bf16) (x1 : Vec F S8192x256 .bf16) (x2 : Vec F S1x8192 .f32) (x3 : Vec F S256x2048 .f32) (x4 : Vec F S256x2048 .f32) (x5 : Vec F S256x2048 .f32) (x6 : Vec F S1x2048 .f32) (x7 : Vec F S1x2048 .f32) (xs0 : Vec F S256x8192 .f32) : Vec F S256x2048 .f32 :=
  VO0_8.read (Elt F) (VO0_8.writes (Elt F) VO0_8.junk (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0).1)

/-- Case C's pieces for output window 9 tile its block. -/
theorem cover0_C_9 (c : Dev nD) (i : grid0.Coords) (arg2 : Memref sig .tc .vmem S256x256 .bf16) (harg2 : arg2.IsWhole) (arg3 : Memref sig .tc .vmem S8192x256 .bf16) (harg3 : arg3.IsWhole) (arg4 : Memref sig .tc .vmem S1x8192 .f32) (harg4 : arg4.IsWhole) (arg5 : Memref sig .tc .vmem S256x2048 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S256x2048 .f32) (harg10 : arg10.IsWhole) (arg11 : Memref sig .tc .vmem S256x2048 .f32) (harg11 : arg11.IsWhole) (arg12 : Memref sig .tc .vmem S256x2048 .f32) (harg12 : arg12.IsWhole) (arg13 : Memref sig .tc .vmem S256x2048 .f32) (harg13 : arg13.IsWhole) (arg14 : Memref sig .tc .vmem S256x8192 .f32) (harg14 : arg14.IsWhole) (hc0 : ¬cond0_0 i) (hc1 : cond0_1 i)
    (x0 : Vec F S256x256 .bf16) (x1 : Vec F S8192x256 .bf16) (x2 : Vec F S1x8192 .f32) (x3 : Vec F S256x2048 .f32) (x4 : Vec F S256x2048 .f32) (x5 : Vec F S256x2048 .f32) (x6 : Vec F S1x2048 .f32) (x7 : Vec F S1x2048 .f32) (xs0 : Vec F S256x8192 .f32) (y : S256x2048.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0).2.1 S256x2048.size (by sl_kernel_rfl) y
/-- What case C leaves in output window 9's buffer: its pieces read back. -/
def out0_C_9 (c : Dev nD) (i : grid0.Coords) (arg2 : Memref sig .tc .vmem S256x256 .bf16) (harg2 : arg2.IsWhole) (arg3 : Memref sig .tc .vmem S8192x256 .bf16) (harg3 : arg3.IsWhole) (arg4 : Memref sig .tc .vmem S1x8192 .f32) (harg4 : arg4.IsWhole) (arg5 : Memref sig .tc .vmem S256x2048 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S256x2048 .f32) (harg10 : arg10.IsWhole) (arg11 : Memref sig .tc .vmem S256x2048 .f32) (harg11 : arg11.IsWhole) (arg12 : Memref sig .tc .vmem S256x2048 .f32) (harg12 : arg12.IsWhole) (arg13 : Memref sig .tc .vmem S256x2048 .f32) (harg13 : arg13.IsWhole) (arg14 : Memref sig .tc .vmem S256x8192 .f32) (harg14 : arg14.IsWhole) (hc0 : ¬cond0_0 i) (hc1 : cond0_1 i)
    (x0 : Vec F S256x256 .bf16) (x1 : Vec F S8192x256 .bf16) (x2 : Vec F S1x8192 .f32) (x3 : Vec F S256x2048 .f32) (x4 : Vec F S256x2048 .f32) (x5 : Vec F S256x2048 .f32) (x6 : Vec F S1x2048 .f32) (x7 : Vec F S1x2048 .f32) (xs0 : Vec F S256x8192 .f32) : Vec F S256x2048 .f32 :=
  VO0_9.read (Elt F) (VO0_9.writes (Elt F) VO0_9.junk (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0).2.1)

/-- Case C's pieces for output window 10 tile its block. -/
theorem cover0_C_10 (c : Dev nD) (i : grid0.Coords) (arg2 : Memref sig .tc .vmem S256x256 .bf16) (harg2 : arg2.IsWhole) (arg3 : Memref sig .tc .vmem S8192x256 .bf16) (harg3 : arg3.IsWhole) (arg4 : Memref sig .tc .vmem S1x8192 .f32) (harg4 : arg4.IsWhole) (arg5 : Memref sig .tc .vmem S256x2048 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S256x2048 .f32) (harg10 : arg10.IsWhole) (arg11 : Memref sig .tc .vmem S256x2048 .f32) (harg11 : arg11.IsWhole) (arg12 : Memref sig .tc .vmem S256x2048 .f32) (harg12 : arg12.IsWhole) (arg13 : Memref sig .tc .vmem S256x2048 .f32) (harg13 : arg13.IsWhole) (arg14 : Memref sig .tc .vmem S256x8192 .f32) (harg14 : arg14.IsWhole) (hc0 : ¬cond0_0 i) (hc1 : cond0_1 i)
    (x0 : Vec F S256x256 .bf16) (x1 : Vec F S8192x256 .bf16) (x2 : Vec F S1x8192 .f32) (x3 : Vec F S256x2048 .f32) (x4 : Vec F S256x2048 .f32) (x5 : Vec F S256x2048 .f32) (x6 : Vec F S1x2048 .f32) (x7 : Vec F S1x2048 .f32) (xs0 : Vec F S256x8192 .f32) (y : S256x2048.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0).2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0).2.2.1 S256x2048.size (by sl_kernel_rfl) y
/-- What case C leaves in output window 10's buffer: its pieces read back. -/
def out0_C_10 (c : Dev nD) (i : grid0.Coords) (arg2 : Memref sig .tc .vmem S256x256 .bf16) (harg2 : arg2.IsWhole) (arg3 : Memref sig .tc .vmem S8192x256 .bf16) (harg3 : arg3.IsWhole) (arg4 : Memref sig .tc .vmem S1x8192 .f32) (harg4 : arg4.IsWhole) (arg5 : Memref sig .tc .vmem S256x2048 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S256x2048 .f32) (harg10 : arg10.IsWhole) (arg11 : Memref sig .tc .vmem S256x2048 .f32) (harg11 : arg11.IsWhole) (arg12 : Memref sig .tc .vmem S256x2048 .f32) (harg12 : arg12.IsWhole) (arg13 : Memref sig .tc .vmem S256x2048 .f32) (harg13 : arg13.IsWhole) (arg14 : Memref sig .tc .vmem S256x8192 .f32) (harg14 : arg14.IsWhole) (hc0 : ¬cond0_0 i) (hc1 : cond0_1 i)
    (x0 : Vec F S256x256 .bf16) (x1 : Vec F S8192x256 .bf16) (x2 : Vec F S1x8192 .f32) (x3 : Vec F S256x2048 .f32) (x4 : Vec F S256x2048 .f32) (x5 : Vec F S256x2048 .f32) (x6 : Vec F S1x2048 .f32) (x7 : Vec F S1x2048 .f32) (xs0 : Vec F S256x8192 .f32) : Vec F S256x2048 .f32 :=
  VO0_10.read (Elt F) (VO0_10.writes (Elt F) VO0_10.junk (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0).2.2.1)

/-- Case C's pieces for output window 11 tile its block. -/
theorem cover0_C_11 (c : Dev nD) (i : grid0.Coords) (arg2 : Memref sig .tc .vmem S256x256 .bf16) (harg2 : arg2.IsWhole) (arg3 : Memref sig .tc .vmem S8192x256 .bf16) (harg3 : arg3.IsWhole) (arg4 : Memref sig .tc .vmem S1x8192 .f32) (harg4 : arg4.IsWhole) (arg5 : Memref sig .tc .vmem S256x2048 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S256x2048 .f32) (harg10 : arg10.IsWhole) (arg11 : Memref sig .tc .vmem S256x2048 .f32) (harg11 : arg11.IsWhole) (arg12 : Memref sig .tc .vmem S256x2048 .f32) (harg12 : arg12.IsWhole) (arg13 : Memref sig .tc .vmem S256x2048 .f32) (harg13 : arg13.IsWhole) (arg14 : Memref sig .tc .vmem S256x8192 .f32) (harg14 : arg14.IsWhole) (hc0 : ¬cond0_0 i) (hc1 : cond0_1 i)
    (x0 : Vec F S256x256 .bf16) (x1 : Vec F S8192x256 .bf16) (x2 : Vec F S1x8192 .f32) (x3 : Vec F S256x2048 .f32) (x4 : Vec F S256x2048 .f32) (x5 : Vec F S256x2048 .f32) (x6 : Vec F S1x2048 .f32) (x7 : Vec F S1x2048 .f32) (xs0 : Vec F S256x8192 .f32) (y : S256x2048.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0).2.2.2.1 S256x2048.size (by sl_kernel_rfl) y
/-- What case C leaves in output window 11's buffer: its pieces read back. -/
def out0_C_11 (c : Dev nD) (i : grid0.Coords) (arg2 : Memref sig .tc .vmem S256x256 .bf16) (harg2 : arg2.IsWhole) (arg3 : Memref sig .tc .vmem S8192x256 .bf16) (harg3 : arg3.IsWhole) (arg4 : Memref sig .tc .vmem S1x8192 .f32) (harg4 : arg4.IsWhole) (arg5 : Memref sig .tc .vmem S256x2048 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S256x2048 .f32) (harg10 : arg10.IsWhole) (arg11 : Memref sig .tc .vmem S256x2048 .f32) (harg11 : arg11.IsWhole) (arg12 : Memref sig .tc .vmem S256x2048 .f32) (harg12 : arg12.IsWhole) (arg13 : Memref sig .tc .vmem S256x2048 .f32) (harg13 : arg13.IsWhole) (arg14 : Memref sig .tc .vmem S256x8192 .f32) (harg14 : arg14.IsWhole) (hc0 : ¬cond0_0 i) (hc1 : cond0_1 i)
    (x0 : Vec F S256x256 .bf16) (x1 : Vec F S8192x256 .bf16) (x2 : Vec F S1x8192 .f32) (x3 : Vec F S256x2048 .f32) (x4 : Vec F S256x2048 .f32) (x5 : Vec F S256x2048 .f32) (x6 : Vec F S1x2048 .f32) (x7 : Vec F S1x2048 .f32) (xs0 : Vec F S256x8192 .f32) : Vec F S256x2048 .f32 :=
  VO0_11.read (Elt F) (VO0_11.writes (Elt F) VO0_11.junk (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0).2.2.2.1)

/-! ## The accumulator point by point -/

theorem hc0_of_last (t : Fin cfg0.N) (h1 : t.val % 12 = 11) : ¬cond0_0 (grid0.coords t) :=
  fun h => by have := (hcond0_0 t).mp h; omega

/-- THE ACCUMULATION: what the accumulator holds after the body at position `n`: the case the reduction coordinate selects, run at the
    point's memrefs and input blocks, from what the point before left. -/
def accAt (c : Dev nD) : (n : ℕ) → n < cfg0.N → Vec F S256x8192 .f32
  | 0, hn =>
      sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩)
  | n + 1, hn =>
    if h0 : (n + 1) % 12 = 0 then
      sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) ((hcond0_0 ⟨n + 1, hn⟩).mpr h0) (fun h => (fun h => by (try dsimp only at h); omega) ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩)
    else if h1 : (n + 1) % 12 = 11 then
      sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (accAt c n (Nat.lt_of_succ_lt hn))
    else
      sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (accAt c n (Nat.lt_of_succ_lt hn))

/-- What the point before `t` left in the accumulator (at the first point: what position 0 leaves — consulted by nothing). -/
def accBefore (c : Dev nD) (t : Fin cfg0.N) : Vec F S256x8192 .f32 :=
  accAt m c (t.val - 1) (Nat.lt_of_le_of_lt (Nat.sub_le _ _) t.isLt)

theorem accAt_A (c : Dev nD) (t : Fin cfg0.N) (h0 : t.val % 12 = 0) (h1 : ¬t.val % 12 = 11) :
    accAt m c t.val t.isLt = sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) := by
  obtain ⟨n, hn⟩ := t
  cases n with
  | zero => exact rfl
  | succ n => exact (dif_pos h0).trans rfl

theorem accAt_B (c : Dev nD) (t : Fin cfg0.N) (h0 : ¬t.val % 12 = 0) (h1 : ¬t.val % 12 = 11) :
    accAt m c t.val t.isLt = sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (accBefore m c t) := by
  obtain ⟨n, hn⟩ := t
  cases n with
  | zero => exact (by exfalso; (try dsimp only at h0); exact absurd (Nat.zero_mod _) h0)
  | succ n => exact (dif_neg h0).trans ((dif_neg h1).trans rfl)

theorem accAt_C (c : Dev nD) (t : Fin cfg0.N) (h0 : ¬t.val % 12 = 0) (h1 : t.val % 12 = 11) :
    accAt m c t.val t.isLt = sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (accBefore m c t) := by
  obtain ⟨n, hn⟩ := t
  cases n with
  | zero => exact (by exfalso; (try dsimp only at h0); exact absurd (Nat.zero_mod _) h0)
  | succ n => exact (dif_neg h0).trans ((dif_pos h1).trans rfl)

/-- Output window 8's buffer after the body at point `t`: the epilogue's block where the reduction coordinate is 11; elsewhere the
    window is idle and not written back, and this value is consulted by nothing. -/
def outAt8 (c : Dev nD) (t : Fin cfg0.N) : Vec F S256x2048 .f32 :=
  if h1 : t.val % 12 = 11 then
    out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (hc0_of_last t h1) ((hcond0_1 t).mpr h1) (iblk m c 0 t) (iblk m c 1 t) (iblk m c 2 t) (iblk m c 3 t) (iblk m c 4 t) (iblk m c 5 t) (iblk m c 6 t) (iblk m c 7 t) (accBefore m c t)
  else VO0_8.read (Elt F) VO0_8.junk
theorem outAt8_C (c : Dev nD) (t : Fin cfg0.N) (h1 : t.val % 12 = 11) :
    outAt8 m c t = out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (hc0_of_last t h1) ((hcond0_1 t).mpr h1) (iblk m c 0 t) (iblk m c 1 t) (iblk m c 2 t) (iblk m c 3 t) (iblk m c 4 t) (iblk m c 5 t) (iblk m c 6 t) (iblk m c 7 t) (accBefore m c t) := dif_pos h1

/-- Output window 9's buffer after the body at point `t`: the epilogue's block where the reduction coordinate is 11; elsewhere the
    window is idle and not written back, and this value is consulted by nothing. -/
def outAt9 (c : Dev nD) (t : Fin cfg0.N) : Vec F S256x2048 .f32 :=
  if h1 : t.val % 12 = 11 then
    out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (hc0_of_last t h1) ((hcond0_1 t).mpr h1) (iblk m c 0 t) (iblk m c 1 t) (iblk m c 2 t) (iblk m c 3 t) (iblk m c 4 t) (iblk m c 5 t) (iblk m c 6 t) (iblk m c 7 t) (accBefore m c t)
  else VO0_9.read (Elt F) VO0_9.junk
theorem outAt9_C (c : Dev nD) (t : Fin cfg0.N) (h1 : t.val % 12 = 11) :
    outAt9 m c t = out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (hc0_of_last t h1) ((hcond0_1 t).mpr h1) (iblk m c 0 t) (iblk m c 1 t) (iblk m c 2 t) (iblk m c 3 t) (iblk m c 4 t) (iblk m c 5 t) (iblk m c 6 t) (iblk m c 7 t) (accBefore m c t) := dif_pos h1

/-- Output window 10's buffer after the body at point `t`: the epilogue's block where the reduction coordinate is 11; elsewhere the
    window is idle and not written back, and this value is consulted by nothing. -/
def outAt10 (c : Dev nD) (t : Fin cfg0.N) : Vec F S256x2048 .f32 :=
  if h1 : t.val % 12 = 11 then
    out0_C_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (hc0_of_last t h1) ((hcond0_1 t).mpr h1) (iblk m c 0 t) (iblk m c 1 t) (iblk m c 2 t) (iblk m c 3 t) (iblk m c 4 t) (iblk m c 5 t) (iblk m c 6 t) (iblk m c 7 t) (accBefore m c t)
  else VO0_10.read (Elt F) VO0_10.junk
theorem outAt10_C (c : Dev nD) (t : Fin cfg0.N) (h1 : t.val % 12 = 11) :
    outAt10 m c t = out0_C_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (hc0_of_last t h1) ((hcond0_1 t).mpr h1) (iblk m c 0 t) (iblk m c 1 t) (iblk m c 2 t) (iblk m c 3 t) (iblk m c 4 t) (iblk m c 5 t) (iblk m c 6 t) (iblk m c 7 t) (accBefore m c t) := dif_pos h1

/-- Output window 11's buffer after the body at point `t`: the epilogue's block where the reduction coordinate is 11; elsewhere the
    window is idle and not written back, and this value is consulted by nothing. -/
def outAt11 (c : Dev nD) (t : Fin cfg0.N) : Vec F S256x2048 .f32 :=
  if h1 : t.val % 12 = 11 then
    out0_C_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (hc0_of_last t h1) ((hcond0_1 t).mpr h1) (iblk m c 0 t) (iblk m c 1 t) (iblk m c 2 t) (iblk m c 3 t) (iblk m c 4 t) (iblk m c 5 t) (iblk m c 6 t) (iblk m c 7 t) (accBefore m c t)
  else VO0_11.read (Elt F) VO0_11.junk
theorem outAt11_C (c : Dev nD) (t : Fin cfg0.N) (h1 : t.val % 12 = 11) :
    outAt11 m c t = out0_C_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (hc0_of_last t h1) ((hcond0_1 t).mpr h1) (iblk m c 0 t) (iblk m c 1 t) (iblk m c 2 t) (iblk m c 3 t) (iblk m c 4 t) (iblk m c 5 t) (iblk m c 6 t) (iblk m c 7 t) (accBefore m c t) := dif_pos h1

/-! ## The region invariant -/

/-- Before the first point the class's invariant (the accumulator at anything); afterwards the accumulator at what the point
    before left, and the generator register at some state. -/
def PhiS (c : Dev nD) : (n : ℕ) → n ≤ cfg0.N → sProp 𝕄
  | 0, _ => Pipeline.ΦA spec0 c
  | n + 1, hn => iprop(iprop(owns (c : Thread nD τ) scM0_0 fullShare (accAt m c n hn)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0_0 fullShare (accAt m c n hn)) ∗ (∃ r, prngReg c r)) := rfl
theorem PhiS_pos (c : Dev nD) (n : ℕ) (h : n ≤ cfg0.N) (hz : n ≠ 0) :
    PhiS m c n h = iprop(iprop(owns (c : Thread nD τ) scM0_0 fullShare (accAt m c (n - 1) (by omega))) ∗ (∃ r, prngReg c r)) := by
  cases n with
  | zero => exact absurd rfl hz
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outAt8 m c t
    | ⟨9, _⟩ => outAt9 m c t
    | ⟨10, _⟩ => outAt10 m c t
    | ⟨11, _⟩ => outAt11 m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = outAt8 m c t := by dsimp only [dats]
theorem after0_9 (c : Dev nD) (t : Fin cfg0.N) : (dats m 0 c).after 9 t = outAt9 m c t := by dsimp only [dats]
theorem after0_10 (c : Dev nD) (t : Fin cfg0.N) : (dats m 0 c).after 10 t = outAt10 m c t := by dsimp only [dats]
theorem after0_11 (c : Dev nD) (t : Fin cfg0.N) : (dats m 0 c).after 11 t = outAt11 m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

set_option maxHeartbeats 8000000 in
/-- The body at any point: the inputs' memrefs hold their blocks; the reduction coordinate says which case the point is in; the
    invariant hands the body the accumulator at what the point before left and takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  have hN : t.val < 192 := lt_of_lt_of_eq t.isLt (show cfg0.N = 192 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  by_cases h1 : t.val % 12 = 11
  · have h0 : ¬t.val % 12 = 0 := by omega
    have hz : t.val ≠ 0 := by omega
    rw [show (dats m 0 c).leavesExact 8 t = owns (c : Thread nD τ) (ms0_8 t) fullShare ((dats m 0 c).after 8 t) from by
      unfold Dat.leavesExact; rw [liveAt0_8_C t ((hcond0_1 t).mpr h1)], after0_8, outAt8_C m c t h1]
    rw [show (dats m 0 c).leavesExact 9 t = owns (c : Thread nD τ) (ms0_9 t) fullShare ((dats m 0 c).after 9 t) from by
      unfold Dat.leavesExact; rw [liveAt0_9_C t ((hcond0_1 t).mpr h1)], after0_9, outAt9_C m c t h1]
    rw [show (dats m 0 c).leavesExact 10 t = owns (c : Thread nD τ) (ms0_10 t) fullShare ((dats m 0 c).after 10 t) from by
      unfold Dat.leavesExact; rw [liveAt0_10_C t ((hcond0_1 t).mpr h1)], after0_10, outAt10_C m c t h1]
    rw [show (dats m 0 c).leavesExact 11 t = owns (c : Thread nD τ) (ms0_11 t) fullShare ((dats m 0 c).after 11 t) from by
      unfold Dat.leavesExact; rw [liveAt0_11_C t ((hcond0_1 t).mpr h1)], after0_11, outAt11_C m c t h1]
    rw [accAt_C m c t h0 h1]
    unfold out0_C_8 out0_C_9 out0_C_10 out0_C_11 sout0_C_0; (try dsimp only)
    rw [PhiS_castSucc m c t, PhiS_pos m c _ _ hz]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((kernelRun0_C c (grid0.coords t) _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (accBefore m c t)).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [HS0]; · iexact HS0
    iintro ⟨H0, H1, H2, H3, H4, H5, H6, H7, ⟨%e8, H8⟩, ⟨%e9, H9⟩, ⟨%e10, H10⟩, ⟨%e11, H11⟩, ⟨%es0, HS0⟩⟩
    isplitl [HS0 Hg]
    · isplitl [HS0]
      · unfold owns; iexists _; isplitr
        swap; · iexact HS0
        ipureintro; exact View.read_writes_of_cover _ _ _ _ _ (scover0_C_0 c _ _ _ _ _ _ _ _ _ _ _ _ _ _ _ _ _ _ _ _ _ _ _ _ _ _ _ _ _ _ _ _ _ _ _ _ _ _ )
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_of_cover _ _ _ _ _ (cover0_C_8 c _ _ _ _ _ _ _ _ _ _ _ _ _ _ _ _ _ _ _ _ _ _ _ _ _ _ _ _ _ _ _ _ _ _ _ _ _ _ )
    isplitl [H9]
    · unfold owns; iexists _; isplitr
      swap; · iexact H9
      ipureintro; exact View.read_writes_of_cover _ _ _ _ _ (cover0_C_9 c _ _ _ _ _ _ _ _ _ _ _ _ _ _ _ _ _ _ _ _ _ _ _ _ _ _ _ _ _ _ _ _ _ _ _ _ _ _ )
    isplitl [H10]
    · unfold owns; iexists _; isplitr
      swap; · iexact H10
      ipureintro; exact View.read_writes_of_cover _ _ _ _ _ (cover0_C_10 c _ _ _ _ _ _ _ _ _ _ _ _ _ _ _ _ _ _ _ _ _ _ _ _ _ _ _ _ _ _ _ _ _ _ _ _ _ _ )
    unfold owns; iexists _; isplitr
    swap; · iexact H11
    ipureintro; exact View.read_writes_of_cover _ _ _ _ _ (cover0_C_11 c _ _ _ _ _ _ _ _ _ _ _ _ _ _ _ _ _ _ _ _ _ _ _ _ _ _ _ _ _ _ _ _ _ _ _ _ _ _ )
  · by_cases h0 : t.val % 12 = 0
    · rw [accAt_A m c t h0 h1]
      rw [Dat.leavesExact_idle (dats m 0 c) 8 t (idleAt0_8 t (fun h => h1 ((hcond0_1 t).mp h))) (noFlush0_8 t (fun h => h1 ((hcond0_1 t).mp h)))]
      rw [Dat.leavesExact_idle (dats m 0 c) 9 t (idleAt0_9 t (fun h => h1 ((hcond0_1 t).mp h))) (noFlush0_9 t (fun h => h1 ((hcond0_1 t).mp h)))]
      rw [Dat.leavesExact_idle (dats m 0 c) 10 t (idleAt0_10 t (fun h => h1 ((hcond0_1 t).mp h))) (noFlush0_10 t (fun h => h1 ((hcond0_1 t).mp h)))]
      rw [Dat.leavesExact_idle (dats m 0 c) 11 t (idleAt0_11 t (fun h => h1 ((hcond0_1 t).mp h))) (noFlush0_11 t (fun h => h1 ((hcond0_1 t).mp h)))]
      unfold sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
        iapply ((kernelRun0_A c (grid0.coords t) _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)).2 _ _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [HS0]; · iexact HS0
        iintro ⟨H0, H1, H2, H3, H4, H5, H6, H7, H8, H9, H10, H11, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _ _ _ )
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexists _; iexact H9
        isplitl [H10]; · iexists _; iexact H10
        iexists _; iexact H11
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
        iapply ((kernelRun0_A c (grid0.coords t) _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)).2 _ _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [HS0]; · iexists _; iexact HS0
        iintro ⟨H0, H1, H2, H3, H4, H5, H6, H7, H8, H9, H10, H11, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _ _ _ )
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexists _; iexact H9
        isplitl [H10]; · iexists _; iexact H10
        iexists _; iexact H11
    · have hz : t.val ≠ 0 := fun h => h0 (by rw [h])
      rw [accAt_B m c t h0 h1]
      rw [Dat.leavesExact_idle (dats m 0 c) 8 t (idleAt0_8 t (fun h => h1 ((hcond0_1 t).mp h))) (noFlush0_8 t (fun h => h1 ((hcond0_1 t).mp h)))]
      rw [Dat.leavesExact_idle (dats m 0 c) 9 t (idleAt0_9 t (fun h => h1 ((hcond0_1 t).mp h))) (noFlush0_9 t (fun h => h1 ((hcond0_1 t).mp h)))]
      rw [Dat.leavesExact_idle (dats m 0 c) 10 t (idleAt0_10 t (fun h => h1 ((hcond0_1 t).mp h))) (noFlush0_10 t (fun h => h1 ((hcond0_1 t).mp h)))]
      rw [Dat.leavesExact_idle (dats m 0 c) 11 t (idleAt0_11 t (fun h => h1 ((hcond0_1 t).mp h))) (noFlush0_11 t (fun h => h1 ((hcond0_1 t).mp h)))]
      unfold sout0_B_0; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((kernelRun0_B c (grid0.coords t) _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (accBefore m c t)).2 _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [HS0]; · iexact HS0
      iintro ⟨H0, H1, H2, H3, H4, H5, H6, H7, H8, H9, H10, H11, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _ _ _ _ _ _ _ _ _ _ _ _ _ _ _ _ _ _ _ _ _ _ )
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      iexists _; iexact H11

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 192 := N_0; omega)

/-! ## The run and the frame -/

set_option backward.isDefEq.respectTransparency.types false in
/-- Every weakly fair execution of @main terminates, and every final state has every array of the pipeline at what the library
    computes from the proof data and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m)
    (hmain := hmain m Variants.none) (hA := A_eq m) (hin := hin m) (hout := hout m)

/-- THE FRAME: the program runs to the end, faults nowhere, and leaves its nineteen argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  frame_of m ρ (dats m) (A_eq m) (run_main m ρ)

end Cert.KernelIdeal.Fr

end
-- ==== Proof.Spec.lean ====
/-
  The sLSTM cell, stated once as plain functions of row and column indices into the extended reals.

  The pre-activation matrix `pre` has 4 · 2048 = 8192 columns: column block g (g = 0, 1, 2, 3: the input, forget,
  cell and output gates) of row p holds, at column j of the block, the affine form
      (∑ k, x p k · Wc (g·2048 + j) k) + bc (g·2048 + j) + ∑ k, h p k · Rc (g·2048 + j) k.
  Everything after that — the four gate activations, the new stabilizer m, cell state c and normalizer n, the
  row-wise normalization of c / n (mean and variance over the 2048 columns of a row, the variance shifted by a
  small positive literal before the reciprocal square root), its affine map by two row vectors and the output
  h = o · tanh(…) — is a function of an ARBITRARY pre-activation matrix `P`, so two programs that agree on `P`
  agree on all four results.

  The scalar functions are the ideal instance's own (`Ideal.logistic`, `Ideal.tanh`, `Ideal.rsqrt`, `Ideal.div`,
  `max`, `+`, `-`, `*` on `EReal`); the two float literals stay as their bit patterns (`0x45000000`: 2048,
  `0x3727C5AC`: the shift of the variance), never evaluated; a row sum is a plain sum over `Fin 2048`.
-/
import Idealize.ShloMosaic.PureOps.Ideal
import Idealize.ShloMosaic.Lib.ValueIdx

noncomputable section

open scoped BigOperators

namespace Cert.Spec

open Idealize.ShloMosaic Idealize.ShloMosaic.ValueIdx

/-- A matrix of extended reals, by row and column. -/
abbrev Mat (a b : Nat) : Type := Fin a → Fin b → EReal

/-- A rank-2 array of extended reals read by row and column. -/
def mat {a b : Nat} (v : (⟨2, ![a, b]⟩ : Shape).Idx → EReal) : Mat a b := fun p k => v (ix2 p k)
/-- A rank-1 array of extended reals read by its coordinate. -/
def vec {a : Nat} (v : (⟨1, ![a]⟩ : Shape).Idx → EReal) : Fin a → EReal := fun j => v (ix1 j)

theorem mat_apply {a b : Nat} (v : (⟨2, ![a, b]⟩ : Shape).Idx → EReal) (p : Fin a) (k : Fin b) :
    mat v p k = v (ix2 p k) := rfl
theorem vec_apply {a : Nat} (v : (⟨1, ![a]⟩ : Shape).Idx → EReal) (j : Fin a) : vec v j = v (ix1 j) := rfl

/-! ## The pre-activations -/

/-- The pre-activation of row `p` at column `J`: the input's product with the stacked input weights, plus the
    stacked bias, plus the previous hidden state's product with the stacked recurrent weights — grouped in
    that order. -/
def pre (x : Mat 4096 1024) (h : Mat 4096 2048) (Wc : Mat 8192 1024) (bc : Fin 8192 → EReal)
    (Rc : Mat 8192 2048) : Mat 4096 8192 :=
  fun p J => ((∑ k : Fin 1024, x p k * Wc J k) + bc J) + ∑ k : Fin 2048, h p k * Rc J k

theorem pre_apply (x : Mat 4096 1024) (h : Mat 4096 2048) (Wc : Mat 8192 1024) (bc : Fin 8192 → EReal)
    (Rc : Mat 8192 2048) (p : Fin 4096) (J : Fin 8192) :
    pre x h Wc bc Rc p J = ((∑ k : Fin 1024, x p k * Wc J k) + bc J) + ∑ k : Fin 2048, h p k * Rc J k := rfl

/-- Column `j` of gate block `g` among the 8192 columns. -/
def col (g : Fin 4) (j : Fin 2048) : Fin 8192 :=
  ⟨g.val * 2048 + j.val, by have := g.isLt; have := j.isLt; omega⟩

theorem col_val (g : Fin 4) (j : Fin 2048) : (col g j).val = g.val * 2048 + j.val := rfl
theorem col0_val (j : Fin 2048) : (col 0 j).val = j.val := by show 0 * 2048 + j.val = j.val; omega
theorem col1_val (j : Fin 2048) : (col 1 j).val = 2048 + j.val := by show 1 * 2048 + j.val = 2048 + j.val; omega
theorem col2_val (j : Fin 2048) : (col 2 j).val = 4096 + j.val := by show 2 * 2048 + j.val = 4096 + j.val; omega
theorem col3_val (j : Fin 2048) : (col 3 j).val = 6144 + j.val := by show 3 * 2048 + j.val = 6144 + j.val; omega

/-! ## The gates, as functions of an arbitrary pre-activation matrix -/

/-- The input gate: the logistic function of block 0. -/
def gI (P : Mat 4096 8192) : Mat 4096 2048 := fun p j => Ideal.logistic (P p (col 0 j))
/-- The forget gate: the logistic function of block 1. -/
def gF (P : Mat 4096 8192) : Mat 4096 2048 := fun p j => Ideal.logistic (P p (col 1 j))
/-- The cell input: the hyperbolic tangent of block 2. -/
def gZ (P : Mat 4096 8192) : Mat 4096 2048 := fun p j => Ideal.tanh (P p (col 2 j))
/-- The output gate: the logistic function of block 3. -/
def gO (P : Mat 4096 8192) : Mat 4096 2048 := fun p j => Ideal.logistic (P p (col 3 j))

theorem gI_apply (P : Mat 4096 8192) (p : Fin 4096) (j : Fin 2048) : gI P p j = Ideal.logistic (P p (col 0 j)) := rfl
theorem gF_apply (P : Mat 4096 8192) (p : Fin 4096) (j : Fin 2048) : gF P p j = Ideal.logistic (P p (col 1 j)) := rfl
theorem gZ_apply (P : Mat 4096 8192) (p : Fin 4096) (j : Fin 2048) : gZ P p j = Ideal.tanh (P p (col 2 j)) := rfl
theorem gO_apply (P : Mat 4096 8192) (p : Fin 4096) (j : Fin 2048) : gO P p j = Ideal.logistic (P p (col 3 j)) := rfl

/-- The logistic function is the quotient the host spells out, `1 / (1 + exp (-x))`. -/
theorem logistic_eq (x : EReal) : Ideal.div 1 (1 + Ideal.exp (-x)) = Ideal.logistic x := rfl

/-! ## The new state -/

/-- The new stabilizer: the larger of forget gate times the old stabilizer and the input gate. -/
def outM (P : Mat 4096 8192) (mp : Mat 4096 2048) : Mat 4096 2048 :=
  fun p j => max (gF P p j * mp p j) (gI P p j)
/-- The new cell state: forget gate times the old cell state plus input gate times cell input. -/
def outC (P : Mat 4096 8192) (cp : Mat 4096 2048) : Mat 4096 2048 :=
  fun p j => gF P p j * cp p j + gI P p j * gZ P p j
/-- The new normalizer: forget gate times the old normalizer plus the input gate. -/
def outN (P : Mat 4096 8192) (np : Mat 4096 2048) : Mat 4096 2048 :=
  fun p j => gF P p j * np p j + gI P p j

theorem outM_apply (P : Mat 4096 8192) (mp : Mat 4096 2048) (p : Fin 4096) (j : Fin 2048) :
    outM P mp p j = max (gF P p j * mp p j) (gI P p j) := rfl
theorem outC_apply (P : Mat 4096 8192) (cp : Mat 4096 2048) (p : Fin 4096) (j : Fin 2048) :
    outC P cp p j = gF P p j * cp p j + gI P p j * gZ P p j := rfl
theorem outN_apply (P : Mat 4096 8192) (np : Mat 4096 2048) (p : Fin 4096) (j : Fin 2048) :
    outN P np p j = gF P p j * np p j + gI P p j := rfl

/-! ## The normalized output -/

/-- The stabilized cell state: new cell state over new normalizer. -/
def ratio (P : Mat 4096 8192) (cp np : Mat 4096 2048) : Mat 4096 2048 :=
  fun p j => Ideal.div (outC P cp p j) (outN P np p j)
/-- Its mean over the 2048 columns of a row. -/
def mean (P : Mat 4096 8192) (cp np : Mat 4096 2048) : Fin 4096 → EReal :=
  fun p => Ideal.div (∑ j : Fin 2048, ratio P cp np p j) (Ideal.ofBits .f32 0x45000000#32)
/-- The stabilized cell state less its row mean. -/
def centered (P : Mat 4096 8192) (cp np : Mat 4096 2048) : Mat 4096 2048 :=
  fun p j => ratio P cp np p j - mean P cp np p
/-- The mean of the squared deviations over the 2048 columns of a row. -/
def variance (P : Mat 4096 8192) (cp np : Mat 4096 2048) : Fin 4096 → EReal :=
  fun p => Ideal.div (∑ j : Fin 2048, centered P cp np p j * centered P cp np p j) (Ideal.ofBits .f32 0x45000000#32)
/-- The new hidden state: output gate times the hyperbolic tangent of the normalized, scaled and shifted
    stabilized cell state. -/
def outH (P : Mat 4096 8192) (cp np : Mat 4096 2048) (gw gb : Fin 2048 → EReal) : Mat 4096 2048 :=
  fun p j => gO P p j * Ideal.tanh
    (centered P cp np p j * Ideal.rsqrt (variance P cp np p + Ideal.ofBits .f32 0x3727C5AC#32) * gw j + gb j)

theorem ratio_apply (P : Mat 4096 8192) (cp np : Mat 4096 2048) (p : Fin 4096) (j : Fin 2048) :
    ratio P cp np p j = Ideal.div (outC P cp p j) (outN P np p j) := rfl
theorem mean_apply (P : Mat 4096 8192) (cp np : Mat 4096 2048) (p : Fin 4096) :
    mean P cp np p = Ideal.div (∑ j : Fin 2048, ratio P cp np p j) (Ideal.ofBits .f32 0x45000000#32) := rfl
theorem centered_apply (P : Mat 4096 8192) (cp np : Mat 4096 2048) (p : Fin 4096) (j : Fin 2048) :
    centered P cp np p j = ratio P cp np p j - mean P cp np p := rfl
theorem variance_apply (P : Mat 4096 8192) (cp np : Mat 4096 2048) (p : Fin 4096) :
    variance P cp np p
      = Ideal.div (∑ j : Fin 2048, centered P cp np p j * centered P cp np p j) (Ideal.ofBits .f32 0x45000000#32) := rfl
theorem outH_apply (P : Mat 4096 8192) (cp np : Mat 4096 2048) (gw gb : Fin 2048 → EReal) (p : Fin 4096)
    (j : Fin 2048) :
    outH P cp np gw gb p j = gO P p j * Ideal.tanh
      (centered P cp np p j * Ideal.rsqrt (variance P cp np p + Ideal.ofBits .f32 0x3727C5AC#32) * gw j + gb j) := rfl

end Cert.Spec

end
-- ==== Proof.KValPieces.lean ====
/-
  What each case of the kernel body leaves, as values. Where the reduction coordinate is 0 the accumulator ends at the zero block plus
  the first partial product; at every later step at what the step before left plus this step's partial product; at the last step the
  four output blocks are the gate formulas of the four column blocks of that final accumulator, each with its columns of the bias row.
-/
import proofs.«142335_j2551210574034_2_alg».proof.Proof.FrFrameKI
import proofs.«142335_j2551210574034_2_alg».proof.Proof.Spec
import Idealize.ShloMosaic.Lib.Pipeline.Value
import Idealize.ShloMosaic.Lib.ValueIdx

set_option maxRecDepth 16384

noncomputable section

namespace Cert.KernelIdeal.Fr

open Cert.KernelIdeal.Gen Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → Nat) = fun _ => 0 := funext fun a => by fin_cases a <;> rfl

/-- Between the first and the last reduction step the body leaves the accumulator plus this step's partial product. -/
theorem sout_B (c : Dev nD) (i : grid0.Coords) (arg2 : Memref sig .tc .vmem S256x256 .bf16) (harg2 : arg2.IsWhole) (arg3 : Memref sig .tc .vmem S8192x256 .bf16) (harg3 : arg3.IsWhole) (arg4 : Memref sig .tc .vmem S1x8192 .f32) (harg4 : arg4.IsWhole) (arg5 : Memref sig .tc .vmem S256x2048 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S256x2048 .f32) (harg10 : arg10.IsWhole) (arg11 : Memref sig .tc .vmem S256x2048 .f32) (harg11 : arg11.IsWhole) (arg12 : Memref sig .tc .vmem S256x2048 .f32) (harg12 : arg12.IsWhole) (arg13 : Memref sig .tc .vmem S256x2048 .f32) (harg13 : arg13.IsWhole) (arg14 : Memref sig .tc .vmem S256x8192 .f32) (harg14 : arg14.IsWhole) (hc0 : ¬cond0_0 i) (hc1 : ¬cond0_1 i) (x0 : Vec F S256x256 .bf16) (x1 : Vec F S8192x256 .bf16) (x2 : Vec F S1x8192 .f32) (x3 : Vec F S256x2048 .f32) (x4 : Vec F S256x2048 .f32) (x5 : Vec F S256x2048 .f32) (x6 : Vec F S1x2048 .f32) (x7 : Vec F S1x2048 .f32) (xs0 : Vec F S256x8192 .f32) :
    sout0_B_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 = k0_pay2 x0 x1 xs0 := by
  unfold sout0_B_0
  rw [View.read_writes_junk_eq_canon]
  unfold kernelRun0_B
  dsimp only
  rw [View.canon_unit_zero hz2]
  simp only [View.readAt_eq_ld, harg2.read_unread, harg3.read_unread, harg4.read_unread, harg5.read_unread, harg6.read_unread, harg7.read_unread, harg8.read_unread, harg9.read_unread, harg14.read_unread, View.ld_unit_zero (S := S256x256) hz2, View.ld_unit_zero (S := S8192x256) hz2, View.ld_unit_zero (S := S256x8192) hz2, View.ld_unit_zero (S := S256x2048) hz2, View.ld_unit_zero (S := S1x2048) hz2]

/-- At the first reduction step the body leaves the zero block plus the first partial product. -/
theorem sout_A (c : Dev nD) (i : grid0.Coords) (arg2 : Memref sig .tc .vmem S256x256 .bf16) (harg2 : arg2.IsWhole) (arg3 : Memref sig .tc .vmem S8192x256 .bf16) (harg3 : arg3.IsWhole) (arg4 : Memref sig .tc .vmem S1x8192 .f32) (harg4 : arg4.IsWhole) (arg5 : Memref sig .tc .vmem S256x2048 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S256x2048 .f32) (harg10 : arg10.IsWhole) (arg11 : Memref sig .tc .vmem S256x2048 .f32) (harg11 : arg11.IsWhole) (arg12 : Memref sig .tc .vmem S256x2048 .f32) (harg12 : arg12.IsWhole) (arg13 : Memref sig .tc .vmem S256x2048 .f32) (harg13 : arg13.IsWhole) (arg14 : Memref sig .tc .vmem S256x8192 .f32) (harg14 : arg14.IsWhole) (hc0 : cond0_0 i) (hc1 : ¬cond0_1 i) (x0 : Vec F S256x256 .bf16) (x1 : Vec F S8192x256 .bf16) (x2 : Vec F S1x8192 .f32) (x3 : Vec F S256x2048 .f32) (x4 : Vec F S256x2048 .f32) (x5 : Vec F S256x2048 .f32) (x6 : Vec F S1x2048 .f32) (x7 : Vec F S1x2048 .f32) :
    sout0_A_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 = k0_pay2 x0 x1 (k0_pay1 (F := F)) := by
  unfold sout0_A_0
  rw [View.read_writes_junk_eq_canon]
  unfold kernelRun0_A
  dsimp only
  sl_unfold_words
  rw [View.canon_cons_unit_zero (S := S256x8192) hz2, View.readCov_unit_zero (S := S256x8192) _ hz2]
  simp only [View.readAt_eq_ld, harg2.read_unread, harg3.read_unread, harg4.read_unread, harg5.read_unread, harg6.read_unread, harg7.read_unread, harg8.read_unread, harg9.read_unread, harg14.read_unread, View.ld_unit_zero (S := S256x256) hz2, View.ld_unit_zero (S := S8192x256) hz2, View.ld_unit_zero (S := S256x8192) hz2, View.ld_unit_zero (S := S256x2048) hz2, View.ld_unit_zero (S := S1x2048) hz2]

/-- At the last reduction step too. -/
theorem sout_C (c : Dev nD) (i : grid0.Coords) (arg2 : Memref sig .tc .vmem S256x256 .bf16) (harg2 : arg2.IsWhole) (arg3 : Memref sig .tc .vmem S8192x256 .bf16) (harg3 : arg3.IsWhole) (arg4 : Memref sig .tc .vmem S1x8192 .f32) (harg4 : arg4.IsWhole) (arg5 : Memref sig .tc .vmem S256x2048 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S256x2048 .f32) (harg10 : arg10.IsWhole) (arg11 : Memref sig .tc .vmem S256x2048 .f32) (harg11 : arg11.IsWhole) (arg12 : Memref sig .tc .vmem S256x2048 .f32) (harg12 : arg12.IsWhole) (arg13 : Memref sig .tc .vmem S256x2048 .f32) (harg13 : arg13.IsWhole) (arg14 : Memref sig .tc .vmem S256x8192 .f32) (harg14 : arg14.IsWhole) (hc0 : ¬cond0_0 i) (hc1 : cond0_1 i) (x0 : Vec F S256x256 .bf16) (x1 : Vec F S8192x256 .bf16) (x2 : Vec F S1x8192 .f32) (x3 : Vec F S256x2048 .f32) (x4 : Vec F S256x2048 .f32) (x5 : Vec F S256x2048 .f32) (x6 : Vec F S1x2048 .f32) (x7 : Vec F S1x2048 .f32) (xs0 : Vec F S256x8192 .f32) :
    sout0_C_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 = k0_pay2 x0 x1 xs0 := by
  unfold sout0_C_0
  rw [View.read_writes_junk_eq_canon]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg14.read_unread, View.ld_unit_zero (S := S256x256) hz2, View.ld_unit_zero (S := S8192x256) hz2, View.ld_unit_zero (S := S256x8192) hz2, View.ld_unit_zero (S := S256x2048) hz2, View.ld_unit_zero (S := S1x2048) hz2]

/-! ## The four column blocks of the accumulator and of the bias row -/

/-- Gate block 0 of the accumulator: its columns 0 … 2047. -/
abbrev accSl0 (A : Vec F S256x8192 .f32) : Vec F S256x2048 .f32 :=
  fun j => A ((Rect.unit (s := S256x8192) ![0, 0] S256x2048.size inb_S256x8192_S256x2048_0_0).idx j)
/-- The same columns of the bias row. -/
abbrev bSl0 (x2 : Vec F S1x8192 .f32) : Vec F S1x2048 .f32 :=
  View.ld x2 (Rect.unit (s := S1x8192) ![0, 0] S1x2048.size inb_S1x8192_S1x2048_0_0)
theorem accSl0_at (A : Vec F S256x8192 .f32) (r : Fin 256) (j : Fin 2048) :
    accSl0 A (ix2 r j) = A (ix2 r (Cert.Spec.col 0 j)) := by
  show A _ = A _
  congr 1
  funext a
  apply Fin.ext
  match a with
  | ⟨0, _⟩ => show 0 + 1 * r.val = r.val; omega
  | ⟨1, _⟩ => show 0 + 1 * j.val = 0 * 2048 + j.val; omega
theorem bSl0_at (x2 : Vec F S1x8192 .f32) (j : Fin 2048) :
    bSl0 x2 (ix2 (0 : Fin 1) j) = x2 (ix2 (0 : Fin 1) (Cert.Spec.col 0 j)) := by
  show x2 _ = x2 _
  congr 1
  funext a
  apply Fin.ext
  match a with
  | ⟨0, _⟩ => show 0 + 1 * 0 = 0; omega
  | ⟨1, _⟩ => show 0 + 1 * j.val = 0 * 2048 + j.val; omega

/-- Gate block 1 of the accumulator: its columns 2048 … 4095. -/
abbrev accSl1 (A : Vec F S256x8192 .f32) : Vec F S256x2048 .f32 :=
  fun j => A ((Rect.unit (s := S256x8192) ![0, 2048] S256x2048.size inb_S256x8192_S256x2048_0_2048).idx j)
/-- The same columns of the bias row. -/
abbrev bSl1 (x2 : Vec F S1x8192 .f32) : Vec F S1x2048 .f32 :=
  View.ld x2 (Rect.unit (s := S1x8192) ![0, 2048] S1x2048.size inb_S1x8192_S1x2048_0_2048)
theorem accSl1_at (A : Vec F S256x8192 .f32) (r : Fin 256) (j : Fin 2048) :
    accSl1 A (ix2 r j) = A (ix2 r (Cert.Spec.col 1 j)) := by
  show A _ = A _
  congr 1
  funext a
  apply Fin.ext
  match a with
  | ⟨0, _⟩ => show 0 + 1 * r.val = r.val; omega
  | ⟨1, _⟩ => show 2048 + 1 * j.val = 1 * 2048 + j.val; omega
theorem bSl1_at (x2 : Vec F S1x8192 .f32) (j : Fin 2048) :
    bSl1 x2 (ix2 (0 : Fin 1) j) = x2 (ix2 (0 : Fin 1) (Cert.Spec.col 1 j)) := by
  show x2 _ = x2 _
  congr 1
  funext a
  apply Fin.ext
  match a with
  | ⟨0, _⟩ => show 0 + 1 * 0 = 0; omega
  | ⟨1, _⟩ => show 2048 + 1 * j.val = 1 * 2048 + j.val; omega

/-- Gate block 2 of the accumulator: its columns 4096 … 6143. -/
abbrev accSl2 (A : Vec F S256x8192 .f32) : Vec F S256x2048 .f32 :=
  fun j => A ((Rect.unit (s := S256x8192) ![0, 4096] S256x2048.size inb_S256x8192_S256x2048_0_4096).idx j)
/-- The same columns of the bias row. -/
abbrev bSl2 (x2 : Vec F S1x8192 .f32) : Vec F S1x2048 .f32 :=
  View.ld x2 (Rect.unit (s := S1x8192) ![0, 4096] S1x2048.size inb_S1x8192_S1x2048_0_4096)
theorem accSl2_at (A : Vec F S256x8192 .f32) (r : Fin 256) (j : Fin 2048) :
    accSl2 A (ix2 r j) = A (ix2 r (Cert.Spec.col 2 j)) := by
  show A _ = A _
  congr 1
  funext a
  apply Fin.ext
  match a with
  | ⟨0, _⟩ => show 0 + 1 * r.val = r.val; omega
  | ⟨1, _⟩ => show 4096 + 1 * j.val = 2 * 2048 + j.val; omega
theorem bSl2_at (x2 : Vec F S1x8192 .f32) (j : Fin 2048) :
    bSl2 x2 (ix2 (0 : Fin 1) j) = x2 (ix2 (0 : Fin 1) (Cert.Spec.col 2 j)) := by
  show x2 _ = x2 _
  congr 1
  funext a
  apply Fin.ext
  match a with
  | ⟨0, _⟩ => show 0 + 1 * 0 = 0; omega
  | ⟨1, _⟩ => show 4096 + 1 * j.val = 2 * 2048 + j.val; omega

/-- Gate block 3 of the accumulator: its columns 6144 … 8191. -/
abbrev accSl3 (A : Vec F S256x8192 .f32) : Vec F S256x2048 .f32 :=
  fun j => A ((Rect.unit (s := S256x8192) ![0, 6144] S256x2048.size inb_S256x8192_S256x2048_0_6144).idx j)
/-- The same columns of the bias row. -/
abbrev bSl3 (x2 : Vec F S1x8192 .f32) : Vec F S1x2048 .f32 :=
  View.ld x2 (Rect.unit (s := S1x8192) ![0, 6144] S1x2048.size inb_S1x8192_S1x2048_0_6144)
theorem accSl3_at (A : Vec F S256x8192 .f32) (r : Fin 256) (j : Fin 2048) :
    accSl3 A (ix2 r j) = A (ix2 r (Cert.Spec.col 3 j)) := by
  show A _ = A _
  congr 1
  funext a
  apply Fin.ext
  match a with
  | ⟨0, _⟩ => show 0 + 1 * r.val = r.val; omega
  | ⟨1, _⟩ => show 6144 + 1 * j.val = 3 * 2048 + j.val; omega
theorem bSl3_at (x2 : Vec F S1x8192 .f32) (j : Fin 2048) :
    bSl3 x2 (ix2 (0 : Fin 1) j) = x2 (ix2 (0 : Fin 1) (Cert.Spec.col 3 j)) := by
  show x2 _ = x2 _
  congr 1
  funext a
  apply Fin.ext
  match a with
  | ⟨0, _⟩ => show 0 + 1 * 0 = 0; omega
  | ⟨1, _⟩ => show 6144 + 1 * j.val = 3 * 2048 + j.val; omega

/-! ## The epilogue's four stores -/

/-- The new stabiliser block m. -/
theorem out_C_11 (c : Dev nD) (i : grid0.Coords) (arg2 : Memref sig .tc .vmem S256x256 .bf16) (harg2 : arg2.IsWhole) (arg3 : Memref sig .tc .vmem S8192x256 .bf16) (harg3 : arg3.IsWhole) (arg4 : Memref sig .tc .vmem S1x8192 .f32) (harg4 : arg4.IsWhole) (arg5 : Memref sig .tc .vmem S256x2048 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S256x2048 .f32) (harg10 : arg10.IsWhole) (arg11 : Memref sig .tc .vmem S256x2048 .f32) (harg11 : arg11.IsWhole) (arg12 : Memref sig .tc .vmem S256x2048 .f32) (harg12 : arg12.IsWhole) (arg13 : Memref sig .tc .vmem S256x2048 .f32) (harg13 : arg13.IsWhole) (arg14 : Memref sig .tc .vmem S256x8192 .f32) (harg14 : arg14.IsWhole) (hc0 : ¬cond0_0 i) (hc1 : cond0_1 i) (x0 : Vec F S256x256 .bf16) (x1 : Vec F S8192x256 .bf16) (x2 : Vec F S1x8192 .f32) (x3 : Vec F S256x2048 .f32) (x4 : Vec F S256x2048 .f32) (x5 : Vec F S256x2048 .f32) (x6 : Vec F S1x2048 .f32) (x7 : Vec F S1x2048 .f32) (xs0 : Vec F S256x8192 .f32) :
    out0_C_11 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 = k0_pay7 (accSl0 (k0_pay2 x0 x1 xs0)) (bSl0 x2) (accSl1 (k0_pay2 x0 x1 xs0)) (bSl1 x2) x5 := by
  unfold out0_C_11
  rw [View.read_writes_junk_eq_canon]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg14.read_unread, View.ld_unit_zero (S := S256x256) hz2, View.ld_unit_zero (S := S8192x256) hz2, View.ld_unit_zero (S := S256x8192) hz2, View.ld_unit_zero (S := S256x2048) hz2, View.ld_unit_zero (S := S1x2048) hz2, View.readCov_eq_canon', View.canon_unit_zero (S := S256x8192) hz2]
  rfl

/-- The new cell block c. -/
theorem out_C_9 (c : Dev nD) (i : grid0.Coords) (arg2 : Memref sig .tc .vmem S256x256 .bf16) (harg2 : arg2.IsWhole) (arg3 : Memref sig .tc .vmem S8192x256 .bf16) (harg3 : arg3.IsWhole) (arg4 : Memref sig .tc .vmem S1x8192 .f32) (harg4 : arg4.IsWhole) (arg5 : Memref sig .tc .vmem S256x2048 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S256x2048 .f32) (harg10 : arg10.IsWhole) (arg11 : Memref sig .tc .vmem S256x2048 .f32) (harg11 : arg11.IsWhole) (arg12 : Memref sig .tc .vmem S256x2048 .f32) (harg12 : arg12.IsWhole) (arg13 : Memref sig .tc .vmem S256x2048 .f32) (harg13 : arg13.IsWhole) (arg14 : Memref sig .tc .vmem S256x8192 .f32) (harg14 : arg14.IsWhole) (hc0 : ¬cond0_0 i) (hc1 : cond0_1 i) (x0 : Vec F S256x256 .bf16) (x1 : Vec F S8192x256 .bf16) (x2 : Vec F S1x8192 .f32) (x3 : Vec F S256x2048 .f32) (x4 : Vec F S256x2048 .f32) (x5 : Vec F S256x2048 .f32) (x6 : Vec F S1x2048 .f32) (x7 : Vec F S1x2048 .f32) (xs0 : Vec F S256x8192 .f32) :
    out0_C_9 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 = k0_pay8 (accSl0 (k0_pay2 x0 x1 xs0)) (bSl0 x2) (accSl1 (k0_pay2 x0 x1 xs0)) (bSl1 x2) (accSl2 (k0_pay2 x0 x1 xs0)) (bSl2 x2) x3 := by
  unfold out0_C_9
  rw [View.read_writes_junk_eq_canon]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg14.read_unread, View.ld_unit_zero (S := S256x256) hz2, View.ld_unit_zero (S := S8192x256) hz2, View.ld_unit_zero (S := S256x8192) hz2, View.ld_unit_zero (S := S256x2048) hz2, View.ld_unit_zero (S := S1x2048) hz2, View.readCov_eq_canon', View.canon_unit_zero (S := S256x8192) hz2]
  rfl

/-- The new normaliser block n. -/
theorem out_C_10 (c : Dev nD) (i : grid0.Coords) (arg2 : Memref sig .tc .vmem S256x256 .bf16) (harg2 : arg2.IsWhole) (arg3 : Memref sig .tc .vmem S8192x256 .bf16) (harg3 : arg3.IsWhole) (arg4 : Memref sig .tc .vmem S1x8192 .f32) (harg4 : arg4.IsWhole) (arg5 : Memref sig .tc .vmem S256x2048 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S256x2048 .f32) (harg10 : arg10.IsWhole) (arg11 : Memref sig .tc .vmem S256x2048 .f32) (harg11 : arg11.IsWhole) (arg12 : Memref sig .tc .vmem S256x2048 .f32) (harg12 : arg12.IsWhole) (arg13 : Memref sig .tc .vmem S256x2048 .f32) (harg13 : arg13.IsWhole) (arg14 : Memref sig .tc .vmem S256x8192 .f32) (harg14 : arg14.IsWhole) (hc0 : ¬cond0_0 i) (hc1 : cond0_1 i) (x0 : Vec F S256x256 .bf16) (x1 : Vec F S8192x256 .bf16) (x2 : Vec F S1x8192 .f32) (x3 : Vec F S256x2048 .f32) (x4 : Vec F S256x2048 .f32) (x5 : Vec F S256x2048 .f32) (x6 : Vec F S1x2048 .f32) (x7 : Vec F S1x2048 .f32) (xs0 : Vec F S256x8192 .f32) :
    out0_C_10 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 = k0_pay9 (accSl0 (k0_pay2 x0 x1 xs0)) (bSl0 x2) (accSl1 (k0_pay2 x0 x1 xs0)) (bSl1 x2) x4 := by
  unfold out0_C_10
  rw [View.read_writes_junk_eq_canon]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg14.read_unread, View.ld_unit_zero (S := S256x256) hz2, View.ld_unit_zero (S := S8192x256) hz2, View.ld_unit_zero (S := S256x8192) hz2, View.ld_unit_zero (S := S256x2048) hz2, View.ld_unit_zero (S := S1x2048) hz2, View.readCov_eq_canon', View.canon_unit_zero (S := S256x8192) hz2]
  rfl

/-- The new hidden block h. -/
theorem out_C_8 (c : Dev nD) (i : grid0.Coords) (arg2 : Memref sig .tc .vmem S256x256 .bf16) (harg2 : arg2.IsWhole) (arg3 : Memref sig .tc .vmem S8192x256 .bf16) (harg3 : arg3.IsWhole) (arg4 : Memref sig .tc .vmem S1x8192 .f32) (harg4 : arg4.IsWhole) (arg5 : Memref sig .tc .vmem S256x2048 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S256x2048 .f32) (harg10 : arg10.IsWhole) (arg11 : Memref sig .tc .vmem S256x2048 .f32) (harg11 : arg11.IsWhole) (arg12 : Memref sig .tc .vmem S256x2048 .f32) (harg12 : arg12.IsWhole) (arg13 : Memref sig .tc .vmem S256x2048 .f32) (harg13 : arg13.IsWhole) (arg14 : Memref sig .tc .vmem S256x8192 .f32) (harg14 : arg14.IsWhole) (hc0 : ¬cond0_0 i) (hc1 : cond0_1 i) (x0 : Vec F S256x256 .bf16) (x1 : Vec F S8192x256 .bf16) (x2 : Vec F S1x8192 .f32) (x3 : Vec F S256x2048 .f32) (x4 : Vec F S256x2048 .f32) (x5 : Vec F S256x2048 .f32) (x6 : Vec F S1x2048 .f32) (x7 : Vec F S1x2048 .f32) (xs0 : Vec F S256x8192 .f32) :
    out0_C_8 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 = k0_pay3 (k0_pay6 (accSl3 (k0_pay2 x0 x1 xs0)) (bSl3 x2)) (k0_pay8 (accSl0 (k0_pay2 x0 x1 xs0)) (bSl0 x2) (accSl1 (k0_pay2 x0 x1 xs0)) (bSl1 x2) (accSl2 (k0_pay2 x0 x1 xs0)) (bSl2 x2) x3) (k0_pay9 (accSl0 (k0_pay2 x0 x1 xs0)) (bSl0 x2) (accSl1 (k0_pay2 x0 x1 xs0)) (bSl1 x2) x4) x6 x7 := by
  unfold out0_C_8
  rw [View.read_writes_junk_eq_canon]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg14.read_unread, View.ld_unit_zero (S := S256x256) hz2, View.ld_unit_zero (S := S8192x256) hz2, View.ld_unit_zero (S := S256x8192) hz2, View.ld_unit_zero (S := S256x2048) hz2, View.ld_unit_zero (S := S1x2048) hz2, View.readCov_eq_canon', View.canon_unit_zero (S := S256x8192) hz2]
  rfl

end Cert.KernelIdeal.Fr

end
-- ==== Proof.KBlocks.lean ====
/-
  The windows' blocks at one element, and from the written blocks to the whole arrays.

  The grid has 16 × 12 points; point t is batch tile t / 12 at reduction step t % 12. The joined activations are
  staged in 256 × 256 blocks at (t / 12, t % 12), the joined weights in 8192 × 256 blocks at (0, t % 12), the old
  state arrays and the four results in 256 × 2048 blocks at (t / 12, 0), and the three row vectors whole. An element
  of a block sits in its array, on each axis, at the block index times the block's extent plus its own coordinate.
  Each result array is written back exactly at the last reduction step of each batch tile, and those sixteen blocks
  of 256 rows cover its 4096 rows: row R lies in the block written at point 12 · (R / 256) + 11. So a result array
  that receives, at every such point, block t / 12 of one function G of the index ends up holding G.
-/
import proofs.«142335_j2551210574034_2_alg».proof.Proof.FrFrameKI
import Idealize.ShloMosaic.Lib.Pipeline.Value
import Idealize.ShloMosaic.Lib.ValueIdx

set_option maxRecDepth 16384

noncomputable section

namespace Cert.KernelIdeal.BlkAt

open Cert.KernelIdeal Cert.KernelIdeal.Gen Idealize.ShloMosaic Idealize.ShloMosaic.TcCoe Idealize.ShloMosaic.ValueIdx
open Idealize.SL.Sem
open Idealize.ShloMosaic.Pipeline (Dat)

variable {F : FTy → Type} [FloatOps F]
variable (m : (ℓ : Loc nD τ sig) → Buf (Elt F) ℓ) (c : Dev nD)

/-! ## Rows and columns of a block in its array -/

theorem rowOf_lt (t : Fin cfg0.N) (r : Fin 256) : t.val / 12 * 256 + r.val < 4096 := by
  have ht := t.isLt
  have hN : cfg0.N = 192 := N_0
  have hr := r.isLt
  omega

theorem colOf_lt (t : Fin cfg0.N) (kk : Fin 256) : t.val % 12 * 256 + kk.val < 3072 := by
  have hk := kk.isLt
  omega

/-- Row `r` of batch tile `t / 12`, as a row of the whole arrays. -/
def rowOf (t : Fin cfg0.N) (r : Fin 256) : Fin 4096 := ⟨t.val / 12 * 256 + r.val, rowOf_lt t r⟩
/-- Column `kk` of reduction step `t % 12`, as a column of the joined arrays. -/
def colOf (t : Fin cfg0.N) (kk : Fin 256) : Fin 3072 := ⟨t.val % 12 * 256 + kk.val, colOf_lt t kk⟩

@[simp] theorem rowOf_val (t : Fin cfg0.N) (r : Fin 256) : (rowOf t r).val = t.val / 12 * 256 + r.val := rfl
@[simp] theorem colOf_val (t : Fin cfg0.N) (kk : Fin 256) : (colOf t kk).val = t.val % 12 * 256 + kk.val := rfl

/-! ## The printed index maps over the grid -/

/-- Window 0's block index at point `t`, decided over the 192 points. -/
theorem idx0 : ∀ t : Fin cfg0.N, win0_0.index t (0 : Fin 2) = t.val / 12 ∧ win0_0.index t (1 : Fin 2) = t.val % 12 :=
  (by decide +kernel : ∀ t : Fin grid0.N, win0_0.index t (0 : Fin 2) = t.val / 12 ∧ win0_0.index t (1 : Fin 2) = t.val % 12)
/-- Window 1's block index at point `t`, decided over the 192 points. -/
theorem idx1 : ∀ t : Fin cfg0.N, win0_1.index t (0 : Fin 2) = 0 ∧ win0_1.index t (1 : Fin 2) = t.val % 12 :=
  (by decide +kernel : ∀ t : Fin grid0.N, win0_1.index t (0 : Fin 2) = 0 ∧ win0_1.index t (1 : Fin 2) = t.val % 12)
/-- Window 2's block index at point `t`, decided over the 192 points. -/
theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
/-- Window 3's block index at point `t`, decided over the 192 points. -/
theorem idx3 : ∀ t : Fin cfg0.N, win0_3.index t (0 : Fin 2) = t.val / 12 ∧ win0_3.index t (1 : Fin 2) = 0 :=
  (by decide +kernel : ∀ t : Fin grid0.N, win0_3.index t (0 : Fin 2) = t.val / 12 ∧ win0_3.index t (1 : Fin 2) = 0)
/-- Window 4's block index at point `t`, decided over the 192 points. -/
theorem idx4 : ∀ t : Fin cfg0.N, win0_4.index t (0 : Fin 2) = t.val / 12 ∧ win0_4.index t (1 : Fin 2) = 0 :=
  (by decide +kernel : ∀ t : Fin grid0.N, win0_4.index t (0 : Fin 2) = t.val / 12 ∧ win0_4.index t (1 : Fin 2) = 0)
/-- Window 5's block index at point `t`, decided over the 192 points. -/
theorem idx5 : ∀ t : Fin cfg0.N, win0_5.index t (0 : Fin 2) = t.val / 12 ∧ win0_5.index t (1 : Fin 2) = 0 :=
  (by decide +kernel : ∀ t : Fin grid0.N, win0_5.index t (0 : Fin 2) = t.val / 12 ∧ win0_5.index t (1 : Fin 2) = 0)
/-- Window 6's block index at point `t`, decided over the 192 points. -/
theorem idx6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
/-- Window 7's block index at point `t`, decided over the 192 points. -/
theorem idx7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)
/-- Window 8's block index at point `t`, decided over the 192 points. -/
theorem idx8 : ∀ t : Fin cfg0.N, win0_8.index t (0 : Fin 2) = t.val / 12 ∧ win0_8.index t (1 : Fin 2) = 0 :=
  (by decide +kernel : ∀ t : Fin grid0.N, win0_8.index t (0 : Fin 2) = t.val / 12 ∧ win0_8.index t (1 : Fin 2) = 0)
/-- Window 9's block index at point `t`, decided over the 192 points. -/
theorem idx9 : ∀ t : Fin cfg0.N, win0_9.index t (0 : Fin 2) = t.val / 12 ∧ win0_9.index t (1 : Fin 2) = 0 :=
  (by decide +kernel : ∀ t : Fin grid0.N, win0_9.index t (0 : Fin 2) = t.val / 12 ∧ win0_9.index t (1 : Fin 2) = 0)
/-- Window 10's block index at point `t`, decided over the 192 points. -/
theorem idx10 : ∀ t : Fin cfg0.N, win0_10.index t (0 : Fin 2) = t.val / 12 ∧ win0_10.index t (1 : Fin 2) = 0 :=
  (by decide +kernel : ∀ t : Fin grid0.N, win0_10.index t (0 : Fin 2) = t.val / 12 ∧ win0_10.index t (1 : Fin 2) = 0)
/-- Window 11's block index at point `t`, decided over the 192 points. -/
theorem idx11 : ∀ t : Fin cfg0.N, win0_11.index t (0 : Fin 2) = t.val / 12 ∧ win0_11.index t (1 : Fin 2) = 0 :=
  (by decide +kernel : ∀ t : Fin grid0.N, win0_11.index t (0 : Fin 2) = t.val / 12 ∧ win0_11.index t (1 : Fin 2) = 0)

/-! ## The input windows' blocks at an element -/

/-- The activations' block at point `t`: rows of batch tile `t / 12`, columns of reduction step `t % 12`. -/
theorem iblk0_at (t : Fin cfg0.N) (r kk : Fin 256) :
    (Fr.iblk m c 0 t : Vec F S256x256 .bf16) (ix2 r kk)
      = (Fr.V m c main_v4 : S4096x3072.Idx → Elt F .bf16) (ix2 (rowOf t r) (colOf t kk)) := by
  obtain ⟨e0, e1⟩ := idx0 t
  unfold Fr.iblk
  rw [View.read_apply]
  show (Fr.V m c main_v4 : S4096x3072.Idx → Elt F .bf16) _ = _
  refine congrArg _ (funext fun a => Fin.ext ?_)
  match a with
  | ⟨0, _⟩ => show win0_0.index t (0 : Fin 2) * 256 + 1 * r.val = t.val / 12 * 256 + r.val; rw [e0]; omega
  | ⟨1, _⟩ => show win0_0.index t (1 : Fin 2) * 256 + 1 * kk.val = t.val % 12 * 256 + kk.val; rw [e1]; omega

/-- The weights' block at point `t`: all 8192 rows, columns of reduction step `t % 12`. -/
theorem iblk1_at (t : Fin cfg0.N) (J : Fin 8192) (kk : Fin 256) :
    (Fr.iblk m c 1 t : Vec F S8192x256 .bf16) (ix2 J kk)
      = (Fr.V m c main_v6 : S8192x3072.Idx → Elt F .bf16) (ix2 J (colOf t kk)) := by
  obtain ⟨e0, e1⟩ := idx1 t
  unfold Fr.iblk
  rw [View.read_apply]
  show (Fr.V m c main_v6 : S8192x3072.Idx → Elt F .bf16) _ = _
  refine congrArg _ (funext fun a => Fin.ext ?_)
  match a with
  | ⟨0, _⟩ => show win0_1.index t (0 : Fin 2) * 8192 + 1 * J.val = J.val; rw [e0]; omega
  | ⟨1, _⟩ => show win0_1.index t (1 : Fin 2) * 256 + 1 * kk.val = t.val % 12 * 256 + kk.val; rw [e1]; omega

/-- The bias row's block is the whole row. -/
theorem iblk2_at (t : Fin cfg0.N) (J : Fin 8192) :
    (Fr.iblk m c 2 t : Vec F S1x8192 .f32) (ix2 (0 : Fin 1) J)
      = (Fr.V m c main_v7 : S1x8192.Idx → Elt F .f32) (ix2 (0 : Fin 1) J) := by
  obtain ⟨e0, e1⟩ := idx2 t
  unfold Fr.iblk
  rw [View.read_apply]
  show (Fr.V m c main_v7 : S1x8192.Idx → Elt F .f32) _ = _
  refine congrArg _ (funext fun a => Fin.ext ?_)
  match a with
  | ⟨0, _⟩ => show win0_2.index t (0 : Fin 2) * 1 + 1 * 0 = 0; rw [e0]
  | ⟨1, _⟩ => show win0_2.index t (1 : Fin 2) * 8192 + 1 * J.val = J.val; rw [e1]; omega

/-- The old cell state's block at point `t`: rows of batch tile `t / 12`, all 2048 columns. -/
theorem iblk3_at (t : Fin cfg0.N) (r : Fin 256) (j : Fin 2048) :
    (Fr.iblk m c 3 t : Vec F S256x2048 .f32) (ix2 r j)
      = (Fr.V m c main_arg2 : S4096x2048.Idx → Elt F .f32) (ix2 (rowOf t r) j) := by
  obtain ⟨e0, e1⟩ := idx3 t
  unfold Fr.iblk
  rw [View.read_apply]
  show (Fr.V m c main_arg2 : S4096x2048.Idx → Elt F .f32) _ = _
  refine congrArg _ (funext fun a => Fin.ext ?_)
  match a with
  | ⟨0, _⟩ => show win0_3.index t (0 : Fin 2) * 256 + 1 * r.val = t.val / 12 * 256 + r.val; rw [e0]; omega
  | ⟨1, _⟩ => show win0_3.index t (1 : Fin 2) * 2048 + 1 * j.val = j.val; rw [e1]; omega

/-- The old normaliser state's block at point `t`: rows of batch tile `t / 12`, all 2048 columns. -/
theorem iblk4_at (t : Fin cfg0.N) (r : Fin 256) (j : Fin 2048) :
    (Fr.iblk m c 4 t : Vec F S256x2048 .f32) (ix2 r j)
      = (Fr.V m c main_arg3 : S4096x2048.Idx → Elt F .f32) (ix2 (rowOf t r) j) := by
  obtain ⟨e0, e1⟩ := idx4 t
  unfold Fr.iblk
  rw [View.read_apply]
  show (Fr.V m c main_arg3 : S4096x2048.Idx → Elt F .f32) _ = _
  refine congrArg _ (funext fun a => Fin.ext ?_)
  match a with
  | ⟨0, _⟩ => show win0_4.index t (0 : Fin 2) * 256 + 1 * r.val = t.val / 12 * 256 + r.val; rw [e0]; omega
  | ⟨1, _⟩ => show win0_4.index t (1 : Fin 2) * 2048 + 1 * j.val = j.val; rw [e1]; omega

/-- The old stabiliser's block at point `t`: rows of batch tile `t / 12`, all 2048 columns. -/
theorem iblk5_at (t : Fin cfg0.N) (r : Fin 256) (j : Fin 2048) :
    (Fr.iblk m c 5 t : Vec F S256x2048 .f32) (ix2 r j)
      = (Fr.V m c main_arg4 : S4096x2048.Idx → Elt F .f32) (ix2 (rowOf t r) j) := by
  obtain ⟨e0, e1⟩ := idx5 t
  unfold Fr.iblk
  rw [View.read_apply]
  show (Fr.V m c main_arg4 : S4096x2048.Idx → Elt F .f32) _ = _
  refine congrArg _ (funext fun a => Fin.ext ?_)
  match a with
  | ⟨0, _⟩ => show win0_5.index t (0 : Fin 2) * 256 + 1 * r.val = t.val / 12 * 256 + r.val; rw [e0]; omega
  | ⟨1, _⟩ => show win0_5.index t (1 : Fin 2) * 2048 + 1 * j.val = j.val; rw [e1]; omega

/-- The scale row's block is the whole row. -/
theorem iblk6_at (t : Fin cfg0.N) (j : Fin 2048) :
    (Fr.iblk m c 6 t : Vec F S1x2048 .f32) (ix2 (0 : Fin 1) j)
      = (Fr.V m c main_v8 : S1x2048.Idx → Elt F .f32) (ix2 (0 : Fin 1) j) := by
  obtain ⟨e0, e1⟩ := idx6 t
  unfold Fr.iblk
  rw [View.read_apply]
  show (Fr.V m c main_v8 : S1x2048.Idx → Elt F .f32) _ = _
  refine congrArg _ (funext fun a => Fin.ext ?_)
  match a with
  | ⟨0, _⟩ => show win0_6.index t (0 : Fin 2) * 1 + 1 * 0 = 0; rw [e0]
  | ⟨1, _⟩ => show win0_6.index t (1 : Fin 2) * 2048 + 1 * j.val = j.val; rw [e1]; omega

/-- The shift row's block is the whole row. -/
theorem iblk7_at (t : Fin cfg0.N) (j : Fin 2048) :
    (Fr.iblk m c 7 t : Vec F S1x2048 .f32) (ix2 (0 : Fin 1) j)
      = (Fr.V m c main_v9 : S1x2048.Idx → Elt F .f32) (ix2 (0 : Fin 1) j) := by
  obtain ⟨e0, e1⟩ := idx7 t
  unfold Fr.iblk
  rw [View.read_apply]
  show (Fr.V m c main_v9 : S1x2048.Idx → Elt F .f32) _ = _
  refine congrArg _ (funext fun a => Fin.ext ?_)
  match a with
  | ⟨0, _⟩ => show win0_7.index t (0 : Fin 2) * 1 + 1 * 0 = 0; rw [e0]
  | ⟨1, _⟩ => show win0_7.index t (1 : Fin 2) * 2048 + 1 * j.val = j.val; rw [e1]; omega

/-! ## From the written blocks to the arrays -/

/-- What point `t` writes back to result 0 (the hidden state) is what the body left in its staging buffer. -/
theorem flushed8_eq (t : Fin cfg0.N) :
    ((Fr.dats m 0 c).flushed 8 t : S256x2048.Idx → Elt F .f32) = Fr.outAt8 m c t := by
  show (cfg0.win 8).cut (grid0.coords t) ((Fr.dats m 0 c).after 8 t) = _
  rw [Fr.after0_8]
  rfl

/-- Row `R` of result 0 (the hidden state) lies in the block written back at the last reduction step of batch tile `R / 256`. -/
theorem cover8 (i : S4096x2048.Idx) :
    ∃ t : Fin cfg0.N, (cfg0.win 8).flush t = true ∧ i ∈ ((cfg0.win 8).blk t).view.set := by
  have h0 : (i 0).val < 4096 := (i 0).isLt
  have h1 : (i 1).val < 2048 := (i 1).isLt
  have hlt : 12 * ((i 0).val / 256) + 11 < cfg0.N := by
    show 12 * ((i 0).val / 256) + 11 < grid0.N
    rw [N_0]; omega
  obtain ⟨t, htv⟩ : ∃ t : Fin cfg0.N, t.val = 12 * ((i 0).val / 256) + 11 := ⟨⟨_, hlt⟩, rfl⟩
  obtain ⟨e0, e1⟩ := idx8 t
  refine ⟨t, (flush0_8 t).mpr (by omega), ?_⟩
  show i ∈ ((View.whole main_v10_0).slice (win0_8.rect t)).set
  rw [View.set_slice_whole, Rect.mem_set_unit]
  intro a
  match a with
  | ⟨0, _⟩ =>
    show win0_8.index t (0 : Fin 2) * 256 ≤ (i 0).val ∧ (i 0).val < win0_8.index t (0 : Fin 2) * 256 + 256
    rw [e0]; omega
  | ⟨1, _⟩ =>
    show win0_8.index t (1 : Fin 2) * 2048 ≤ (i 1).val ∧ (i 1).val < win0_8.index t (1 : Fin 2) * 2048 + 2048
    rw [e1]; omega

/-- Result 0 (the hidden state) after the run is `G`, when every write-back writes the block of `G` at its batch tile's rows. -/
theorem final8 (G : S4096x2048.Idx → Elt F .f32)
    (hfl : ∀ t : Fin cfg0.N, t.val % 12 = 11 → ∀ (r : Fin 256) (j : Fin 2048),
      ((Fr.dats m 0 c).flushed 8 t : S256x2048.Idx → Elt F .f32) (ix2 r j) = G (ix2 (rowOf t r) j)) :
    (Fr.dats m 0 c).arrAt 8 cfg0.N = G := by
  refine (Fr.dats m 0 c).arrAt_eq_of_cover 8 G (fun t hf => ?_) (cover8)
  have ht : t.val % 12 = 11 := (flush0_8 t).mp hf
  obtain ⟨e0, e1⟩ := idx8 t
  funext y
  obtain ⟨r, j, rfl⟩ : ∃ (r : Fin 256) (j : Fin 2048), y = ix2 r j :=
    ⟨⟨(y 0).val, (y 0).isLt⟩, ⟨(y 1).val, (y 1).isLt⟩, funext fun a => by
      match a with
      | ⟨0, _⟩ => rfl
      | ⟨1, _⟩ => rfl⟩
  rw [View.read_apply]
  refine (hfl t ht r j).trans ?_
  show G _ = G _
  refine congrArg G (funext fun a => Fin.ext ?_)
  match a with
  | ⟨0, _⟩ => show t.val / 12 * 256 + r.val = win0_8.index t (0 : Fin 2) * 256 + 1 * r.val; rw [e0]; omega
  | ⟨1, _⟩ => show j.val = win0_8.index t (1 : Fin 2) * 2048 + 1 * j.val; rw [e1]; omega

/-- What point `t` writes back to result 1 (the cell state) is what the body left in its staging buffer. -/
theorem flushed9_eq (t : Fin cfg0.N) :
    ((Fr.dats m 0 c).flushed 9 t : S256x2048.Idx → Elt F .f32) = Fr.outAt9 m c t := by
  show (cfg0.win 9).cut (grid0.coords t) ((Fr.dats m 0 c).after 9 t) = _
  rw [Fr.after0_9]
  rfl

/-- Row `R` of result 1 (the cell state) lies in the block written back at the last reduction step of batch tile `R / 256`. -/
theorem cover9 (i : S4096x2048.Idx) :
    ∃ t : Fin cfg0.N, (cfg0.win 9).flush t = true ∧ i ∈ ((cfg0.win 9).blk t).view.set := by
  have h0 : (i 0).val < 4096 := (i 0).isLt
  have h1 : (i 1).val < 2048 := (i 1).isLt
  have hlt : 12 * ((i 0).val / 256) + 11 < cfg0.N := by
    show 12 * ((i 0).val / 256) + 11 < grid0.N
    rw [N_0]; omega
  obtain ⟨t, htv⟩ : ∃ t : Fin cfg0.N, t.val = 12 * ((i 0).val / 256) + 11 := ⟨⟨_, hlt⟩, rfl⟩
  obtain ⟨e0, e1⟩ := idx9 t
  refine ⟨t, (flush0_9 t).mpr (by omega), ?_⟩
  show i ∈ ((View.whole main_v10_1).slice (win0_9.rect t)).set
  rw [View.set_slice_whole, Rect.mem_set_unit]
  intro a
  match a with
  | ⟨0, _⟩ =>
    show win0_9.index t (0 : Fin 2) * 256 ≤ (i 0).val ∧ (i 0).val < win0_9.index t (0 : Fin 2) * 256 + 256
    rw [e0]; omega
  | ⟨1, _⟩ =>
    show win0_9.index t (1 : Fin 2) * 2048 ≤ (i 1).val ∧ (i 1).val < win0_9.index t (1 : Fin 2) * 2048 + 2048
    rw [e1]; omega

/-- Result 1 (the cell state) after the run is `G`, when every write-back writes the block of `G` at its batch tile's rows. -/
theorem final9 (G : S4096x2048.Idx → Elt F .f32)
    (hfl : ∀ t : Fin cfg0.N, t.val % 12 = 11 → ∀ (r : Fin 256) (j : Fin 2048),
      ((Fr.dats m 0 c).flushed 9 t : S256x2048.Idx → Elt F .f32) (ix2 r j) = G (ix2 (rowOf t r) j)) :
    (Fr.dats m 0 c).arrAt 9 cfg0.N = G := by
  refine (Fr.dats m 0 c).arrAt_eq_of_cover 9 G (fun t hf => ?_) (cover9)
  have ht : t.val % 12 = 11 := (flush0_9 t).mp hf
  obtain ⟨e0, e1⟩ := idx9 t
  funext y
  obtain ⟨r, j, rfl⟩ : ∃ (r : Fin 256) (j : Fin 2048), y = ix2 r j :=
    ⟨⟨(y 0).val, (y 0).isLt⟩, ⟨(y 1).val, (y 1).isLt⟩, funext fun a => by
      match a with
      | ⟨0, _⟩ => rfl
      | ⟨1, _⟩ => rfl⟩
  rw [View.read_apply]
  refine (hfl t ht r j).trans ?_
  show G _ = G _
  refine congrArg G (funext fun a => Fin.ext ?_)
  match a with
  | ⟨0, _⟩ => show t.val / 12 * 256 + r.val = win0_9.index t (0 : Fin 2) * 256 + 1 * r.val; rw [e0]; omega
  | ⟨1, _⟩ => show j.val = win0_9.index t (1 : Fin 2) * 2048 + 1 * j.val; rw [e1]; omega

/-- What point `t` writes back to result 2 (the normaliser state) is what the body left in its staging buffer. -/
theorem flushed10_eq (t : Fin cfg0.N) :
    ((Fr.dats m 0 c).flushed 10 t : S256x2048.Idx → Elt F .f32) = Fr.outAt10 m c t := by
  show (cfg0.win 10).cut (grid0.coords t) ((Fr.dats m 0 c).after 10 t) = _
  rw [Fr.after0_10]
  rfl

/-- Row `R` of result 2 (the normaliser state) lies in the block written back at the last reduction step of batch tile `R / 256`. -/
theorem cover10 (i : S4096x2048.Idx) :
    ∃ t : Fin cfg0.N, (cfg0.win 10).flush t = true ∧ i ∈ ((cfg0.win 10).blk t).view.set := by
  have h0 : (i 0).val < 4096 := (i 0).isLt
  have h1 : (i 1).val < 2048 := (i 1).isLt
  have hlt : 12 * ((i 0).val / 256) + 11 < cfg0.N := by
    show 12 * ((i 0).val / 256) + 11 < grid0.N
    rw [N_0]; omega
  obtain ⟨t, htv⟩ : ∃ t : Fin cfg0.N, t.val = 12 * ((i 0).val / 256) + 11 := ⟨⟨_, hlt⟩, rfl⟩
  obtain ⟨e0, e1⟩ := idx10 t
  refine ⟨t, (flush0_10 t).mpr (by omega), ?_⟩
  show i ∈ ((View.whole main_v10_2).slice (win0_10.rect t)).set
  rw [View.set_slice_whole, Rect.mem_set_unit]
  intro a
  match a with
  | ⟨0, _⟩ =>
    show win0_10.index t (0 : Fin 2) * 256 ≤ (i 0).val ∧ (i 0).val < win0_10.index t (0 : Fin 2) * 256 + 256
    rw [e0]; omega
  | ⟨1, _⟩ =>
    show win0_10.index t (1 : Fin 2) * 2048 ≤ (i 1).val ∧ (i 1).val < win0_10.index t (1 : Fin 2) * 2048 + 2048
    rw [e1]; omega

/-- Result 2 (the normaliser state) after the run is `G`, when every write-back writes the block of `G` at its batch tile's rows. -/
theorem final10 (G : S4096x2048.Idx → Elt F .f32)
    (hfl : ∀ t : Fin cfg0.N, t.val % 12 = 11 → ∀ (r : Fin 256) (j : Fin 2048),
      ((Fr.dats m 0 c).flushed 10 t : S256x2048.Idx → Elt F .f32) (ix2 r j) = G (ix2 (rowOf t r) j)) :
    (Fr.dats m 0 c).arrAt 10 cfg0.N = G := by
  refine (Fr.dats m 0 c).arrAt_eq_of_cover 10 G (fun t hf => ?_) (cover10)
  have ht : t.val % 12 = 11 := (flush0_10 t).mp hf
  obtain ⟨e0, e1⟩ := idx10 t
  funext y
  obtain ⟨r, j, rfl⟩ : ∃ (r : Fin 256) (j : Fin 2048), y = ix2 r j :=
    ⟨⟨(y 0).val, (y 0).isLt⟩, ⟨(y 1).val, (y 1).isLt⟩, funext fun a => by
      match a with
      | ⟨0, _⟩ => rfl
      | ⟨1, _⟩ => rfl⟩
  rw [View.read_apply]
  refine (hfl t ht r j).trans ?_
  show G _ = G _
  refine congrArg G (funext fun a => Fin.ext ?_)
  match a with
  | ⟨0, _⟩ => show t.val / 12 * 256 + r.val = win0_10.index t (0 : Fin 2) * 256 + 1 * r.val; rw [e0]; omega
  | ⟨1, _⟩ => show j.val = win0_10.index t (1 : Fin 2) * 2048 + 1 * j.val; rw [e1]; omega

/-- What point `t` writes back to result 3 (the stabiliser) is what the body left in its staging buffer. -/
theorem flushed11_eq (t : Fin cfg0.N) :
    ((Fr.dats m 0 c).flushed 11 t : S256x2048.Idx → Elt F .f32) = Fr.outAt11 m c t := by
  show (cfg0.win 11).cut (grid0.coords t) ((Fr.dats m 0 c).after 11 t) = _
  rw [Fr.after0_11]
  rfl

/-- Row `R` of result 3 (the stabiliser) lies in the block written back at the last reduction step of batch tile `R / 256`. -/
theorem cover11 (i : S4096x2048.Idx) :
    ∃ t : Fin cfg0.N, (cfg0.win 11).flush t = true ∧ i ∈ ((cfg0.win 11).blk t).view.set := by
  have h0 : (i 0).val < 4096 := (i 0).isLt
  have h1 : (i 1).val < 2048 := (i 1).isLt
  have hlt : 12 * ((i 0).val / 256) + 11 < cfg0.N := by
    show 12 * ((i 0).val / 256) + 11 < grid0.N
    rw [N_0]; omega
  obtain ⟨t, htv⟩ : ∃ t : Fin cfg0.N, t.val = 12 * ((i 0).val / 256) + 11 := ⟨⟨_, hlt⟩, rfl⟩
  obtain ⟨e0, e1⟩ := idx11 t
  refine ⟨t, (flush0_11 t).mpr (by omega), ?_⟩
  show i ∈ ((View.whole main_v10_3).slice (win0_11.rect t)).set
  rw [View.set_slice_whole, Rect.mem_set_unit]
  intro a
  match a with
  | ⟨0, _⟩ =>
    show win0_11.index t (0 : Fin 2) * 256 ≤ (i 0).val ∧ (i 0).val < win0_11.index t (0 : Fin 2) * 256 + 256
    rw [e0]; omega
  | ⟨1, _⟩ =>
    show win0_11.index t (1 : Fin 2) * 2048 ≤ (i 1).val ∧ (i 1).val < win0_11.index t (1 : Fin 2) * 2048 + 2048
    rw [e1]; omega

/-- Result 3 (the stabiliser) after the run is `G`, when every write-back writes the block of `G` at its batch tile's rows. -/
theorem final11 (G : S4096x2048.Idx → Elt F .f32)
    (hfl : ∀ t : Fin cfg0.N, t.val % 12 = 11 → ∀ (r : Fin 256) (j : Fin 2048),
      ((Fr.dats m 0 c).flushed 11 t : S256x2048.Idx → Elt F .f32) (ix2 r j) = G (ix2 (rowOf t r) j)) :
    (Fr.dats m 0 c).arrAt 11 cfg0.N = G := by
  refine (Fr.dats m 0 c).arrAt_eq_of_cover 11 G (fun t hf => ?_) (cover11)
  have ht : t.val % 12 = 11 := (flush0_11 t).mp hf
  obtain ⟨e0, e1⟩ := idx11 t
  funext y
  obtain ⟨r, j, rfl⟩ : ∃ (r : Fin 256) (j : Fin 2048), y = ix2 r j :=
    ⟨⟨(y 0).val, (y 0).isLt⟩, ⟨(y 1).val, (y 1).isLt⟩, funext fun a => by
      match a with
      | ⟨0, _⟩ => rfl
      | ⟨1, _⟩ => rfl⟩
  rw [View.read_apply]
  refine (hfl t ht r j).trans ?_
  show G _ = G _
  refine congrArg G (funext fun a => Fin.ext ?_)
  match a with
  | ⟨0, _⟩ => show t.val / 12 * 256 + r.val = win0_11.index t (0 : Fin 2) * 256 + 1 * r.val; rw [e0]; omega
  | ⟨1, _⟩ => show j.val = win0_11.index t (1 : Fin 2) * 2048 + 1 * j.val; rw [e1]; omega

end Cert.KernelIdeal.BlkAt

end
-- ==== Proof.RefArrays.lean ====
/-
  The three stacked parameter arrays of the sLSTM cell, as opaque terms shared by both programs; a matrix read back
  as an array; and the cell's four results as arrays of its nineteen argument arrays.

  Both programs begin by joining, along the rows, the four input-weight matrices (each 2048 × 1024) into one
  8192 × 1024 matrix, the four bias vectors (each of length 2048) into one of length 8192, and the four
  recurrent-weight matrices (each 2048 × 2048) into one 8192 × 2048 matrix. Nothing in the equivalence of the two
  programs looks inside these joins: row block g of a join is gate g's parameter, and each program reads column
  block g of the pre-activations for gate g. So they are named here once, over literal shapes, read as matrices
  and a vector of extended reals; the evidence that the shapes do join is decided once here, and any other
  proof of that same proposition gives the same term.
-/
import proofs.«142335_j2551210574034_2_alg».proof.Proof.Spec

noncomputable section

namespace Cert.Spec

open Idealize.ShloMosaic Idealize.ShloMosaic.ValueIdx

/-- Four 2048 × 1024 shapes join along the rows into 8192 × 1024. -/
theorem joins_w : Shape.Concatenates [(⟨2, ![2048, 1024]⟩ : Shape), ⟨2, ![2048, 1024]⟩, ⟨2, ![2048, 1024]⟩, ⟨2, ![2048, 1024]⟩]
    ⟨2, ![8192, 1024]⟩ 0 := by decide
/-- Four lengths 2048 join into 8192. -/
theorem joins_b : Shape.Concatenates [(⟨1, ![2048]⟩ : Shape), ⟨1, ![2048]⟩, ⟨1, ![2048]⟩, ⟨1, ![2048]⟩] ⟨1, ![8192]⟩ 0 := by decide
/-- Four 2048 × 2048 shapes join along the rows into 8192 × 2048. -/
theorem joins_r : Shape.Concatenates [(⟨2, ![2048, 2048]⟩ : Shape), ⟨2, ![2048, 2048]⟩, ⟨2, ![2048, 2048]⟩, ⟨2, ![2048, 2048]⟩]
    ⟨2, ![8192, 2048]⟩ 0 := by decide

/-- The stacked input weights: four 2048 × 1024 matrices joined along the rows. -/
def wcat (a5 a6 a7 a8 : (⟨2, ![2048, 1024]⟩ : Shape).Idx → EReal) : Mat 8192 1024 :=
  mat (concatenate ⟨2, ![8192, 1024]⟩ 0
    [⟨⟨2, ![2048, 1024]⟩, a5⟩, ⟨⟨2, ![2048, 1024]⟩, a6⟩, ⟨⟨2, ![2048, 1024]⟩, a7⟩, ⟨⟨2, ![2048, 1024]⟩, a8⟩] joins_w)

/-- The stacked biases: four vectors of length 2048 joined end to end. -/
def bcat (a9 a10 a11 a12 : (⟨1, ![2048]⟩ : Shape).Idx → EReal) : Fin 8192 → EReal :=
  vec (concatenate ⟨1, ![8192]⟩ 0
    [⟨⟨1, ![2048]⟩, a9⟩, ⟨⟨1, ![2048]⟩, a10⟩, ⟨⟨1, ![2048]⟩, a11⟩, ⟨⟨1, ![2048]⟩, a12⟩] joins_b)

/-- The stacked recurrent weights: four 2048 × 2048 matrices joined along the rows. -/
def rcat (a13 a14 a15 a16 : (⟨2, ![2048, 2048]⟩ : Shape).Idx → EReal) : Mat 8192 2048 :=
  mat (concatenate ⟨2, ![8192, 2048]⟩ 0
    [⟨⟨2, ![2048, 2048]⟩, a13⟩, ⟨⟨2, ![2048, 2048]⟩, a14⟩, ⟨⟨2, ![2048, 2048]⟩, a15⟩, ⟨⟨2, ![2048, 2048]⟩, a16⟩] joins_r)

/-- Whatever evidence a program cites for the join, the stacked input weights read at (J, k) are its join's element. -/
theorem wcat_apply (a5 a6 a7 a8 : (⟨2, ![2048, 1024]⟩ : Shape).Idx → EReal)
    (h : Shape.Concatenates [(⟨2, ![2048, 1024]⟩ : Shape), ⟨2, ![2048, 1024]⟩, ⟨2, ![2048, 1024]⟩, ⟨2, ![2048, 1024]⟩]
      ⟨2, ![8192, 1024]⟩ 0) (J : Fin 8192) (k : Fin 1024) :
    wcat a5 a6 a7 a8 J k = concatenate ⟨2, ![8192, 1024]⟩ 0
      [⟨⟨2, ![2048, 1024]⟩, a5⟩, ⟨⟨2, ![2048, 1024]⟩, a6⟩, ⟨⟨2, ![2048, 1024]⟩, a7⟩, ⟨⟨2, ![2048, 1024]⟩, a8⟩] h (ix2 J k) := rfl

/-- The same for the stacked biases at J. -/
theorem bcat_apply (a9 a10 a11 a12 : (⟨1, ![2048]⟩ : Shape).Idx → EReal)
    (h : Shape.Concatenates [(⟨1, ![2048]⟩ : Shape), ⟨1, ![2048]⟩, ⟨1, ![2048]⟩, ⟨1, ![2048]⟩] ⟨1, ![8192]⟩ 0) (J : Fin 8192) :
    bcat a9 a10 a11 a12 J = concatenate ⟨1, ![8192]⟩ 0
      [⟨⟨1, ![2048]⟩, a9⟩, ⟨⟨1, ![2048]⟩, a10⟩, ⟨⟨1, ![2048]⟩, a11⟩, ⟨⟨1, ![2048]⟩, a12⟩] h (ix1 J) := rfl

/-- The same for the stacked recurrent weights at (J, k). -/
theorem rcat_apply (a13 a14 a15 a16 : (⟨2, ![2048, 2048]⟩ : Shape).Idx → EReal)
    (h : Shape.Concatenates [(⟨2, ![2048, 2048]⟩ : Shape), ⟨2, ![2048, 2048]⟩, ⟨2, ![2048, 2048]⟩, ⟨2, ![2048, 2048]⟩]
      ⟨2, ![8192, 2048]⟩ 0) (J : Fin 8192) (k : Fin 2048) :
    rcat a13 a14 a15 a16 J k = concatenate ⟨2, ![8192, 2048]⟩ 0
      [⟨⟨2, ![2048, 2048]⟩, a13⟩, ⟨⟨2, ![2048, 2048]⟩, a14⟩, ⟨⟨2, ![2048, 2048]⟩, a15⟩, ⟨⟨2, ![2048, 2048]⟩, a16⟩] h (ix2 J k) := rfl

/-! ## A matrix as an array -/

/-- A matrix of extended reals as a rank-2 array: the inverse reading of `mat`. Both programs' results are stated
    as such arrays of the specification's matrices. -/
def arr {a b : Nat} (M : Mat a b) : (⟨2, ![a, b]⟩ : Shape).Idx → EReal := fun i => M (i 0) (i 1)

theorem arr_ix2 {a b : Nat} (M : Mat a b) (p : Fin a) (k : Fin b) : arr M (ix2 p k) = M p k := rfl

/-- An array that reads as the matrix at every pair of coordinates is the matrix's array. -/
theorem eq_arr {a b : Nat} (f : (⟨2, ![a, b]⟩ : Shape).Idx → EReal) (M : Mat a b)
    (h : ∀ (p : Fin a) (k : Fin b), f (ix2 p k) = M p k) : f = arr M := by
  funext i
  rw [eq_ix2 i]
  exact h (i 0) (i 1)

/-! ## The four results as arrays of the nineteen argument arrays -/

/-- The new hidden state of the cell as an array of the argument arrays that reach it (the old stabilizer does not). -/
def specH (x0 : (⟨2, ![4096, 1024]⟩ : Shape).Idx → EReal) (x1 x2 x3 : (⟨2, ![4096, 2048]⟩ : Shape).Idx → EReal)
    (x5 x6 x7 x8 : (⟨2, ![2048, 1024]⟩ : Shape).Idx → EReal) (x9 x10 x11 x12 : (⟨1, ![2048]⟩ : Shape).Idx → EReal)
    (x13 x14 x15 x16 : (⟨2, ![2048, 2048]⟩ : Shape).Idx → EReal) (x17 x18 : (⟨1, ![2048]⟩ : Shape).Idx → EReal) :
    (⟨2, ![4096, 2048]⟩ : Shape).Idx → EReal :=
  arr (outH (pre (mat x0) (mat x1) (wcat x5 x6 x7 x8) (bcat x9 x10 x11 x12) (rcat x13 x14 x15 x16))
    (mat x2) (mat x3) (vec x17) (vec x18))

/-- The new cell state as an array of the argument arrays that reach it. -/
def specC (x0 : (⟨2, ![4096, 1024]⟩ : Shape).Idx → EReal) (x1 x2 : (⟨2, ![4096, 2048]⟩ : Shape).Idx → EReal)
    (x5 x6 x7 x8 : (⟨2, ![2048, 1024]⟩ : Shape).Idx → EReal) (x9 x10 x11 x12 : (⟨1, ![2048]⟩ : Shape).Idx → EReal)
    (x13 x14 x15 x16 : (⟨2, ![2048, 2048]⟩ : Shape).Idx → EReal) : (⟨2, ![4096, 2048]⟩ : Shape).Idx → EReal :=
  arr (outC (pre (mat x0) (mat x1) (wcat x5 x6 x7 x8) (bcat x9 x10 x11 x12) (rcat x13 x14 x15 x16)) (mat x2))

/-- The new normalizer as an array of the argument arrays that reach it. -/
def specN (x0 : (⟨2, ![4096, 1024]⟩ : Shape).Idx → EReal) (x1 x3 : (⟨2, ![4096, 2048]⟩ : Shape).Idx → EReal)
    (x5 x6 x7 x8 : (⟨2, ![2048, 1024]⟩ : Shape).Idx → EReal) (x9 x10 x11 x12 : (⟨1, ![2048]⟩ : Shape).Idx → EReal)
    (x13 x14 x15 x16 : (⟨2, ![2048, 2048]⟩ : Shape).Idx → EReal) : (⟨2, ![4096, 2048]⟩ : Shape).Idx → EReal :=
  arr (outN (pre (mat x0) (mat x1) (wcat x5 x6 x7 x8) (bcat x9 x10 x11 x12) (rcat x13 x14 x15 x16)) (mat x3))

/-- The new stabilizer as an array of the argument arrays that reach it. -/
def specM (x0 : (⟨2, ![4096, 1024]⟩ : Shape).Idx → EReal) (x1 x4 : (⟨2, ![4096, 2048]⟩ : Shape).Idx → EReal)
    (x5 x6 x7 x8 : (⟨2, ![2048, 1024]⟩ : Shape).Idx → EReal) (x9 x10 x11 x12 : (⟨1, ![2048]⟩ : Shape).Idx → EReal)
    (x13 x14 x15 x16 : (⟨2, ![2048, 2048]⟩ : Shape).Idx → EReal) : (⟨2, ![4096, 2048]⟩ : Shape).Idx → EReal :=
  arr (outM (pre (mat x0) (mat x1) (wcat x5 x6 x7 x8) (bcat x9 x10 x11 x12) (rcat x13 x14 x15 x16)) (mat x4))

end Cert.Spec

end
-- ==== Proof.KHostRead.lean ====
/-
  The arrays the kernel's region finds, read at one element.

  Before the region the program joins the input x (4096 × 1024) and the previous hidden state (4096 × 2048) along
  the columns into one 4096 × 3072 array, joins the stacked input weights (8192 × 1024) and the stacked recurrent
  weights (8192 × 2048) along the columns into one 8192 × 3072 array, narrows both to bf16 (the identity on the
  extended reals), and gives the stacked bias and the two normalisation vectors a leading unit axis. So column K of
  the joined activations is column K of x for K < 1024 and column K - 1024 of the hidden state from 1024 on, the
  joined weights likewise, and the three row vectors read their vectors at the column. The three stacked parameter
  arrays themselves stay the opaque joins of the four gates' parameters.
-/
import proofs.«142335_j2551210574034_2_alg».proof.Proof.FrBaseKI
import proofs.«142335_j2551210574034_2_alg».proof.Proof.RefArrays
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.HostAt

open Cert.KernelIdeal Cert.KernelIdeal.Gen Idealize.ShloMosaic Idealize.ShloMosaic.TcCoe Idealize.ShloMosaic.ValueIdx
open Idealize.ShloMosaic.StableHlo Cert.Spec

variable (m : (ℓ : Loc nD τ sig) → Buf (Elt Ideal) ℓ) (c : Dev nD)

/-! ## The launch contents of the arguments, by name -/

/-- The input x. -/
abbrev aX : S4096x1024.Idx → EReal := m ((c : Thread nD τ).loc main_arg0)
/-- The previous hidden state. -/
abbrev aH : S4096x2048.Idx → EReal := m ((c : Thread nD τ).loc main_arg1)
/-- The stacked input weights, as the opaque join of the four gates' matrices. -/
abbrev aW : Mat 8192 1024 :=
  wcat (m ((c : Thread nD τ).loc main_arg5)) (m ((c : Thread nD τ).loc main_arg6)) (m ((c : Thread nD τ).loc main_arg7))
    (m ((c : Thread nD τ).loc main_arg8))
/-- The stacked biases. -/
abbrev aB : Fin 8192 → EReal :=
  bcat (m ((c : Thread nD τ).loc main_arg9)) (m ((c : Thread nD τ).loc main_arg10)) (m ((c : Thread nD τ).loc main_arg11))
    (m ((c : Thread nD τ).loc main_arg12))
/-- The stacked recurrent weights. -/
abbrev aR : Mat 8192 2048 :=
  rcat (m ((c : Thread nD τ).loc main_arg13)) (m ((c : Thread nD τ).loc main_arg14)) (m ((c : Thread nD τ).loc main_arg15))
    (m ((c : Thread nD τ).loc main_arg16))
/-- The normalisation's scale vector. -/
abbrev aGw : S2048.Idx → EReal := m ((c : Thread nD τ).loc main_arg17)
/-- The normalisation's shift vector. -/
abbrev aGb : S2048.Idx → EReal := m ((c : Thread nD τ).loc main_arg18)

/-! ## Each array as the host lines' term -/

/-- The joined activations: x and the previous hidden state side by side, narrowed. -/
theorem V_v4 : (Fr.V m c main_v4 : S4096x3072.Idx → EReal)
    = truncf (F := Ideal) .bf16 (concatenate S4096x3072 1 [⟨S4096x1024, aX m c⟩, ⟨S4096x2048, aH m c⟩]
        concatenates_S4096x1024_S4096x2048_S4096x3072_d1) bitsLt_bf16_f32 := by
  dsimp only [Fr.V]
  simp only [Gen.hostOps0, List.flatten_cons, List.flatten_nil, List.append_nil]
  after_results

/-- The joined weights: the stacked input weights and the stacked recurrent weights side by side, narrowed. -/
theorem V_v6 : (Fr.V m c main_v6 : S8192x3072.Idx → EReal)
    = truncf (F := Ideal) .bf16 (concatenate S8192x3072 1
        [⟨S8192x1024, concatenate S8192x1024 0 [⟨S2048x1024, m ((c : Thread nD τ).loc main_arg5)⟩, ⟨S2048x1024, m ((c : Thread nD τ).loc main_arg6)⟩, ⟨S2048x1024, m ((c : Thread nD τ).loc main_arg7)⟩, ⟨S2048x1024, m ((c : Thread nD τ).loc main_arg8)⟩] concatenates_S2048x1024_S2048x1024_S2048x1024_S2048x1024_S8192x1024_d0⟩,
         ⟨S8192x2048, concatenate S8192x2048 0 [⟨S2048x2048, m ((c : Thread nD τ).loc main_arg13)⟩, ⟨S2048x2048, m ((c : Thread nD τ).loc main_arg14)⟩, ⟨S2048x2048, m ((c : Thread nD τ).loc main_arg15)⟩, ⟨S2048x2048, m ((c : Thread nD τ).loc main_arg16)⟩] concatenates_S2048x2048_S2048x2048_S2048x2048_S2048x2048_S8192x2048_d0⟩]
        concatenates_S8192x1024_S8192x2048_S8192x3072_d1) bitsLt_bf16_f32 := by
  dsimp only [Fr.V]
  simp only [Gen.hostOps0, List.flatten_cons, List.flatten_nil, List.append_nil]
  after_results
  rfl

/-- The bias row: the stacked biases with a leading unit axis. -/
theorem V_v7 : (Fr.V m c main_v7 : S1x8192.Idx → EReal)
    = shapeCast S1x8192 (concatenate S8192 0 [⟨S2048, m ((c : Thread nD τ).loc main_arg9)⟩, ⟨S2048, m ((c : Thread nD τ).loc main_arg10)⟩, ⟨S2048, m ((c : Thread nD τ).loc main_arg11)⟩, ⟨S2048, m ((c : Thread nD τ).loc main_arg12)⟩] concatenates_S2048_S2048_S2048_S2048_S8192_d0)
        shapeCasts_S8192_S1x8192 := by
  dsimp only [Fr.V]
  simp only [Gen.hostOps0, List.flatten_cons, List.flatten_nil, List.append_nil]
  after_results
  rfl

/-- The scale row: the scale vector with a leading unit axis. -/
theorem V_v8 : (Fr.V m c main_v8 : S1x2048.Idx → EReal) = shapeCast S1x2048 (aGw m c) shapeCasts_S2048_S1x2048 := by
  dsimp only [Fr.V]
  simp only [Gen.hostOps0, List.flatten_cons, List.flatten_nil, List.append_nil]
  after_results
  rfl

/-- The shift row: the shift vector with a leading unit axis. -/
theorem V_v9 : (Fr.V m c main_v9 : S1x2048.Idx → EReal) = shapeCast S1x2048 (aGb m c) shapeCasts_S2048_S1x2048 := by
  dsimp only [Fr.V]
  simp only [Gen.hostOps0, List.flatten_cons, List.flatten_nil, List.append_nil]
  after_results
  rfl

/-! ## Read at an element -/

/-- Column `k < 1024` of the joined activations is column `k` of x. -/
theorem v4_lo (p : Fin 4096) (k : Fin 1024) :
    (Fr.V m c main_v4 : S4096x3072.Idx → EReal) (ix2 p (⟨k.val, by have := k.isLt; omega⟩ : Fin 3072)) = aX m c (ix2 p k) := by
  rw [V_v4, truncf_apply]
  exact concatenate_pair_apply_left (t := S4096x3072) (s₁ := S4096x1024) (s₂ := S4096x2048) 1 (aX m c) (aH m c)
    concatenates_S4096x1024_S4096x2048_S4096x3072_d1 (ix2 p (⟨k.val, by have := k.isLt; omega⟩ : Fin 3072)) rfl (ix2 p k) (fun b => by
    match b with
    | ⟨0, _⟩ => rfl
    | ⟨1, _⟩ => rfl)

/-- Column `1024 + k` of the joined activations is column `k` of the previous hidden state. -/
theorem v4_hi (p : Fin 4096) (k : Fin 2048) :
    (Fr.V m c main_v4 : S4096x3072.Idx → EReal) (ix2 p (⟨1024 + k.val, by have := k.isLt; omega⟩ : Fin 3072)) = aH m c (ix2 p k) := by
  rw [V_v4, truncf_apply]
  exact concatenate_pair_apply_right (t := S4096x3072) (s₁ := S4096x1024) (s₂ := S4096x2048) 1 (aX m c) (aH m c)
    concatenates_S4096x1024_S4096x2048_S4096x3072_d1 (ix2 p (⟨1024 + k.val, by have := k.isLt; omega⟩ : Fin 3072)) rfl rfl (ix2 p k)
    (fun b hb => by
      match b with
      | ⟨0, _⟩ => rfl
      | ⟨1, _⟩ => exact absurd rfl hb)
    (by show k.val + 1024 = 1024 + k.val; omega)

/-- Column `k < 1024` of row `J` of the joined weights is the stacked input weights at (J, k). -/
theorem v6_lo (J : Fin 8192) (k : Fin 1024) :
    (Fr.V m c main_v6 : S8192x3072.Idx → EReal) (ix2 J (⟨k.val, by have := k.isLt; omega⟩ : Fin 3072)) = aW m c J k := by
  rw [V_v6, truncf_apply]
  refine (concatenate_pair_apply_left (t := S8192x3072) (s₁ := S8192x1024) (s₂ := S8192x2048) 1 _ _
    concatenates_S8192x1024_S8192x2048_S8192x3072_d1 (ix2 J (⟨k.val, by have := k.isLt; omega⟩ : Fin 3072)) rfl (ix2 J k) (fun b => by
    match b with
    | ⟨0, _⟩ => rfl
    | ⟨1, _⟩ => rfl)).trans ?_
  rfl

/-- Column `1024 + k` of row `J` of the joined weights is the stacked recurrent weights at (J, k). -/
theorem v6_hi (J : Fin 8192) (k : Fin 2048) :
    (Fr.V m c main_v6 : S8192x3072.Idx → EReal) (ix2 J (⟨1024 + k.val, by have := k.isLt; omega⟩ : Fin 3072)) = aR m c J k := by
  rw [V_v6, truncf_apply]
  refine (concatenate_pair_apply_right (t := S8192x3072) (s₁ := S8192x1024) (s₂ := S8192x2048) 1 _ _
    concatenates_S8192x1024_S8192x2048_S8192x3072_d1 (ix2 J (⟨1024 + k.val, by have := k.isLt; omega⟩ : Fin 3072)) rfl rfl (ix2 J k)
    (fun b hb => by
      match b with
      | ⟨0, _⟩ => rfl
      | ⟨1, _⟩ => exact absurd rfl hb)
    (by show k.val + 1024 = 1024 + k.val; omega)).trans ?_
  rfl

/-- The bias row at column `J` is the stacked biases at `J`. -/
theorem v7_at (J : Fin 8192) : (Fr.V m c main_v7 : S1x8192.Idx → EReal) (ix2 (0 : Fin 1) J) = aB m c J := by
  rw [V_v7]
  refine (shapeCast_a_1a_apply _ _ (0 : Fin 1) J).trans ?_
  rfl

/-- The scale row at column `j` is the scale vector at `j`. -/
theorem v8_at (j : Fin 2048) : (Fr.V m c main_v8 : S1x2048.Idx → EReal) (ix2 (0 : Fin 1) j) = aGw m c (ix1 j) := by
  rw [V_v8]
  exact shapeCast_a_1a_apply _ _ (0 : Fin 1) j

/-- The shift row at column `j` is the shift vector at `j`. -/
theorem v9_at (j : Fin 2048) : (Fr.V m c main_v9 : S1x2048.Idx → EReal) (ix2 (0 : Fin 1) j) = aGb m c (ix1 j) := by
  rw [V_v9]
  exact shapeCast_a_1a_apply _ _ (0 : Fin 1) j

end Cert.KernelIdeal.HostAt

end
-- ==== Proof.LibColumnLayout.lean ====
/-
  A vector kept as a one-column matrix, and that column repeated along the rows' other axis.

  The library reads a leading unit axis added to a vector ([a] as [1, a]) and one row broadcast down many
  ([1, b] to [a, b]). A reduction along the last axis that keeps its dimension produces the other arrangement:
  the [a] results become the single column of an [a, 1] matrix, and that column is then repeated b times to [a, b].
  Both read the vector at the row's coordinate.
-/
import Idealize.ShloMosaic.Lib.Pipeline.Value
import Idealize.ShloMosaic.Lib.ValueIdx
import Idealize.ShloMosaic.Lib.ValueLayout

namespace Idealize.ShloMosaic.ColumnLayout

open Idealize.ShloMosaic Idealize.ShloMosaic.ValueIdx

variable {α : Type}

/-- An `[a]` vector cast to the one column of an `[a, 1]` matrix reads, at `(i, u)`, the vector at `i`,
    whatever the unit coordinate `u`: the row-major position of `(i, u)` in `[a, 1]` is `i * 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` matrix broadcast to `[a, b]` reads, at `(p, c)`, its one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector kept as a column and repeated along the rows reads the vector at the row. -/
theorem column_broadcast_apply {a b : ℕ} (x : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (p : Fin a) (c : Fin b) :
    broadcastTo ⟨2, ![a, b]⟩ (shapeCast ⟨2, ![a, 1]⟩ x h₁) h₂ (ix2 p c) = x (ix1 p) :=
  (broadcastTo_a1_ab_apply _ h₂ p c).trans (shapeCast_a_a1_apply x h₁ p 0)

/-- The row counterpart from the library's two lemmas: a vector given a leading unit axis and broadcast down the rows
    reads the vector at the column. -/
theorem row_broadcast_apply {a b : ℕ} (x : (⟨1, ![b]⟩ : Shape).Idx → α) (h₁ : (⟨1, ![b]⟩ : Shape).ShapeCasts ⟨2, ![1, b]⟩)
    (h₂ : (⟨2, ![1, b]⟩ : Shape).Broadcasts ⟨2, ![a, b]⟩) (p : Fin a) (c : Fin b) :
    broadcastTo ⟨2, ![a, b]⟩ (shapeCast ⟨2, ![1, b]⟩ x h₁) h₂ (ix2 p c) = x (ix1 c) :=
  (broadcastTo_1b_ab_apply _ h₂ p c).trans (shapeCast_a_1a_apply x h₁ 0 c)

end Idealize.ShloMosaic.ColumnLayout
-- ==== Proof.PayGates.lean ====
/-
  The cell's stored values, read at one element.

  After the last reduction step the kernel reads its [256, 8192] accumulator as four [256, 2048] column blocks, adds
  the matching quarter of the bias row to each, and applies the gate functions: with i, f, o the logistic function of
  the first, second and fourth sums and z the hyperbolic tangent of the third, it stores max(f * m, i), f * c + i * z
  and f * n + i, and o times the hyperbolic tangent of the row-normalised quotient of the last two, scaled and shifted.
  Every operation acts element by element except the two row sums of the normalisation, which are sums over the 2048
  columns of a row, kept as a one-column matrix and repeated along the row.
-/
import proofs.«142335_j2551210574034_2_alg».proof.Proof.Gen.KernelIdeal.Skeleton
import proofs.«142335_j2551210574034_2_alg».proof.Proof.LibColumnLayout
import proofs.«142335_j2551210574034_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayAt

open Cert.KernelIdeal Cert.KernelIdeal.Gen Idealize.ShloMosaic Idealize.ShloMosaic.ValueIdx

/-! ## The operations that are not covered by the library's element lemmas -/

theorem logistic_at {s : Shape} (x : FVec Ideal s .f32) (i : s.Idx) : logistic x i = Ideal.logistic (x i) := rfl
theorem tanh_at {s : Shape} (x : FVec Ideal s .f32) (i : s.Idx) : tanh x i = Ideal.tanh (x i) := rfl
theorem rsqrt_at {s : Shape} (x : FVec Ideal s .f32) (i : s.Idx) : rsqrt x i = Ideal.rsqrt (x i) := rfl

/-- One row of 2048 entries repeated down the 256 rows reads the row at the column. -/
theorem row_at (v : FVec Ideal S1x2048 .f32) (h₁ : S1x2048.ShapeCasts S1x2048) (h₂ : S1x2048.Broadcasts S256x2048)
    (r : Fin 256) (j : Fin 2048) :
    broadcastTo S256x2048 (shapeCast S1x2048 v h₁) h₂ (ix2 r j) = v (ix2 (0 : Fin 1) j) := by
  rw [shapeCast_self]
  exact broadcastTo_1b_ab_apply v h₂ r j

/-- A sum along the rows of a [256, 2048] matrix, at row `r`: the sum over the 2048 columns. -/
theorem rowsum_at (src : FVec Ideal S256x2048 .f32) (h : S256x2048.Reduces [1] S256) (hφ : FKind.Formats .f32)
    (hacc : (0x00000000#32 : BitVec 32) = 0x00000000#32) (r : Fin 256) :
    multiReduction .add [1] S256 src 0x00000000#32 h hφ hacc (ix1 r) = ∑ k : Fin 2048, src (ix2 r k) := by
  refine (Ideal.multiReduction_add_single src 0x00000000#32 h hφ hacc (ix1 r)).trans ?_
  refine Finset.sum_congr rfl fun k _ => congrArg src ?_
  funext a
  match a with
  | ⟨0, _⟩ => rfl
  | ⟨1, _⟩ => rfl

/-- The 256 row values kept as a one-column matrix, divided by a constant and repeated along the rows. -/
theorem col_div_at (s : FVec Ideal S256 .f32) (c : Ideal .f32) (h₁ : S256.ShapeCasts S256x1) (h₂ : S256x1.Broadcasts S256x2048)
    (r : Fin 256) (j : Fin 2048) :
    broadcastTo S256x2048 (divf (shapeCast S256x1 s h₁) (broadcast S256x1 c)) h₂ (ix2 r j) = Ideal.div (s (ix1 r)) c := by
  rw [ColumnLayout.broadcastTo_a1_ab_apply, divf_apply, broadcast_apply, ColumnLayout.shapeCast_a_a1_apply]

/-! ## The gates -/

/-- The input gate: the logistic function of the first accumulator block plus its bias. -/
theorem pay4_at (v16 : Vec Ideal S256x2048 .f32) (v17 : Vec Ideal S1x2048 .f32) (r : Fin 256) (j : Fin 2048) :
    Gen.k0_pay4 v16 v17 (ix2 r j) = Ideal.logistic (v16 (ix2 r j) + v17 (ix2 (0 : Fin 1) j)) := by
  unfold Gen.k0_pay4
  rw [logistic_at, addf_apply, row_at]

/-- The forget gate. -/
theorem pay5_at (v21 : Vec Ideal S256x2048 .f32) (v22 : Vec Ideal S1x2048 .f32) (r : Fin 256) (j : Fin 2048) :
    Gen.k0_pay5 v21 v22 (ix2 r j) = Ideal.logistic (v21 (ix2 r j) + v22 (ix2 (0 : Fin 1) j)) := by
  unfold Gen.k0_pay5
  rw [logistic_at, addf_apply, row_at]

/-- The output gate. -/
theorem pay6_at (v31 : Vec Ideal S256x2048 .f32) (v32 : Vec Ideal S1x2048 .f32) (r : Fin 256) (j : Fin 2048) :
    Gen.k0_pay6 v31 v32 (ix2 r j) = Ideal.logistic (v31 (ix2 r j) + v32 (ix2 (0 : Fin 1) j)) := by
  unfold Gen.k0_pay6
  rw [logistic_at, addf_apply, row_at]

/-- The stabiliser: max(f * m, i). -/
theorem pay7_at (v16 : Vec Ideal S256x2048 .f32) (v17 : Vec Ideal S1x2048 .f32) (v21 : Vec Ideal S256x2048 .f32)
    (v22 : Vec Ideal S1x2048 .f32) (v40 : Vec Ideal S256x2048 .f32) (r : Fin 256) (j : Fin 2048) :
    Gen.k0_pay7 v16 v17 v21 v22 v40 (ix2 r j)
      = max (Ideal.logistic (v21 (ix2 r j) + v22 (ix2 (0 : Fin 1) j)) * v40 (ix2 r j))
          (Ideal.logistic (v16 (ix2 r j) + v17 (ix2 (0 : Fin 1) j))) := by
  unfold Gen.k0_pay7
  rw [maximumf_apply, mulf_apply, pay5_at, pay4_at]

/-- The cell state: f * c + i * z. -/
theorem pay8_at (v16 : Vec Ideal S256x2048 .f32) (v17 : Vec Ideal S1x2048 .f32) (v21 : Vec Ideal S256x2048 .f32)
    (v22 : Vec Ideal S1x2048 .f32) (v26 : Vec Ideal S256x2048 .f32) (v27 : Vec Ideal S1x2048 .f32)
    (v43 : Vec Ideal S256x2048 .f32) (r : Fin 256) (j : Fin 2048) :
    Gen.k0_pay8 v16 v17 v21 v22 v26 v27 v43 (ix2 r j)
      = Ideal.logistic (v21 (ix2 r j) + v22 (ix2 (0 : Fin 1) j)) * v43 (ix2 r j)
        + Ideal.logistic (v16 (ix2 r j) + v17 (ix2 (0 : Fin 1) j)) * Ideal.tanh (v26 (ix2 r j) + v27 (ix2 (0 : Fin 1) j)) := by
  unfold Gen.k0_pay8
  rw [addf_apply, mulf_apply, mulf_apply, pay5_at, pay4_at, tanh_at, addf_apply, row_at]

/-- The normaliser state: f * n + i. -/
theorem pay9_at (v16 : Vec Ideal S256x2048 .f32) (v17 : Vec Ideal S1x2048 .f32) (v21 : Vec Ideal S256x2048 .f32)
    (v22 : Vec Ideal S1x2048 .f32) (v47 : Vec Ideal S256x2048 .f32) (r : Fin 256) (j : Fin 2048) :
    Gen.k0_pay9 v16 v17 v21 v22 v47 (ix2 r j)
      = Ideal.logistic (v21 (ix2 r j) + v22 (ix2 (0 : Fin 1) j)) * v47 (ix2 r j)
        + Ideal.logistic (v16 (ix2 r j) + v17 (ix2 (0 : Fin 1) j)) := by
  unfold Gen.k0_pay9
  rw [addf_apply, mulf_apply, pay5_at, pay4_at]

/-! ## The normalised output -/

/-- The row normalisation of a row `cs` of 2048 values, scaled by `gw` and shifted by `gb`, at column `j`: the mean
    and the variance are row sums divided by 2048, and the centred value is multiplied by the reciprocal square root
    of the variance plus a small constant. -/
def rowNorm (cs gw gb : Fin 2048 → EReal) (j : Fin 2048) : EReal :=
  (cs j - Ideal.div (∑ k : Fin 2048, cs k) (Ideal.ofBits .f32 0x45000000#32))
      * Ideal.rsqrt (Ideal.div (∑ k : Fin 2048,
            (cs k - Ideal.div (∑ k : Fin 2048, cs k) (Ideal.ofBits .f32 0x45000000#32))
              * (cs k - Ideal.div (∑ k : Fin 2048, cs k) (Ideal.ofBits .f32 0x45000000#32)))
          (Ideal.ofBits .f32 0x45000000#32) + Ideal.ofBits .f32 0x3727C5AC#32)
    * gw j + gb j

/-- The hidden state: the output gate times the hyperbolic tangent of the normalised quotient c / n. -/
theorem pay3_at (v39 v46 v49 : FVec Ideal S256x2048 .f32) (v72 v76 : Vec Ideal S1x2048 .f32) (r : Fin 256) (j : Fin 2048) :
    Gen.k0_pay3 v39 v46 v49 v72 v76 (ix2 r j)
      = v39 (ix2 r j) * Ideal.tanh (rowNorm (fun k => Ideal.div (v46 (ix2 r k)) (v49 (ix2 r k)))
          (fun k => v72 (ix2 (0 : Fin 1) k)) (fun k => v76 (ix2 (0 : Fin 1) k)) j) := by
  unfold Gen.k0_pay3 rowNorm
  simp only [mulf_apply, tanh_at, addf_apply, row_at, subf_apply, col_div_at, divf_apply,
    ColumnLayout.broadcastTo_a1_ab_apply, rsqrt_at, broadcast_apply, ColumnLayout.shapeCast_a_a1_apply]
  rw [rowsum_at, rowsum_at]
  simp only [mulf_apply, subf_apply, col_div_at, divf_apply]
  rw [rowsum_at]
  simp only [divf_apply]
  rfl

/-! ## Against the specification

  Row `r` of the block is row `p` of the whole arrays. Under the hypotheses that each accumulator block plus its bias
  is the pre-activation matrix `P` at row `p` and the block's column, and that the loaded blocks are the old state
  and the two row vectors at row `p`, the four stored values are the specification's at row `p`. -/

section Spec

open Cert.Spec

/-- The stored stabiliser is the specification's. -/
theorem outM_at (P : Mat 4096 8192) (mp : Mat 4096 2048) (p : Fin 4096) (r : Fin 256)
    (v16 : Vec Ideal S256x2048 .f32) (v17 : Vec Ideal S1x2048 .f32) (v21 : Vec Ideal S256x2048 .f32)
    (v22 : Vec Ideal S1x2048 .f32) (v40 : Vec Ideal S256x2048 .f32)
    (hI : ∀ j : Fin 2048, v16 (ix2 r j) + v17 (ix2 (0 : Fin 1) j) = P p (col 0 j))
    (hF : ∀ j : Fin 2048, v21 (ix2 r j) + v22 (ix2 (0 : Fin 1) j) = P p (col 1 j))
    (hm : ∀ j : Fin 2048, v40 (ix2 r j) = mp p j) (j : Fin 2048) :
    Gen.k0_pay7 v16 v17 v21 v22 v40 (ix2 r j) = outM P mp p j := by
  rw [pay7_at, hI j, hF j, hm j]
  rfl

/-- The stored cell state is the specification's. -/
theorem outC_at (P : Mat 4096 8192) (cp : Mat 4096 2048) (p : Fin 4096) (r : Fin 256)
    (v16 : Vec Ideal S256x2048 .f32) (v17 : Vec Ideal S1x2048 .f32) (v21 : Vec Ideal S256x2048 .f32)
    (v22 : Vec Ideal S1x2048 .f32) (v26 : Vec Ideal S256x2048 .f32) (v27 : Vec Ideal S1x2048 .f32)
    (v43 : Vec Ideal S256x2048 .f32)
    (hI : ∀ j : Fin 2048, v16 (ix2 r j) + v17 (ix2 (0 : Fin 1) j) = P p (col 0 j))
    (hF : ∀ j : Fin 2048, v21 (ix2 r j) + v22 (ix2 (0 : Fin 1) j) = P p (col 1 j))
    (hZ : ∀ j : Fin 2048, v26 (ix2 r j) + v27 (ix2 (0 : Fin 1) j) = P p (col 2 j))
    (hc : ∀ j : Fin 2048, v43 (ix2 r j) = cp p j) (j : Fin 2048) :
    Gen.k0_pay8 v16 v17 v21 v22 v26 v27 v43 (ix2 r j) = outC P cp p j := by
  rw [pay8_at, hI j, hF j, hZ j, hc j]
  rfl

/-- The stored normaliser state is the specification's. -/
theorem outN_at (P : Mat 4096 8192) (np : Mat 4096 2048) (p : Fin 4096) (r : Fin 256)
    (v16 : Vec Ideal S256x2048 .f32) (v17 : Vec Ideal S1x2048 .f32) (v21 : Vec Ideal S256x2048 .f32)
    (v22 : Vec Ideal S1x2048 .f32) (v47 : Vec Ideal S256x2048 .f32)
    (hI : ∀ j : Fin 2048, v16 (ix2 r j) + v17 (ix2 (0 : Fin 1) j) = P p (col 0 j))
    (hF : ∀ j : Fin 2048, v21 (ix2 r j) + v22 (ix2 (0 : Fin 1) j) = P p (col 1 j))
    (hn : ∀ j : Fin 2048, v47 (ix2 r j) = np p j) (j : Fin 2048) :
    Gen.k0_pay9 v16 v17 v21 v22 v47 (ix2 r j) = outN P np p j := by
  rw [pay9_at, hI j, hF j, hn j]
  rfl

/-- The stored hidden state is the specification's. -/
theorem outH_at (P : Mat 4096 8192) (cp np : Mat 4096 2048) (gw gb : Fin 2048 → EReal) (p : Fin 4096) (r : Fin 256)
    (v16 : Vec Ideal S256x2048 .f32) (v17 : Vec Ideal S1x2048 .f32) (v21 : Vec Ideal S256x2048 .f32)
    (v22 : Vec Ideal S1x2048 .f32) (v26 : Vec Ideal S256x2048 .f32) (v27 : Vec Ideal S1x2048 .f32)
    (v31 : Vec Ideal S256x2048 .f32) (v32 : Vec Ideal S1x2048 .f32) (v43 v47 : Vec Ideal S256x2048 .f32)
    (v72 v76 : Vec Ideal S1x2048 .f32)
    (hI : ∀ j : Fin 2048, v16 (ix2 r j) + v17 (ix2 (0 : Fin 1) j) = P p (col 0 j))
    (hF : ∀ j : Fin 2048, v21 (ix2 r j) + v22 (ix2 (0 : Fin 1) j) = P p (col 1 j))
    (hZ : ∀ j : Fin 2048, v26 (ix2 r j) + v27 (ix2 (0 : Fin 1) j) = P p (col 2 j))
    (hO : ∀ j : Fin 2048, v31 (ix2 r j) + v32 (ix2 (0 : Fin 1) j) = P p (col 3 j))
    (hc : ∀ j : Fin 2048, v43 (ix2 r j) = cp p j) (hn : ∀ j : Fin 2048, v47 (ix2 r j) = np p j)
    (hgw : ∀ j : Fin 2048, v72 (ix2 (0 : Fin 1) j) = gw j) (hgb : ∀ j : Fin 2048, v76 (ix2 (0 : Fin 1) j) = gb j)
    (j : Fin 2048) :
    Gen.k0_pay3 (Gen.k0_pay6 v31 v32) (Gen.k0_pay8 v16 v17 v21 v22 v26 v27 v43) (Gen.k0_pay9 v16 v17 v21 v22 v47) v72 v76
        (ix2 r j) = outH P cp np gw gb p j := by
  have hratio : (fun k : Fin 2048 => Ideal.div (Gen.k0_pay8 v16 v17 v21 v22 v26 v27 v43 (ix2 r k))
      (Gen.k0_pay9 v16 v17 v21 v22 v47 (ix2 r k))) = fun k => ratio P cp np p k :=
    funext fun k => by
      rw [outC_at P cp p r v16 v17 v21 v22 v26 v27 v43 hI hF hZ hc k, outN_at P np p r v16 v17 v21 v22 v47 hI hF hn k]
      rfl
  have hw : (fun k : Fin 2048 => v72 (ix2 (0 : Fin 1) k)) = gw := funext hgw
  have hb : (fun k : Fin 2048 => v76 (ix2 (0 : Fin 1) k)) = gb := funext hgb
  rw [pay3_at, pay6_at, hO j, hratio, hw, hb]
  rfl

end Spec

end Cert.KernelIdeal.PayAt

end
-- ==== Proof.PayAcc.lean ====
/-
  The accumulator's two stored values, read at one element.

  At every grid point the kernel stores into its [256, 8192] accumulator the old contents plus the product of a
  [256, 256] block of the joined activations with a [8192, 256] block of the joined weights, contracted over the
  256 columns of both: element (r, J) of the stored value is the old element plus the sum over kk of
  lhs(r, kk) * rhs(J, kk). At the first reduction step it first stores zeros.
-/
import proofs.«142335_j2551210574034_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.PayAt

open Cert.KernelIdeal Cert.KernelIdeal.Gen Idealize.ShloMosaic Idealize.ShloMosaic.ValueIdx

/-- The matmul's dimension numbers: both operands are contracted over their second axis. -/
abbrev mmDims : DotDims S256x256 S8192x256 S256x8192 := dot_S256x256_S8192x256_S256x8192_1_1_0_0_n_n

/-- The left operand's row is the output's row. -/
theorem mm_lhs_0 (i : S256x8192.Idx) (q : mmDims.contr.Idx) : (mmDims.lhsIdx i q 0).val = (i 0).val := by
  unfold DotDims.lhsIdx
  rw [dif_neg (show ¬(0 : Fin S256x256.rank) ∈ mmDims.lhsBatch by decide),
    dif_pos (show (0 : Fin S256x256.rank) ∈ mmDims.lhsNonContracting by decide)]
  rfl

/-- The left operand's column is the contraction index. -/
theorem mm_lhs_1 (i : S256x8192.Idx) (q : mmDims.contr.Idx) : (mmDims.lhsIdx i q 1).val = (q ⟨0, by decide⟩).val :=
  mmDims.lhsIdx_val_of_single rfl i q

/-- The right operand's row is the output's column. -/
theorem mm_rhs_0 (i : S256x8192.Idx) (q : mmDims.contr.Idx) : (mmDims.rhsIdx i q 0).val = (i 1).val := by
  unfold DotDims.rhsIdx
  rw [dif_neg (show ¬(0 : Fin S8192x256.rank) ∈ mmDims.rhsBatch by decide),
    dif_pos (show (0 : Fin S8192x256.rank) ∈ mmDims.rhsNonContracting by decide)]
  rfl

/-- The right operand's column is the contraction index. -/
theorem mm_rhs_1 (i : S256x8192.Idx) (q : mmDims.contr.Idx) : (mmDims.rhsIdx i q 1).val = (q ⟨0, by decide⟩).val :=
  mmDims.rhsIdx_val_of_single rfl i q

/-- The block product into a zero accumulator, at element (r, J): the sum over the 256 contracted columns. -/
theorem matmul_at (a : FVec Ideal S256x256 .bf16) (b : FVec Ideal S8192x256 .bf16) (r : Fin 256) (J : Fin 8192) :
    matmul (F := Ideal) mmDims none a b (constant (F := Ideal) S256x8192 .f32 0x00000000#32) (ix2 r J)
      = ∑ kk : Fin 256, a (ix2 r kk) * b (ix2 J kk) := by
  simp only [matmul]
  rw [Ideal.matmul_constant_zero_apply, ← Equiv.sum_comp (contrEquiv1 mmDims 256 rfl rfl).symm]
  refine Finset.sum_congr rfl fun kk _ => ?_
  have hk := contrEquiv1_symm_val mmDims 256 rfl rfl kk
  have el : mmDims.lhsIdx (ix2 r J) ((contrEquiv1 mmDims 256 rfl rfl).symm kk) = ix2 r kk := funext fun ax => Fin.ext (by
    match ax with
    | ⟨0, _⟩ => exact mm_lhs_0 _ _
    | ⟨1, _⟩ => exact (mm_lhs_1 _ _).trans hk)
  have er : mmDims.rhsIdx (ix2 r J) ((contrEquiv1 mmDims 256 rfl rfl).symm kk) = ix2 J kk := funext fun ax => Fin.ext (by
    match ax with
    | ⟨0, _⟩ => exact mm_rhs_0 _ _
    | ⟨1, _⟩ => exact (mm_rhs_1 _ _).trans hk)
  rw [el, er]

/-- The value stored at every grid point, at element (r, J): the accumulator's old element plus the block product. -/
theorem pay2_at (v3 : Vec Ideal S256x256 .bf16) (v5 : Vec Ideal S8192x256 .bf16) (v8 : Vec Ideal S256x8192 .f32)
    (r : Fin 256) (J : Fin 8192) :
    Gen.k0_pay2 v3 v5 v8 (ix2 r J) = v8 (ix2 r J) + ∑ kk : Fin 256, v3 (ix2 r kk) * v5 (ix2 J kk) := by
  unfold Gen.k0_pay2
  simp only [shapeCast_self]
  rw [addf_apply]
  exact congrArg (v8 (ix2 r J) + ·) (matmul_at v3 v5 r J)

/-- The value stored at the first reduction step, at every element: zero. -/
theorem pay1_at (r : Fin 256) (J : Fin 8192) : Gen.k0_pay1 (F := Ideal) (ix2 r J) = 0 := by
  unfold Gen.k0_pay1
  simp only [shapeCast_self]
  show Ideal.ofBits .f32 0x00000000#32 = 0
  exact Ideal.ofBits_zero_f32

end Cert.KernelIdeal.PayAt

end
-- ==== Proof.LibChunkSum.lean ====
/-
  A finite sum over `N = n * m` consecutive indices, cut into `n` chunks of `m`: the sum of the chunk sums is the
  whole sum. Index `c * m + k` of the whole range is entry `k` of chunk `c`. Only commutativity and associativity
  of the addition are used, so the law holds in every commutative monoid — on the extended reals in particular,
  where nothing has to be finite.
-/
import Mathlib.Algebra.BigOperators.Fin
import Mathlib.Logic.Equiv.Fin.Basic
import Mathlib.Tactic.Ring
import Mathlib.Tactic.Linarith

namespace ChunkSum

theorem at_lt {n m N : ℕ} (h : n * m = N) (c : Fin n) (k : Fin m) : c.val * m + k.val < N := by
  have hc := c.isLt
  have hk := k.isLt
  subst h
  calc c.val * m + k.val < c.val * m + m := by omega
    _ = (c.val + 1) * m := by ring
    _ ≤ n * m := Nat.mul_le_mul_right m (by omega)

/-- Entry `k` of chunk `c`, as an index of the whole range: `c * m + k`. -/
def at_ {n m N : ℕ} (h : n * m = N) (c : Fin n) (k : Fin m) : Fin N := ⟨c.val * m + k.val, at_lt h c k⟩

@[simp] theorem at_val {n m N : ℕ} (h : n * m = N) (c : Fin n) (k : Fin m) : (at_ h c k).val = c.val * m + k.val := rfl

/-- The sum of the `n` chunk sums is the sum over all `N = n * m` indices. -/
theorem sum_chunks {M : Type*} [AddCommMonoid M] {n m N : ℕ} (h : n * m = N) (f : Fin N → M) :
    ∑ c : Fin n, ∑ k : Fin m, f (at_ h c k) = ∑ j : Fin N, f j := by
  subst h
  rw [← Equiv.sum_comp finProdFinEquiv f, Fintype.sum_prod_type]
  refine Finset.sum_congr rfl fun c _ => Finset.sum_congr rfl fun k _ => congrArg f (Fin.ext ?_)
  simp only [at_val, finProdFinEquiv, Equiv.coe_fn_mk]
  ring

/-- Eight terms added one after the other onto a zero, from the left, are their sum. -/
theorem fold8 {M : Type*} [AddCommMonoid M] (g : Fin 8 → M) :
    0 + g 0 + g 1 + g 2 + g 3 + g 4 + g 5 + g 6 + g 7 = ∑ c : Fin 8, g c := by
  rw [Fin.sum_univ_eight, zero_add]

/-- A contraction over `N = 8 * m` indices accumulated chunk by chunk onto a zero is the whole contraction. -/
theorem fold8_chunks {M : Type*} [AddCommMonoid M] {m N : ℕ} (h : 8 * m = N) (f : Fin N → M) :
    0 + (∑ k : Fin m, f (at_ h 0 k)) + (∑ k : Fin m, f (at_ h 1 k)) + (∑ k : Fin m, f (at_ h 2 k))
      + (∑ k : Fin m, f (at_ h 3 k)) + (∑ k : Fin m, f (at_ h 4 k)) + (∑ k : Fin m, f (at_ h 5 k))
      + (∑ k : Fin m, f (at_ h 6 k)) + (∑ k : Fin m, f (at_ h 7 k)) = ∑ j : Fin N, f j := by
  rw [fold8 (fun c => ∑ k : Fin m, f (at_ h c k)), sum_chunks h f]

end ChunkSum
-- ==== Proof.LibChunkFold.lean ====
/-
  A running total over chunks. A sum over `N = (n + 1) * m` consecutive indices is cut into `n + 1` chunks of `m`.
  A total that starts as zero plus the sum of chunk 0, and to which the sum of chunk `c + 1` is added at step
  `c + 1`, is after the last step the sum over all `N` indices: by induction the total after step `c` is the sum of
  the chunk sums 0 … c, and the sum of all the chunk sums is the whole sum. Only the laws of a commutative monoid
  are used, so nothing has to be finite on the extended reals.
-/
import proofs.«142335_j2551210574034_2_alg».proof.Proof.LibChunkSum

namespace ChunkSum

/-- The running total after step `c` is the sum of the chunk sums `0 … c`. -/
theorem fold_partial {M : Type*} [AddCommMonoid M] {n : ℕ} (g : Fin (n + 1) → M) (acc : ℕ → M)
    (h0 : acc 0 = 0 + g ⟨0, Nat.succ_pos n⟩)
    (hs : ∀ c (hc : c + 1 < n + 1), acc (c + 1) = acc c + g ⟨c + 1, hc⟩) :
    ∀ c (_ : c < n + 1), acc c = ∑ i ∈ Finset.range (c + 1), if hi : i < n + 1 then g ⟨i, hi⟩ else 0 := by
  intro c
  induction c with
  | zero =>
    intro _
    rw [h0, zero_add, Finset.sum_range_one, dif_pos (Nat.succ_pos n)]
  | succ c ih =>
    intro hc
    rw [hs c hc, ih (by omega), Finset.sum_range_succ _ (c + 1), dif_pos hc]

/-- Terms added one after the other onto a zero are their sum. -/
theorem fold_terms {M : Type*} [AddCommMonoid M] {n : ℕ} (g : Fin (n + 1) → M) (acc : ℕ → M)
    (h0 : acc 0 = 0 + g ⟨0, Nat.succ_pos n⟩)
    (hs : ∀ c (hc : c + 1 < n + 1), acc (c + 1) = acc c + g ⟨c + 1, hc⟩) :
    acc n = ∑ c : Fin (n + 1), g c := by
  rw [fold_partial g acc h0 hs n (Nat.lt_succ_self n),
    ← Fin.sum_univ_eq_sum_range (fun i => if hi : i < n + 1 then g ⟨i, hi⟩ else 0) (n + 1)]
  exact Finset.sum_congr rfl fun c _ => dif_pos c.isLt

/-- A running total that starts from zero plus chunk 0 and adds chunk `c + 1` at step `c + 1` is, after the last
    chunk, the sum over all `N = (n + 1) * m` indices. -/
theorem fold_chunks {M : Type*} [AddCommMonoid M] {n m N : ℕ} (h : (n + 1) * m = N) (f : Fin N → M) (acc : ℕ → M)
    (h0 : acc 0 = 0 + ∑ k : Fin m, f (at_ h ⟨0, Nat.succ_pos n⟩ k))
    (hs : ∀ c (hc : c + 1 < n + 1), acc (c + 1) = acc c + ∑ k : Fin m, f (at_ h ⟨c + 1, hc⟩ k)) :
    acc n = ∑ j : Fin N, f j :=
  (fold_terms (fun c => ∑ k : Fin m, f (at_ h c k)) acc h0 hs).trans (sum_chunks h f)

end ChunkSum
-- ==== Proof.AccLaw.lean ====
/-
  The accumulated contraction, as pure algebra in a commutative monoid.

  A contraction over 3072 indices is computed as a running total over 12 chunks of 256 consecutive indices: the
  total starts as zero plus the sum of chunk 0 and the sum of chunk k + 1 is added at step k + 1. After the last
  step the total is the sum over all 3072 indices. When the 3072 terms are 1024 terms of one family followed by
  2048 terms of another, that sum is the sum of the first family plus the sum of the second, and a bias added to
  the total at the end may be added between the two instead. Only commutativity and associativity of the
  addition are used: on the extended reals nothing has to be finite.
-/
import proofs.«142335_j2551210574034_2_alg».proof.Proof.LibChunkFold

namespace Cert.AccLaw

variable {M : Type*} [AddCommMonoid M]

theorem cix_lt (k : ℕ) (hk : k < 12) (kk : Fin 256) : k * 256 + kk.val < 3072 := by
  have := kk.isLt
  omega

/-- Entry `kk` of chunk `k`, as an index of the whole contraction: `k * 256 + kk`. -/
def cix (k : ℕ) (hk : k < 12) (kk : Fin 256) : Fin 3072 := ⟨k * 256 + kk.val, cix_lt k hk kk⟩

@[simp] theorem cix_val (k : ℕ) (hk : k < 12) (kk : Fin 256) : (cix k hk kk).val = k * 256 + kk.val := rfl

theorem cix_eq_at (k : ℕ) (hk : k < 12) (kk : Fin 256) :
    cix k hk kk = ChunkSum.at_ (n := 12) (m := 256) (N := 3072) rfl ⟨k, hk⟩ kk := rfl

/-- The running total after step `k` is the sum of the chunk sums `0 … k`. -/
theorem total_partial (chunk A : ℕ → M) (h0 : A 0 = 0 + chunk 0)
    (hs : ∀ k, k + 1 < 12 → A (k + 1) = A k + chunk (k + 1)) :
    ∀ k, k < 12 → A k = ∑ i ∈ Finset.range (k + 1), chunk i := by
  intro k
  induction k with
  | zero =>
    intro _
    rw [h0, zero_add, Finset.sum_range_one]
  | succ k ih =>
    intro hk
    rw [hs k hk, ih (by omega), Finset.sum_range_succ _ (k + 1)]

/-- The sum of the chunk sums `0 … k` is the sum over the first `(k + 1) * 256` indices. -/
theorem chunks_upto (f : Fin 3072 → M) (chunk : ℕ → M)
    (hchunk : ∀ k (hk : k < 12), chunk k = ∑ kk : Fin 256, f (cix k hk kk)) (k : ℕ) (hk : k < 12) :
    ∑ i ∈ Finset.range (k + 1), chunk i = ∑ K : Fin 3072, if K.val < (k + 1) * 256 then f K else 0 := by
  rw [← ChunkSum.sum_chunks (n := 12) (m := 256) (N := 3072) rfl
    (fun K : Fin 3072 => if K.val < (k + 1) * 256 then f K else 0)]
  have hterm : ∀ c : Fin 12, (∑ kk : Fin 256,
      (fun K : Fin 3072 => if K.val < (k + 1) * 256 then f K else 0) (ChunkSum.at_ (n := 12) (m := 256) (N := 3072) rfl c kk))
      = if c.val < k + 1 then chunk c.val else 0 := by
    intro c
    by_cases hc : c.val < k + 1
    · rw [if_pos hc, hchunk c.val c.isLt]
      refine Finset.sum_congr rfl fun kk _ => ?_
      have hkk := kk.isLt
      have : (ChunkSum.at_ (n := 12) (m := 256) (N := 3072) rfl c kk).val < (k + 1) * 256 := by
        rw [ChunkSum.at_val]; omega
      show (if (ChunkSum.at_ (n := 12) (m := 256) (N := 3072) rfl c kk).val < (k + 1) * 256 then _ else 0) = _
      rw [if_pos this]
      rfl
    · rw [if_neg hc]
      refine Finset.sum_eq_zero fun kk _ => ?_
      have : ¬ (ChunkSum.at_ (n := 12) (m := 256) (N := 3072) rfl c kk).val < (k + 1) * 256 := by
        rw [ChunkSum.at_val]; omega
      show (if (ChunkSum.at_ (n := 12) (m := 256) (N := 3072) rfl c kk).val < (k + 1) * 256 then _ else 0) = _
      rw [if_neg this]
  rw [Finset.sum_congr rfl fun c _ => hterm c,
    Fin.sum_univ_eq_sum_range (fun i => if i < k + 1 then chunk i else 0) 12,
    ← Finset.sum_filter]
  refine Finset.sum_congr ?_ fun _ _ => rfl
  ext i
  simp only [Finset.mem_filter, Finset.mem_range]
  omega

/-- The running total after step `k` is the sum over the first `(k + 1) * 256` indices. -/
theorem total_upto (f : Fin 3072 → M) (chunk A : ℕ → M)
    (hchunk : ∀ k (hk : k < 12), chunk k = ∑ kk : Fin 256, f (cix k hk kk))
    (h0 : A 0 = 0 + chunk 0) (hs : ∀ k, k + 1 < 12 → A (k + 1) = A k + chunk (k + 1))
    (k : ℕ) (hk : k < 12) :
    A k = ∑ K : Fin 3072, if K.val < (k + 1) * 256 then f K else 0 :=
  (total_partial chunk A h0 hs k hk).trans (chunks_upto f chunk hchunk k hk)

/-- After the last of the 12 steps the running total is the whole contraction. -/
theorem total_last (f : Fin 3072 → M) (chunk A : ℕ → M)
    (hchunk : ∀ k (hk : k < 12), chunk k = ∑ kk : Fin 256, f (cix k hk kk))
    (h0 : A 0 = 0 + chunk 0) (hs : ∀ k, k + 1 < 12 → A (k + 1) = A k + chunk (k + 1)) :
    A 11 = ∑ K : Fin 3072, f K := by
  rw [total_upto f chunk A hchunk h0 hs 11 (by omega)]
  exact Finset.sum_congr rfl fun K _ => if_pos (by have := K.isLt; omega)

/-- A sum over 3072 indices whose first 1024 terms are `g` and whose last 2048 terms are `g'`. -/
theorem sum_split (f : Fin 3072 → M) (g : Fin 1024 → M) (g' : Fin 2048 → M)
    (hlo : ∀ k : Fin 1024, f ⟨k.val, by have := k.isLt; omega⟩ = g k)
    (hhi : ∀ k : Fin 2048, f ⟨1024 + k.val, by have := k.isLt; omega⟩ = g' k) :
    ∑ K : Fin 3072, f K = (∑ k : Fin 1024, g k) + ∑ k : Fin 2048, g' k := by
  have e : (1024 + 2048 : ℕ) = 3072 := rfl
  rw [← Fin.sum_congr' f e, Fin.sum_univ_add]
  congr 1
  · exact Finset.sum_congr rfl fun k _ => hlo k
  · exact Finset.sum_congr rfl fun k _ => hhi k

/-- A bias added after two sums may be added between them. -/
theorem regroup (s t b : M) : (s + t) + b = (s + b) + t := add_right_comm s t b

/-- The accumulated contraction plus a bias: the running total over the 12 chunks, plus `b`, is the sum of the
    first 1024 terms, plus `b`, plus the sum of the last 2048 terms. -/
theorem total_add_bias (f : Fin 3072 → M) (g : Fin 1024 → M) (g' : Fin 2048 → M) (b : M) (chunk A : ℕ → M)
    (hchunk : ∀ k (hk : k < 12), chunk k = ∑ kk : Fin 256, f (cix k hk kk))
    (h0 : A 0 = 0 + chunk 0) (hs : ∀ k, k + 1 < 12 → A (k + 1) = A k + chunk (k + 1))
    (hlo : ∀ k : Fin 1024, f ⟨k.val, by have := k.isLt; omega⟩ = g k)
    (hhi : ∀ k : Fin 2048, f ⟨1024 + k.val, by have := k.isLt; omega⟩ = g' k) :
    A 11 + b = ((∑ k : Fin 1024, g k) + b) + ∑ k : Fin 2048, g' k := by
  rw [total_last f chunk A hchunk h0 hs, sum_split f g g' hlo hhi, regroup]

end Cert.AccLaw
-- ==== Proof.KAcc.lean ====
/-
  The accumulated contraction is the pre-activation.

  Grid point t is batch tile t / 12 at reduction step t % 12. At step 0 of a tile the body leaves in the
  accumulator zero plus the product of this step's 256 × 256 block of the joined activations with this step's
  8192 × 256 block of the joined weights, contracted over the block's 256 columns; at every later step it leaves
  what the step before left plus this step's product. The block of step k holds columns k · 256 … k · 256 + 255
  of the 3072 joined columns, and the rows of the tile. So after step 11 element (r, J) of the accumulator is the
  sum over all 3072 joined columns K of activations(row, K) · weights(J, K) — a running total over 12 chunks of
  256 — and the joined columns are the 1024 columns of the input followed by the 2048 columns of the previous
  hidden state, against the stacked input weights followed by the stacked recurrent weights. Adding the stacked
  bias, and moving it between the two sums, gives the specification's pre-activation of that row at column J.
  Only commutativity and associativity of the addition of extended reals are used.
-/
import proofs.«142335_j2551210574034_2_alg».proof.Proof.KValPieces
import proofs.«142335_j2551210574034_2_alg».proof.Proof.KBlocks
import proofs.«142335_j2551210574034_2_alg».proof.Proof.KHostRead
import proofs.«142335_j2551210574034_2_alg».proof.Proof.PayAcc
import proofs.«142335_j2551210574034_2_alg».proof.Proof.AccLaw
import proofs.«142335_j2551210574034_2_alg».proof.Proof.Spec
import proofs.«142335_j2551210574034_2_alg».proof.Proof.RefArrays

set_option maxRecDepth 16384

noncomputable section

open scoped BigOperators

namespace Cert.KernelIdeal.AccAt

open Cert.KernelIdeal Cert.KernelIdeal.Gen Idealize.ShloMosaic Idealize.ShloMosaic.TcCoe Idealize.ShloMosaic.ValueIdx
open Cert.Spec

variable (m : (ℓ : Loc nD τ sig) → Buf (Elt Ideal) ℓ) (c : Dev nD)

/-! ## One step -/

/-- Element (r, kk) of point `t`'s block of the joined activations, as an extended real. -/
def lhsAt (t : Fin cfg0.N) (r kk : Fin 256) : EReal := (Fr.iblk m c 0 t : Vec Ideal S256x256 .bf16) (ix2 r kk)
/-- Element (J, kk) of point `t`'s block of the joined weights, as an extended real. -/
def rhsAt (t : Fin cfg0.N) (J : Fin 8192) (kk : Fin 256) : EReal := (Fr.iblk m c 1 t : Vec Ideal S8192x256 .bf16) (ix2 J kk)

/-- The partial product of point `t` at (r, J): its block of the joined activations against its block of the
    joined weights, contracted over the block's 256 columns. -/
def chunk (t : Fin cfg0.N) (r : Fin 256) (J : Fin 8192) : EReal :=
  ∑ kk : Fin 256, lhsAt m c t r kk * rhsAt m c t J kk

/-- At the first reduction step of a tile the accumulator ends at zero plus the step's partial product. -/
theorem accAt_first (t : Fin cfg0.N) (h0 : t.val % 12 = 0) (r : Fin 256) (J : Fin 8192) :
    (Fr.accAt m c t.val t.isLt : S256x8192.Idx → EReal) (ix2 r J) = 0 + chunk m c t r J := by
  have h1 : ¬t.val % 12 = 11 := by omega
  refine (congrFun ((Fr.accAt_A m c t h0 h1).trans (Fr.sout_A ..)) (ix2 r J)).trans ?_
  refine (PayAt.pay2_at _ _ _ r J).trans ?_
  exact congrArg (· + chunk m c t r J) (PayAt.pay1_at r J)

/-- At every later step it ends at what the step before left plus the step's partial product. -/
theorem accAt_next (t : Fin cfg0.N) (h0 : ¬t.val % 12 = 0) (r : Fin 256) (J : Fin 8192) :
    (Fr.accAt m c t.val t.isLt : S256x8192.Idx → EReal) (ix2 r J)
      = (Fr.accBefore m c t : S256x8192.Idx → EReal) (ix2 r J) + chunk m c t r J := by
  by_cases h1 : t.val % 12 = 11
  · exact (congrFun ((Fr.accAt_C m c t h0 h1).trans (Fr.sout_C ..)) (ix2 r J)).trans (PayAt.pay2_at _ _ _ r J)
  · exact (congrFun ((Fr.accAt_B m c t h0 h1).trans (Fr.sout_B ..)) (ix2 r J)).trans (PayAt.pay2_at _ _ _ r J)

/-- The accumulator after a position does not depend on how the position is written. -/
theorem accAt_congr (n n' : ℕ) (e : n = n') (h : n < cfg0.N) (h' : n' < cfg0.N) :
    Fr.accAt m c n h = Fr.accAt m c n' h' := by
  subst e
  rfl

/-! ## The twelve steps of one batch tile -/

/-- The accumulator's element (r, J) after step `k` of batch tile `bt` (zero where there is no such point). -/
def accK (bt : ℕ) (r : Fin 256) (J : Fin 8192) (k : ℕ) : EReal :=
  if h : 12 * bt + k < cfg0.N then (Fr.accAt m c (12 * bt + k) h : S256x8192.Idx → EReal) (ix2 r J) else 0

/-- The partial product at (r, J) of step `k` of batch tile `bt` (zero where there is no such point). -/
def chunkK (bt : ℕ) (r : Fin 256) (J : Fin 8192) (k : ℕ) : EReal :=
  if h : 12 * bt + k < cfg0.N then chunk m c ⟨12 * bt + k, h⟩ r J else 0

theorem accK_pos (bt : ℕ) (r : Fin 256) (J : Fin 8192) (k : ℕ) (h : 12 * bt + k < cfg0.N) :
    accK m c bt r J k = (Fr.accAt m c (12 * bt + k) h : S256x8192.Idx → EReal) (ix2 r J) := dif_pos h

theorem chunkK_pos (bt : ℕ) (r : Fin 256) (J : Fin 8192) (k : ℕ) (h : 12 * bt + k < cfg0.N) :
    chunkK m c bt r J k = chunk m c ⟨12 * bt + k, h⟩ r J := dif_pos h

/-- The joined activations at (p, K), as an extended real. -/
def actAt (p : Fin 4096) (K : Fin 3072) : EReal := (Fr.V m c main_v4 : S4096x3072.Idx → EReal) (ix2 p K)
/-- The joined weights at (J, K), as an extended real. -/
def wgtAt (J : Fin 8192) (K : Fin 3072) : EReal := (Fr.V m c main_v6 : S8192x3072.Idx → EReal) (ix2 J K)

/-- One term of the whole contraction: joined activations at (p, K) times joined weights at (J, K). -/
def prodAt (p : Fin 4096) (J : Fin 8192) (K : Fin 3072) : EReal := actAt m c p K * wgtAt m c J K

/-- Two points of one batch tile have the same rows. -/
theorem rowOf_tile (t t' : Fin cfg0.N) (e : t'.val / 12 = t.val / 12) (r : Fin 256) : BlkAt.rowOf t' r = BlkAt.rowOf t r :=
  Fin.ext (by show t'.val / 12 * 256 + r.val = t.val / 12 * 256 + r.val; rw [e])

/-- The columns of a point at reduction step `k` are chunk `k` of the joined columns. -/
theorem colOf_step (t' : Fin cfg0.N) (k : ℕ) (hk : k < 12) (e : t'.val % 12 = k) (kk : Fin 256) :
    BlkAt.colOf t' kk = AccLaw.cix k hk kk :=
  Fin.ext (by show t'.val % 12 * 256 + kk.val = k * 256 + kk.val; rw [e])

/-- The partial product of step `k` of the tile of `t` is the sum of chunk `k` of the whole contraction's terms. -/
theorem chunkK_eq (t : Fin cfg0.N) (r : Fin 256) (J : Fin 8192) (k : ℕ) (hk : k < 12) :
    chunkK m c (t.val / 12) r J k = ∑ kk : Fin 256, prodAt m c (BlkAt.rowOf t r) J (AccLaw.cix k hk kk) := by
  have hN : cfg0.N = 192 := Gen.N_0
  have ht := t.isLt
  have h : 12 * (t.val / 12) + k < cfg0.N := by omega
  rw [chunkK_pos m c (t.val / 12) r J k h]
  unfold chunk
  refine Finset.sum_congr rfl fun kk _ => ?_
  have hrow : BlkAt.rowOf ⟨12 * (t.val / 12) + k, h⟩ r = BlkAt.rowOf t r :=
    rowOf_tile t ⟨12 * (t.val / 12) + k, h⟩ (by show (12 * (t.val / 12) + k) / 12 = t.val / 12; omega) r
  have hcol : BlkAt.colOf ⟨12 * (t.val / 12) + k, h⟩ kk = AccLaw.cix k hk kk :=
    colOf_step ⟨12 * (t.val / 12) + k, h⟩ k hk (by show (12 * (t.val / 12) + k) % 12 = k; omega) kk
  have e0 : lhsAt m c ⟨12 * (t.val / 12) + k, h⟩ r kk = actAt m c (BlkAt.rowOf t r) (AccLaw.cix k hk kk) := by
    have e := BlkAt.iblk0_at m c ⟨12 * (t.val / 12) + k, h⟩ r kk
    rw [hrow, hcol] at e
    exact e
  have e1 : rhsAt m c ⟨12 * (t.val / 12) + k, h⟩ J kk = wgtAt m c J (AccLaw.cix k hk kk) := by
    have e := BlkAt.iblk1_at m c ⟨12 * (t.val / 12) + k, h⟩ J kk
    rw [hcol] at e
    exact e
  show lhsAt m c ⟨12 * (t.val / 12) + k, h⟩ r kk * rhsAt m c ⟨12 * (t.val / 12) + k, h⟩ J kk
    = actAt m c (BlkAt.rowOf t r) (AccLaw.cix k hk kk) * wgtAt m c J (AccLaw.cix k hk kk)
  rw [e0, e1]

/-! ## The last step of a tile -/

/-- After the last reduction step of a batch tile, the accumulator's element (r, J) plus the stacked bias at J is
    the specification's pre-activation of the tile's row r at column J. -/
theorem acc_pre (t : Fin cfg0.N) (h11 : t.val % 12 = 11) (r : Fin 256) (J : Fin 8192) :
    (Fr.accAt m c t.val t.isLt : S256x8192.Idx → EReal) (ix2 r J) + HostAt.aB m c J
      = Cert.Spec.pre (Cert.Spec.mat (HostAt.aX m c)) (Cert.Spec.mat (HostAt.aH m c)) (HostAt.aW m c) (HostAt.aB m c)
          (HostAt.aR m c) (BlkAt.rowOf t r) J := by
  have hN : cfg0.N = 192 := Gen.N_0
  have ht := t.isLt
  have hbt : t.val = 12 * (t.val / 12) + 11 := by omega
  have hlt : ∀ k, k < 12 → 12 * (t.val / 12) + k < cfg0.N := fun k hk => by omega
  have hchunk : ∀ k (hk : k < 12), chunkK m c (t.val / 12) r J k
      = ∑ kk : Fin 256, prodAt m c (BlkAt.rowOf t r) J (AccLaw.cix k hk kk) := fun k hk => chunkK_eq m c t r J k hk
  have h0 : accK m c (t.val / 12) r J 0 = 0 + chunkK m c (t.val / 12) r J 0 := by
    rw [accK_pos m c (t.val / 12) r J 0 (hlt 0 (by omega)), chunkK_pos m c (t.val / 12) r J 0 (hlt 0 (by omega))]
    exact accAt_first m c ⟨12 * (t.val / 12) + 0, hlt 0 (by omega)⟩ (by show (12 * (t.val / 12) + 0) % 12 = 0; omega) r J
  have hs : ∀ k, k + 1 < 12 →
      accK m c (t.val / 12) r J (k + 1) = accK m c (t.val / 12) r J k + chunkK m c (t.val / 12) r J (k + 1) := fun k hk => by
    rw [accK_pos m c (t.val / 12) r J (k + 1) (hlt (k + 1) hk), accK_pos m c (t.val / 12) r J k (hlt k (by omega)),
      chunkK_pos m c (t.val / 12) r J (k + 1) (hlt (k + 1) hk)]
    refine (accAt_next m c ⟨12 * (t.val / 12) + (k + 1), hlt (k + 1) hk⟩
      (by show ¬(12 * (t.val / 12) + (k + 1)) % 12 = 0; omega) r J).trans ?_
    refine congrArg (· + chunk m c ⟨12 * (t.val / 12) + (k + 1), hlt (k + 1) hk⟩ r J) ?_
    exact congrFun (accAt_congr m c _ _ (by show 12 * (t.val / 12) + (k + 1) - 1 = 12 * (t.val / 12) + k; omega) _ _) (ix2 r J)
  have hlo : ∀ k : Fin 1024, prodAt m c (BlkAt.rowOf t r) J ⟨k.val, by have := k.isLt; omega⟩
      = mat (HostAt.aX m c) (BlkAt.rowOf t r) k * HostAt.aW m c J k := fun k => by
    have e0 : actAt m c (BlkAt.rowOf t r) ⟨k.val, by have := k.isLt; omega⟩ = mat (HostAt.aX m c) (BlkAt.rowOf t r) k :=
      HostAt.v4_lo m c (BlkAt.rowOf t r) k
    have e1 : wgtAt m c J ⟨k.val, by have := k.isLt; omega⟩ = HostAt.aW m c J k := HostAt.v6_lo m c J k
    show actAt m c (BlkAt.rowOf t r) ⟨k.val, _⟩ * wgtAt m c J ⟨k.val, _⟩ = _
    rw [e0, e1]
  have hhi : ∀ k : Fin 2048, prodAt m c (BlkAt.rowOf t r) J ⟨1024 + k.val, by have := k.isLt; omega⟩
      = mat (HostAt.aH m c) (BlkAt.rowOf t r) k * HostAt.aR m c J k := fun k => by
    have e0 : actAt m c (BlkAt.rowOf t r) ⟨1024 + k.val, by have := k.isLt; omega⟩ = mat (HostAt.aH m c) (BlkAt.rowOf t r) k :=
      HostAt.v4_hi m c (BlkAt.rowOf t r) k
    have e1 : wgtAt m c J ⟨1024 + k.val, by have := k.isLt; omega⟩ = HostAt.aR m c J k := HostAt.v6_hi m c J k
    show actAt m c (BlkAt.rowOf t r) ⟨1024 + k.val, _⟩ * wgtAt m c J ⟨1024 + k.val, _⟩ = _
    rw [e0, e1]
  have key := AccLaw.total_add_bias (prodAt m c (BlkAt.rowOf t r) J)
    (fun k : Fin 1024 => mat (HostAt.aX m c) (BlkAt.rowOf t r) k * HostAt.aW m c J k)
    (fun k : Fin 2048 => mat (HostAt.aH m c) (BlkAt.rowOf t r) k * HostAt.aR m c J k)
    (HostAt.aB m c J) (chunkK m c (t.val / 12) r J) (accK m c (t.val / 12) r J) hchunk h0 hs hlo hhi
  rw [accK_pos m c (t.val / 12) r J 11 (hlt 11 (by omega))] at key
  rw [accAt_congr m c t.val (12 * (t.val / 12) + 11) hbt t.isLt (hlt 11 (by omega))]
  exact key

end Cert.KernelIdeal.AccAt

end
-- ==== Proof.KValOut.lean ====
/-
  The four result arrays of the idealized kernel. At the last reduction step of batch tile b the accumulator holds, at row r and
  column J, the whole contraction over the 3072 joined columns; with the bias added it is the pre-activation of row 256·b + r.
  The four blocks the epilogue stores are the cell's gate formulas of those pre-activations, of the old state's rows of the
  same batch tile and of the two normalisation vectors; the sixteen written blocks cover each result array.
-/
import proofs.«142335_j2551210574034_2_alg».proof.Proof.KValPieces
import proofs.«142335_j2551210574034_2_alg».proof.Proof.KBlocks
import proofs.«142335_j2551210574034_2_alg».proof.Proof.KHostRead
import proofs.«142335_j2551210574034_2_alg».proof.Proof.PayGates
import proofs.«142335_j2551210574034_2_alg».proof.Proof.RefArrays
import proofs.«142335_j2551210574034_2_alg».proof.Proof.KAcc

set_option maxRecDepth 16384

noncomputable section

namespace Cert.KernelIdeal.Val

open Cert.KernelIdeal Cert.KernelIdeal.Gen Idealize.ShloMosaic Idealize.ShloMosaic.TcCoe Idealize.ShloMosaic.ValueIdx
open Idealize.SL.Sem
open Idealize.ShloMosaic.Pipeline (Dat)
open Cert.Spec

variable (m : (ℓ : Loc nD τ sig) → Buf (Elt Ideal) ℓ) (c : Dev nD)

open Cert.KernelIdeal.AccAt

/-- The pre-activations of the cell, from the kernel's own argument arrays. -/
abbrev P : Mat 4096 8192 := (Cert.Spec.pre (Cert.Spec.mat (HostAt.aX m c)) (Cert.Spec.mat (HostAt.aH m c)) (HostAt.aW m c) (HostAt.aB m c) (HostAt.aR m c))

/-- At a last reduction step the accumulator the epilogue reads is the accumulated contraction. -/
theorem acc_last (t : Fin cfg0.N) (h11 : t.val % 12 = 11) :
    (k0_pay2 (Fr.iblk m c 0 t) (Fr.iblk m c 1 t) (Fr.accBefore m c t) : Vec Ideal S256x8192 .f32) = Fr.accAt m c t.val t.isLt := by
  have h0 : ¬t.val % 12 = 0 := by omega
  refine ((Fr.accAt_C m c t h0 h11).trans ?_).symm
  exact Fr.sout_C ..

/-- Gate block g of the accumulator plus the same columns of the bias row is the pre-activation's gate block g. -/
theorem gate0 (t : Fin cfg0.N) (h11 : t.val % 12 = 11) (r : Fin 256) (j : Fin 2048) :
    Fr.accSl0 (k0_pay2 (Fr.iblk m c 0 t) (Fr.iblk m c 1 t) (Fr.accBefore m c t)) (ix2 r j) + Fr.bSl0 (Fr.iblk m c 2 t) (ix2 (0 : Fin 1) j)
      = P m c (BlkAt.rowOf t r) (col 0 j) := by
  rw [Fr.accSl0_at, Fr.bSl0_at, acc_last m c t h11, BlkAt.iblk2_at, HostAt.v7_at]
  exact acc_pre m c t h11 r (col 0 j)
theorem gate1 (t : Fin cfg0.N) (h11 : t.val % 12 = 11) (r : Fin 256) (j : Fin 2048) :
    Fr.accSl1 (k0_pay2 (Fr.iblk m c 0 t) (Fr.iblk m c 1 t) (Fr.accBefore m c t)) (ix2 r j) + Fr.bSl1 (Fr.iblk m c 2 t) (ix2 (0 : Fin 1) j)
      = P m c (BlkAt.rowOf t r) (col 1 j) := by
  rw [Fr.accSl1_at, Fr.bSl1_at, acc_last m c t h11, BlkAt.iblk2_at, HostAt.v7_at]
  exact acc_pre m c t h11 r (col 1 j)
theorem gate2 (t : Fin cfg0.N) (h11 : t.val % 12 = 11) (r : Fin 256) (j : Fin 2048) :
    Fr.accSl2 (k0_pay2 (Fr.iblk m c 0 t) (Fr.iblk m c 1 t) (Fr.accBefore m c t)) (ix2 r j) + Fr.bSl2 (Fr.iblk m c 2 t) (ix2 (0 : Fin 1) j)
      = P m c (BlkAt.rowOf t r) (col 2 j) := by
  rw [Fr.accSl2_at, Fr.bSl2_at, acc_last m c t h11, BlkAt.iblk2_at, HostAt.v7_at]
  exact acc_pre m c t h11 r (col 2 j)
theorem gate3 (t : Fin cfg0.N) (h11 : t.val % 12 = 11) (r : Fin 256) (j : Fin 2048) :
    Fr.accSl3 (k0_pay2 (Fr.iblk m c 0 t) (Fr.iblk m c 1 t) (Fr.accBefore m c t)) (ix2 r j) + Fr.bSl3 (Fr.iblk m c 2 t) (ix2 (0 : Fin 1) j)
      = P m c (BlkAt.rowOf t r) (col 3 j) := by
  rw [Fr.accSl3_at, Fr.bSl3_at, acc_last m c t h11, BlkAt.iblk2_at, HostAt.v7_at]
  exact acc_pre m c t h11 r (col 3 j)

/-- The old state's blocks and the two normalisation rows, at an element. -/
theorem cprev_at (t : Fin cfg0.N) (r : Fin 256) (j : Fin 2048) :
    (Fr.iblk m c 3 t : Vec Ideal S256x2048 .f32) (ix2 r j) = mat (m ((c : Thread nD τ).loc main_arg2)) (BlkAt.rowOf t r) j := by
  rw [BlkAt.iblk3_at, Fr.V_main_arg2]; rfl
theorem nprev_at (t : Fin cfg0.N) (r : Fin 256) (j : Fin 2048) :
    (Fr.iblk m c 4 t : Vec Ideal S256x2048 .f32) (ix2 r j) = mat (m ((c : Thread nD τ).loc main_arg3)) (BlkAt.rowOf t r) j := by
  rw [BlkAt.iblk4_at, Fr.V_main_arg3]; rfl
theorem mprev_at (t : Fin cfg0.N) (r : Fin 256) (j : Fin 2048) :
    (Fr.iblk m c 5 t : Vec Ideal S256x2048 .f32) (ix2 r j) = mat (m ((c : Thread nD τ).loc main_arg4)) (BlkAt.rowOf t r) j := by
  rw [BlkAt.iblk5_at, Fr.V_main_arg4]; rfl
theorem gnw_at (t : Fin cfg0.N) (j : Fin 2048) :
    (Fr.iblk m c 6 t : Vec Ideal S1x2048 .f32) (ix2 (0 : Fin 1) j) = vec (m ((c : Thread nD τ).loc main_arg17)) j := by
  rw [BlkAt.iblk6_at, HostAt.v8_at]; rfl
theorem gnb_at (t : Fin cfg0.N) (j : Fin 2048) :
    (Fr.iblk m c 7 t : Vec Ideal S1x2048 .f32) (ix2 (0 : Fin 1) j) = vec (m ((c : Thread nD τ).loc main_arg18)) j := by
  rw [BlkAt.iblk7_at, HostAt.v9_at]; rfl

/-! ## What each write-back writes -/

theorem flushedM_at (t : Fin cfg0.N) (h11 : t.val % 12 = 11) (r : Fin 256) (j : Fin 2048) :
    ((Fr.dats m 0 c).flushed 11 t : S256x2048.Idx → EReal) (ix2 r j)
      = specM (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (ix2 (BlkAt.rowOf t r) j) := by
  rw [BlkAt.flushed11_eq, Fr.outAt11_C m c t h11, Fr.out_C_11]
  exact PayAt.outM_at (P m c) (mat (m ((c : Thread nD τ).loc main_arg4))) (BlkAt.rowOf t r) r _ _ _ _ _
    (gate0 m c t h11 r) (gate1 m c t h11 r) (mprev_at m c t r) j

theorem flushedC_at (t : Fin cfg0.N) (h11 : t.val % 12 = 11) (r : Fin 256) (j : Fin 2048) :
    ((Fr.dats m 0 c).flushed 9 t : S256x2048.Idx → EReal) (ix2 r j)
      = specC (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (ix2 (BlkAt.rowOf t r) j) := by
  rw [BlkAt.flushed9_eq, Fr.outAt9_C m c t h11, Fr.out_C_9]
  exact PayAt.outC_at (P m c) (mat (m ((c : Thread nD τ).loc main_arg2))) (BlkAt.rowOf t r) r _ _ _ _ _ _ _
    (gate0 m c t h11 r) (gate1 m c t h11 r) (gate2 m c t h11 r) (cprev_at m c t r) j

theorem flushedN_at (t : Fin cfg0.N) (h11 : t.val % 12 = 11) (r : Fin 256) (j : Fin 2048) :
    ((Fr.dats m 0 c).flushed 10 t : S256x2048.Idx → EReal) (ix2 r j)
      = specN (m ((c : Thread nD τ).loc main_arg0)) (m ((c : Thread nD τ).loc main_arg1)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (ix2 (BlkAt.rowOf t r) j) := by
  rw [BlkAt.flushed10_eq, Fr.outAt10_C m c t h11, Fr.out_C_10]
  exact PayAt.outN_at (P m c) (mat (m ((c : Thread nD τ).loc main_arg3))) (BlkAt.rowOf t r) r _ _ _ _ _
    (gate0 m c t h11 r) (gate1 m c t h11 r) (nprev_at m c t r) j

theorem flushedH_at (t : Fin cfg0.N) (h11 : t.val % 12 = 11) (r : Fin 256) (j : Fin 2048) :
    ((Fr.dats m 0 c).flushed 8 t : S256x2048.Idx → EReal) (ix2 r j)
      = specH (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (ix2 (BlkAt.rowOf t r) j) := by
  rw [BlkAt.flushed8_eq, Fr.outAt8_C m c t h11, Fr.out_C_8]
  exact PayAt.outH_at (P m c) (mat (m ((c : Thread nD τ).loc main_arg2))) (mat (m ((c : Thread nD τ).loc main_arg3))) (vec (m ((c : Thread nD τ).loc main_arg17))) (vec (m ((c : Thread nD τ).loc main_arg18))) (BlkAt.rowOf t r) r _ _ _ _ _ _ _ _ _ _ _ _
    (gate0 m c t h11 r) (gate1 m c t h11 r) (gate2 m c t h11 r) (gate3 m c t h11 r) (cprev_at m c t r) (nprev_at m c t r)
    (gnw_at m c t) (gnb_at m c t) j

/-! ## The run, with the four results named -/

theorem run_val (ρ : Dev nD → PrngReg) :
    θ_run (defs (F := Ideal)) (onTc (τ := τ) (main (F := Ideal))) ⟨m, fun _ => 0, ρ⟩ (fun r => ∀ c : Dev nD,
      r.2.mem ((c.tc : Thread nD τ).loc main_v10_0) = specH (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))
      ∧ r.2.mem ((c.tc : Thread nD τ).loc main_v10_1) = specC (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))
      ∧ r.2.mem ((c.tc : Thread nD τ).loc main_v10_2) = specN (m ((c : Thread nD τ).loc main_arg0)) (m ((c : Thread nD τ).loc main_arg1)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))
      ∧ r.2.mem ((c.tc : Thread nD τ).loc main_v10_3) = specM (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) := by
  refine (θ_run defs _ _).mono (fun r h c => ⟨?_, ?_, ?_, ?_, ?_⟩) (Fr.run_main m ρ)
  · exact ((h c).1 8).trans (BlkAt.final8 m c _ (flushedH_at m c))
  · exact ((h c).1 9).trans (BlkAt.final9 m c _ (flushedC_at m c))
  · exact ((h c).1 10).trans (BlkAt.final10 m c _ (flushedN_at m c))
  · exact ((h c).1 11).trans (BlkAt.final11 m c _ (flushedM_at m c))
  · exact ⟨((h c).2 main_arg0 (Pipeline.mem_restRefs_of main_arg0 (by decide) (by decide))).trans (Fr.V_main_arg0 m c),
    ((h c).2 main_arg1 (Pipeline.mem_restRefs_of main_arg1 (by decide) (by decide))).trans (Fr.V_main_arg1 m c),
    ((h c).1 3).trans (((Fr.dats m 0 c).arrAt_in 3 rfl _).trans ((Fr.A_eq m c 3).trans (Fr.V_main_arg2 m c))),
    ((h c).1 4).trans (((Fr.dats m 0 c).arrAt_in 4 rfl _).trans ((Fr.A_eq m c 4).trans (Fr.V_main_arg3 m c))),
    ((h c).1 5).trans (((Fr.dats m 0 c).arrAt_in 5 rfl _).trans ((Fr.A_eq m c 5).trans (Fr.V_main_arg4 m c))),
    ((h c).2 main_arg5 (Pipeline.mem_restRefs_of main_arg5 (by decide) (by decide))).trans (Fr.V_main_arg5 m c),
    ((h c).2 main_arg6 (Pipeline.mem_restRefs_of main_arg6 (by decide) (by decide))).trans (Fr.V_main_arg6 m c),
    ((h c).2 main_arg7 (Pipeline.mem_restRefs_of main_arg7 (by decide) (by decide))).trans (Fr.V_main_arg7 m c),
    ((h c).2 main_arg8 (Pipeline.mem_restRefs_of main_arg8 (by decide) (by decide))).trans (Fr.V_main_arg8 m c),
    ((h c).2 main_arg9 (Pipeline.mem_restRefs_of main_arg9 (by decide) (by decide))).trans (Fr.V_main_arg9 m c),
    ((h c).2 main_arg10 (Pipeline.mem_restRefs_of main_arg10 (by decide) (by decide))).trans (Fr.V_main_arg10 m c),
    ((h c).2 main_arg11 (Pipeline.mem_restRefs_of main_arg11 (by decide) (by decide))).trans (Fr.V_main_arg11 m c),
    ((h c).2 main_arg12 (Pipeline.mem_restRefs_of main_arg12 (by decide) (by decide))).trans (Fr.V_main_arg12 m c),
    ((h c).2 main_arg13 (Pipeline.mem_restRefs_of main_arg13 (by decide) (by decide))).trans (Fr.V_main_arg13 m c),
    ((h c).2 main_arg14 (Pipeline.mem_restRefs_of main_arg14 (by decide) (by decide))).trans (Fr.V_main_arg14 m c),
    ((h c).2 main_arg15 (Pipeline.mem_restRefs_of main_arg15 (by decide) (by decide))).trans (Fr.V_main_arg15 m c),
    ((h c).2 main_arg16 (Pipeline.mem_restRefs_of main_arg16 (by decide) (by decide))).trans (Fr.V_main_arg16 m c),
    ((h c).2 main_arg17 (Pipeline.mem_restRefs_of main_arg17 (by decide) (by decide))).trans (Fr.V_main_arg17 m c),
    ((h c).2 main_arg18 (Pipeline.mem_restRefs_of main_arg18 (by decide) (by decide))).trans (Fr.V_main_arg18 m c)⟩

end Cert.KernelIdeal.Val

end
-- ==== Proof.RefValue.lean ====
/-
  The reference program's four results, read at one index, are the specification's functions of the inputs.

  The reference computes the pre-activations as (x · Wᵀ + b) + h · Rᵀ over the stacked parameters, cuts the
  result into four column blocks, and applies the gate formulas and the row-wise normalization. Each step below
  reads one stretch of its operations at an index (p, j): a product of matrices is the sum over the contracted
  coordinate, a transposition swaps the two coordinates, a broadcast forgets the coordinates the operand lacks,
  a slice at column offset g · 2048 reads column g · 2048 + j, a row sum from the initial value 0 is the sum over
  the row. The host spells the logistic function as 1 / (1 + exp (-x)) with the float literal 1; at the extended
  reals that literal is 1 and the quotient is the logistic function by definition. Nothing here uses more than
  the definitions: no sum is reordered and no factor is moved.
-/
import proofs.«142335_j2551210574034_2_alg».proof.Proof.RefArrays
import proofs.«142335_j2551210574034_2_alg».proof.Proof.RefReadP
import Idealize.ShloMosaic.Lib.IdealHost

noncomputable section

open scoped BigOperators

namespace Cert.ReferenceIdeal.RefValue

open Cert.ReferenceIdeal Cert.ReferenceIdeal.Gen Cert.ReferenceIdeal.ReadP Idealize.ShloMosaic Idealize.ShloMosaic.ValueIdx
open Cert.Spec

variable (x0 : (⟨S4096x1024, .f32⟩ : BufTy).Contents (Elt Ideal))
  (x1 x2 x3 x4 : (⟨S4096x2048, .f32⟩ : BufTy).Contents (Elt Ideal))
  (x5 x6 x7 x8 : (⟨S2048x1024, .f32⟩ : BufTy).Contents (Elt Ideal))
  (x9 x10 x11 x12 : (⟨S2048, .f32⟩ : BufTy).Contents (Elt Ideal))
  (x13 x14 x15 x16 : (⟨S2048x2048, .f32⟩ : BufTy).Contents (Elt Ideal))
  (x17 x18 : (⟨S2048, .f32⟩ : BufTy).Contents (Elt Ideal))

/-- The specification's pre-activation matrix of the reference's inputs: the input and the previous hidden state
    read as matrices, the three stacked parameter arrays kept as the joins they are. -/
abbrev refPre : Mat 4096 8192 :=
  pre (mat x0) (mat x1) (wcat x5 x6 x7 x8) (bcat x9 x10 x11 x12) (rcat x13 x14 x15 x16)

/-! ## The index maps of the layout operations, at an index given by coordinates -/

theorem lidx4 (p : Fin 4096) (J : Fin 8192) (k : Fin 1024) : lidx_main_v4 (ix2 p J) k = ix2 p k :=
  funext fun a => Fin.ext (by match a with | ⟨0, _⟩ => rfl | ⟨1, _⟩ => rfl)
theorem ridx4 (p : Fin 4096) (J : Fin 8192) (k : Fin 1024) : idx_main_v3 (ridx_main_v4 (ix2 p J) k) = ix2 J k :=
  funext fun a => Fin.ext (by match a with | ⟨0, _⟩ => rfl | ⟨1, _⟩ => rfl)
theorem lidx9 (p : Fin 4096) (J : Fin 8192) (k : Fin 2048) : lidx_main_v9 (ix2 p J) k = ix2 p k :=
  funext fun a => Fin.ext (by match a with | ⟨0, _⟩ => rfl | ⟨1, _⟩ => rfl)
theorem ridx9 (p : Fin 4096) (J : Fin 8192) (k : Fin 2048) : idx_main_v8 (ridx_main_v9 (ix2 p J) k) = ix2 J k :=
  funext fun a => Fin.ext (by match a with | ⟨0, _⟩ => rfl | ⟨1, _⟩ => rfl)
theorem idx56 (p : Fin 4096) (J : Fin 8192) : idx_main_v5 (idx_main_v6 (ix2 p J)) = ix1 J :=
  funext fun a => Fin.ext (by match a with | ⟨0, _⟩ => rfl)
theorem idx11 (p : Fin 4096) (j : Fin 2048) : idx_main_v11 (ix2 p j) = ix2 p (col 0 j) :=
  funext fun a => Fin.ext (by match a with | ⟨0, _⟩ => rfl | ⟨1, _⟩ => exact (col0_val j).symm)
theorem idx12 (p : Fin 4096) (j : Fin 2048) : idx_main_v12 (ix2 p j) = ix2 p (col 1 j) :=
  funext fun a => Fin.ext (by match a with | ⟨0, _⟩ => rfl | ⟨1, _⟩ => exact (col1_val j).symm)
theorem idx13 (p : Fin 4096) (j : Fin 2048) : idx_main_v13 (ix2 p j) = ix2 p (col 2 j) :=
  funext fun a => Fin.ext (by match a with | ⟨0, _⟩ => rfl | ⟨1, _⟩ => exact (col2_val j).symm)
theorem idx14 (p : Fin 4096) (j : Fin 2048) : idx_main_v14 (ix2 p j) = ix2 p (col 3 j) :=
  funext fun a => Fin.ext (by match a with | ⟨0, _⟩ => rfl | ⟨1, _⟩ => exact (col3_val j).symm)
/-- A row's one entry of a 4096 × 1 array, from any column of the 4096 × 2048 array it is broadcast to. -/
theorem idx46 (p : Fin 4096) (j : Fin 2048) : idx_main_v46 (ix2 p j) = ix2 p (0 : Fin 1) :=
  funext fun a => Fin.ext (by match a with | ⟨0, _⟩ => rfl | ⟨1, _⟩ => rfl)
theorem idx53 (p : Fin 4096) (j : Fin 2048) : idx_main_v53 (ix2 p j) = ix2 p (0 : Fin 1) :=
  funext fun a => Fin.ext (by match a with | ⟨0, _⟩ => rfl | ⟨1, _⟩ => rfl)
theorem idx58 (p : Fin 4096) (j : Fin 2048) : idx_main_v58 (ix2 p j) = ix2 p (0 : Fin 1) :=
  funext fun a => Fin.ext (by match a with | ⟨0, _⟩ => rfl | ⟨1, _⟩ => rfl)
theorem idx42 (p : Fin 4096) (z : Fin 1) (k : Fin 2048) : idx_main_v42 (idx_main_v43 (ix2 p z)) k = ix2 p k :=
  funext fun a => Fin.ext (by match a with | ⟨0, _⟩ => rfl | ⟨1, _⟩ => rfl)
theorem idx49 (p : Fin 4096) (z : Fin 1) (k : Fin 2048) : idx_main_v49 (idx_main_v50 (ix2 p z)) k = ix2 p k :=
  funext fun a => Fin.ext (by match a with | ⟨0, _⟩ => rfl | ⟨1, _⟩ => rfl)
theorem idx60 (p : Fin 4096) (j : Fin 2048) : idx_main_v60 (idx_main_v61 (ix2 p j)) = ix1 j :=
  funext fun a => Fin.ext (by match a with | ⟨0, _⟩ => rfl)
theorem idx63 (p : Fin 4096) (j : Fin 2048) : idx_main_v63 (idx_main_v64 (ix2 p j)) = ix1 j :=
  funext fun a => Fin.ext (by match a with | ⟨0, _⟩ => rfl)

/-! ## The pre-activations -/

/-- The reference's pre-activation array at (p, J) is the specification's, of the stacked parameters. -/
theorem pre_eq (p : Fin 4096) (J : Fin 8192) :
    val_main_v10 (F := Ideal) x0 x1 x5 x6 x7 x8 x9 x10 x11 x12 x13 x14 x15 x16 (ix2 p J) = refPre x0 x1 x5 x6 x7 x8 x9 x10 x11 x12 x13 x14 x15 x16 p J := by
  simp only [val_main_v10_apply, val_main_v7_apply, val_main_v4_apply, val_main_v9_apply, val_main_v6_apply,
    val_main_v5_apply, val_main_v3_apply, val_main_v8_apply, Ideal.addf_def, lidx4, ridx4, lidx9, ridx9, idx56]
  rfl

/-! ## The gates -/

/-- The reference's input gate. -/
theorem gI_eq (p : Fin 4096) (j : Fin 2048) :
    val_main_v20 (F := Ideal) x0 x1 x5 x6 x7 x8 x9 x10 x11 x12 x13 x14 x15 x16 (ix2 p j) = gI (refPre x0 x1 x5 x6 x7 x8 x9 x10 x11 x12 x13 x14 x15 x16) p j := by
  simp only [val_main_v20_apply, val_main_v19_apply, val_main_cst_0_apply, val_main_v18_apply, val_main_v17_apply,
    val_main_cst_apply, val_main_v16_apply, val_main_v15_apply, val_main_v11_apply, idx11, pre_eq,
    Ideal.hostDivf_def, Ideal.addf_def, Ideal.hostUnary_exp_def, Ideal.hostNegf_def, Ideal.negf_def, Ideal.ofBits_def,
    Ideal.ofBits_one_f32]
  rfl

/-- The reference's forget gate. -/
theorem gF_eq (p : Fin 4096) (j : Fin 2048) :
    val_main_v26 (F := Ideal) x0 x1 x5 x6 x7 x8 x9 x10 x11 x12 x13 x14 x15 x16 (ix2 p j) = gF (refPre x0 x1 x5 x6 x7 x8 x9 x10 x11 x12 x13 x14 x15 x16) p j := by
  simp only [val_main_v26_apply, val_main_v25_apply, val_main_cst_2_apply, val_main_v24_apply, val_main_v23_apply,
    val_main_cst_1_apply, val_main_v22_apply, val_main_v21_apply, val_main_v12_apply, idx12, pre_eq,
    Ideal.hostDivf_def, Ideal.addf_def, Ideal.hostUnary_exp_def, Ideal.hostNegf_def, Ideal.negf_def, Ideal.ofBits_def,
    Ideal.ofBits_one_f32]
  rfl

/-- The reference's cell input. -/
theorem gZ_eq (p : Fin 4096) (j : Fin 2048) :
    val_main_v27 (F := Ideal) x0 x1 x5 x6 x7 x8 x9 x10 x11 x12 x13 x14 x15 x16 (ix2 p j) = gZ (refPre x0 x1 x5 x6 x7 x8 x9 x10 x11 x12 x13 x14 x15 x16) p j := by
  simp only [val_main_v27_apply, val_main_v13_apply, idx13, pre_eq, Ideal.hostUnary_tanh_def]
  rfl

/-- The reference's output gate. -/
theorem gO_eq (p : Fin 4096) (j : Fin 2048) :
    val_main_v33 (F := Ideal) x0 x1 x5 x6 x7 x8 x9 x10 x11 x12 x13 x14 x15 x16 (ix2 p j) = gO (refPre x0 x1 x5 x6 x7 x8 x9 x10 x11 x12 x13 x14 x15 x16) p j := by
  simp only [val_main_v33_apply, val_main_v32_apply, val_main_cst_4_apply, val_main_v31_apply, val_main_v30_apply,
    val_main_cst_3_apply, val_main_v29_apply, val_main_v28_apply, val_main_v14_apply, idx14, pre_eq,
    Ideal.hostDivf_def, Ideal.addf_def, Ideal.hostUnary_exp_def, Ideal.hostNegf_def, Ideal.negf_def, Ideal.ofBits_def,
    Ideal.ofBits_one_f32]
  rfl

/-! ## The new state -/

/-- The reference's new stabilizer. -/
theorem outM_eq (p : Fin 4096) (j : Fin 2048) :
    val_main_v35 (F := Ideal) x0 x1 x4 x5 x6 x7 x8 x9 x10 x11 x12 x13 x14 x15 x16 (ix2 p j) = outM (refPre x0 x1 x5 x6 x7 x8 x9 x10 x11 x12 x13 x14 x15 x16) (mat x4) p j := by
  simp only [val_main_v35_apply, val_main_v34_apply, gF_eq, gI_eq, Ideal.maximumf_def, Ideal.mulf_def]
  rfl

/-- The reference's new cell state. -/
theorem outC_eq (p : Fin 4096) (j : Fin 2048) :
    val_main_v38 (F := Ideal) x0 x1 x2 x5 x6 x7 x8 x9 x10 x11 x12 x13 x14 x15 x16 (ix2 p j) = outC (refPre x0 x1 x5 x6 x7 x8 x9 x10 x11 x12 x13 x14 x15 x16) (mat x2) p j := by
  simp only [val_main_v38_apply, val_main_v36_apply, val_main_v37_apply, gF_eq, gI_eq, gZ_eq, Ideal.addf_def,
    Ideal.mulf_def]
  rfl

/-- The reference's new normalizer. -/
theorem outN_eq (p : Fin 4096) (j : Fin 2048) :
    val_main_v40 (F := Ideal) x0 x1 x3 x5 x6 x7 x8 x9 x10 x11 x12 x13 x14 x15 x16 (ix2 p j) = outN (refPre x0 x1 x5 x6 x7 x8 x9 x10 x11 x12 x13 x14 x15 x16) (mat x3) p j := by
  simp only [val_main_v40_apply, val_main_v39_apply, gF_eq, gI_eq, Ideal.addf_def, Ideal.mulf_def]
  rfl

/-! ## The normalization -/

/-- The reference's stabilized cell state. -/
theorem ratio_eq (p : Fin 4096) (j : Fin 2048) :
    val_main_v41 (F := Ideal) x0 x1 x2 x3 x5 x6 x7 x8 x9 x10 x11 x12 x13 x14 x15 x16 (ix2 p j) = ratio (refPre x0 x1 x5 x6 x7 x8 x9 x10 x11 x12 x13 x14 x15 x16) (mat x2) (mat x3) p j := by
  simp only [val_main_v41_apply, outC_eq, outN_eq, Ideal.hostDivf_def]
  rfl

/-- The reference's row mean: the row sum from the initial value 0, over 2048. -/
theorem mean_eq (p : Fin 4096) (z : Fin 1) :
    val_main_v45 (F := Ideal) x0 x1 x2 x3 x5 x6 x7 x8 x9 x10 x11 x12 x13 x14 x15 x16 (ix2 p z) = mean (refPre x0 x1 x5 x6 x7 x8 x9 x10 x11 x12 x13 x14 x15 x16) (mat x2) (mat x3) p := by
  simp only [val_main_v45_apply, val_main_v43_apply, val_main_v44_apply, val_main_cst_6_apply, val_main_v42_apply,
    val_main_cst_5_apply, idx42, ratio_eq, Ideal.hostDivf_def, Ideal.ofBits_def, Ideal.ofBits_zero_f32, zero_add]
  rfl

/-- The reference's deviation from the row mean, as the variance reads it. -/
theorem centered47_eq (p : Fin 4096) (j : Fin 2048) :
    val_main_v47 (F := Ideal) x0 x1 x2 x3 x5 x6 x7 x8 x9 x10 x11 x12 x13 x14 x15 x16 (ix2 p j) = centered (refPre x0 x1 x5 x6 x7 x8 x9 x10 x11 x12 x13 x14 x15 x16) (mat x2) (mat x3) p j := by
  simp only [val_main_v47_apply, val_main_v46_apply, idx46, mean_eq, ratio_eq, Ideal.subf_def]
  rfl

/-- The same deviation, as the normalized value reads it (the reference computes it twice). -/
theorem centered54_eq (p : Fin 4096) (j : Fin 2048) :
    val_main_v54 (F := Ideal) x0 x1 x2 x3 x5 x6 x7 x8 x9 x10 x11 x12 x13 x14 x15 x16 (ix2 p j) = centered (refPre x0 x1 x5 x6 x7 x8 x9 x10 x11 x12 x13 x14 x15 x16) (mat x2) (mat x3) p j := by
  simp only [val_main_v54_apply, val_main_v53_apply, idx53, mean_eq, ratio_eq, Ideal.subf_def]
  rfl

/-- The reference's row variance: the row sum of squared deviations from the initial value 0, over 2048. -/
theorem variance_eq (p : Fin 4096) (z : Fin 1) :
    val_main_v52 (F := Ideal) x0 x1 x2 x3 x5 x6 x7 x8 x9 x10 x11 x12 x13 x14 x15 x16 (ix2 p z) = variance (refPre x0 x1 x5 x6 x7 x8 x9 x10 x11 x12 x13 x14 x15 x16) (mat x2) (mat x3) p := by
  simp only [val_main_v52_apply, val_main_v50_apply, val_main_v51_apply, val_main_cst_8_apply, val_main_v49_apply,
    val_main_cst_7_apply, val_main_v48_apply, idx49, centered47_eq, Ideal.hostDivf_def, Ideal.mulf_def, Ideal.ofBits_def,
    Ideal.ofBits_zero_f32, zero_add]
  rfl

/-- The reference's new hidden state. -/
theorem outH_eq (p : Fin 4096) (j : Fin 2048) :
    val_main_v67 (F := Ideal) x0 x1 x2 x3 x5 x6 x7 x8 x9 x10 x11 x12 x13 x14 x15 x16 x17 x18 (ix2 p j)
      = outH (refPre x0 x1 x5 x6 x7 x8 x9 x10 x11 x12 x13 x14 x15 x16) (mat x2) (mat x3) (vec x17) (vec x18) p j := by
  simp only [val_main_v67_apply, val_main_v66_apply, val_main_v65_apply, val_main_v64_apply, val_main_v63_apply,
    val_main_v62_apply, val_main_v61_apply, val_main_v60_apply, val_main_v59_apply, val_main_v58_apply,
    val_main_v57_apply, val_main_v56_apply, val_main_v55_apply, val_main_cst_9_apply, idx58, idx60, idx63,
    gO_eq, centered54_eq, variance_eq, Ideal.mulf_def, Ideal.addf_def, Ideal.hostUnary_tanh_def,
    Ideal.hostUnary_rsqrt_def, Ideal.ofBits_def]
  rfl

/-! ## The four results, over the explicit pre-activation term -/

/-- The reference's first result, the new hidden state, at (p, j). -/
theorem h_eq (p : Fin 4096) (j : Fin 2048) :
    val_main_v67 (F := Ideal) x0 x1 x2 x3 x5 x6 x7 x8 x9 x10 x11 x12 x13 x14 x15 x16 x17 x18 (ix2 p j)
      = outH (pre (mat x0) (mat x1) (wcat x5 x6 x7 x8) (bcat x9 x10 x11 x12) (rcat x13 x14 x15 x16))
          (mat x2) (mat x3) (vec x17) (vec x18) p j :=
  outH_eq x0 x1 x2 x3 x5 x6 x7 x8 x9 x10 x11 x12 x13 x14 x15 x16 x17 x18 p j

/-- The reference's second result, the new cell state, at (p, j). -/
theorem c_eq (p : Fin 4096) (j : Fin 2048) :
    val_main_v38 (F := Ideal) x0 x1 x2 x5 x6 x7 x8 x9 x10 x11 x12 x13 x14 x15 x16 (ix2 p j)
      = outC (pre (mat x0) (mat x1) (wcat x5 x6 x7 x8) (bcat x9 x10 x11 x12) (rcat x13 x14 x15 x16)) (mat x2) p j :=
  outC_eq x0 x1 x2 x5 x6 x7 x8 x9 x10 x11 x12 x13 x14 x15 x16 p j

/-- The reference's third result, the new normalizer, at (p, j). -/
theorem n_eq (p : Fin 4096) (j : Fin 2048) :
    val_main_v40 (F := Ideal) x0 x1 x3 x5 x6 x7 x8 x9 x10 x11 x12 x13 x14 x15 x16 (ix2 p j)
      = outN (pre (mat x0) (mat x1) (wcat x5 x6 x7 x8) (bcat x9 x10 x11 x12) (rcat x13 x14 x15 x16)) (mat x3) p j :=
  outN_eq x0 x1 x3 x5 x6 x7 x8 x9 x10 x11 x12 x13 x14 x15 x16 p j

/-- The reference's fourth result, the new stabilizer, at (p, j). -/
theorem m_eq (p : Fin 4096) (j : Fin 2048) :
    val_main_v35 (F := Ideal) x0 x1 x4 x5 x6 x7 x8 x9 x10 x11 x12 x13 x14 x15 x16 (ix2 p j)
      = outM (pre (mat x0) (mat x1) (wcat x5 x6 x7 x8) (bcat x9 x10 x11 x12) (rcat x13 x14 x15 x16)) (mat x4) p j :=
  outM_eq x0 x1 x4 x5 x6 x7 x8 x9 x10 x11 x12 x13 x14 x15 x16 p j

/-! ## The four results as whole arrays -/

/-- The reference's first result is the specification's new-hidden-state array of its argument arrays. -/
theorem resH_eq : val_main_v67 (F := Ideal) x0 x1 x2 x3 x5 x6 x7 x8 x9 x10 x11 x12 x13 x14 x15 x16 x17 x18 = specH x0 x1 x2 x3 x5 x6 x7 x8 x9 x10 x11 x12 x13 x14 x15 x16 x17 x18 :=
  eq_arr _ _ fun p j => h_eq x0 x1 x2 x3 x5 x6 x7 x8 x9 x10 x11 x12 x13 x14 x15 x16 x17 x18 p j

/-- The reference's second result is the specification's new-cell-state array. -/
theorem resC_eq : val_main_v38 (F := Ideal) x0 x1 x2 x5 x6 x7 x8 x9 x10 x11 x12 x13 x14 x15 x16 = specC x0 x1 x2 x5 x6 x7 x8 x9 x10 x11 x12 x13 x14 x15 x16 :=
  eq_arr _ _ fun p j => c_eq x0 x1 x2 x5 x6 x7 x8 x9 x10 x11 x12 x13 x14 x15 x16 p j

/-- The reference's third result is the specification's new-normalizer array. -/
theorem resN_eq : val_main_v40 (F := Ideal) x0 x1 x3 x5 x6 x7 x8 x9 x10 x11 x12 x13 x14 x15 x16 = specN x0 x1 x3 x5 x6 x7 x8 x9 x10 x11 x12 x13 x14 x15 x16 :=
  eq_arr _ _ fun p j => n_eq x0 x1 x3 x5 x6 x7 x8 x9 x10 x11 x12 x13 x14 x15 x16 p j

/-- The reference's fourth result is the specification's new-stabilizer array. -/
theorem resM_eq : val_main_v35 (F := Ideal) x0 x1 x4 x5 x6 x7 x8 x9 x10 x11 x12 x13 x14 x15 x16 = specM x0 x1 x4 x5 x6 x7 x8 x9 x10 x11 x12 x13 x14 x15 x16 :=
  eq_arr _ _ fun p j => m_eq x0 x1 x4 x5 x6 x7 x8 x9 x10 x11 x12 x13 x14 x15 x16 p j

end Cert.ReferenceIdeal.RefValue

end
-- ==== Proof.RefClaims.lean ====
/-
  The reference program's side of the claims.

  Its frame — it runs to the end, faults nowhere and leaves its nineteen argument arrays as they were — is its run
  read back, with what the run says of the results dropped. Its half of the equivalence is the same run with each
  of the four results restated: the composed term of the operations is, index by index, the specification's
  function of the argument arrays (the new hidden state, cell state, normalizer and stabilizer of the cell), so the
  result array is the specification's array of the memory's own arguments. The kernel's run ends at the same four
  arrays of ITS arguments, and the two memories agree on the arguments.
-/
import proofs.«142335_j2551210574034_2_alg».proof.Defs
import proofs.«142335_j2551210574034_2_alg».proof.Proof.Gen.Pre_finite_inputs
import proofs.«142335_j2551210574034_2_alg».proof.Proof.Gen.KernelIdeal
import proofs.«142335_j2551210574034_2_alg».proof.Proof.RefValue

noncomputable section

namespace Cert.Proof.RefClaims

open Idealize.ShloMosaic Idealize.ShloMosaic.TcCoe Idealize.SL.Sem
open Cert.ReferenceIdeal Cert.ReferenceIdeal.Gen Cert.Spec

/-- The reference runs, and its argument arrays end unchanged. -/
theorem frame_ri : Cert.frame_ReferenceIdeal := fun m ρ _ =>
  (θ_run Cert.ReferenceIdeal.defs _ _).mono (fun _ h c => (h c).2.2.2.2)
    (Cert.ReferenceIdeal.ValueP.run (F := Ideal) m ρ)

/-- The reference's run with its four results stated by the specification: from any memory, every weakly fair
    execution ends with the results at the specification's arrays of that memory's argument arrays, and the
    arguments unchanged. -/
theorem run_spec (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v67) = specH (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18))
      ∧ r.2.mem ((c.tc : Thread nD τ).loc main_v38) = specC (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
      ∧ r.2.mem ((c.tc : Thread nD τ).loc main_v40) = specN (m ((c.tc : Thread nD τ).loc main_arg0)) (m ((c.tc : Thread nD τ).loc main_arg1)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
      ∧ r.2.mem ((c.tc : Thread nD τ).loc main_v35) = specM (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  (θ_run Cert.ReferenceIdeal.defs _ _).mono (fun _ h c =>
    ⟨(h c).1.trans ((Cert.ReferenceIdeal.ReadP.val_main_v67_eq m c).trans (Cert.ReferenceIdeal.RefValue.resH_eq ..)),
     (h c).2.1.trans ((Cert.ReferenceIdeal.ReadP.val_main_v38_eq m c).trans (Cert.ReferenceIdeal.RefValue.resC_eq ..)),
     (h c).2.2.1.trans ((Cert.ReferenceIdeal.ReadP.val_main_v40_eq ..).trans (Cert.ReferenceIdeal.RefValue.resN_eq ..)),
     (h c).2.2.2.1.trans ((Cert.ReferenceIdeal.ReadP.val_main_v35_eq ..).trans (Cert.ReferenceIdeal.RefValue.resM_eq ..)),
     (h c).2.2.2.2⟩)
    (Cert.ReferenceIdeal.ValueP.run (F := Ideal) m ρ)

set_option maxHeartbeats 4000000 in
/-- The equivalence, from a run of the kernel that ends at the specification's four arrays of the kernel memory's
    argument arrays: the reference ends at the same four arrays of its own memory's arguments (`run_spec`), and
    the two memories hold the same argument arrays. -/
theorem algebraic_of_kernel_run
    (hk : ∀ (m : (ℓ : Loc Cert.KernelIdeal.nD Cert.KernelIdeal.τ Cert.KernelIdeal.sig) → Buf (Elt Ideal) ℓ)
        (g : Dev Cert.KernelIdeal.nD → PrngReg), Cert.Pre_KernelIdeal m →
      θ_run (Cert.KernelIdeal.defs (F := Ideal)) (onTc (τ := Cert.KernelIdeal.τ) (Cert.KernelIdeal.main (F := Ideal)))
        ⟨m, fun _ => 0, g⟩ fun r => ∀ c : Dev Cert.KernelIdeal.nD,
        r.2.mem ((c.tc : Thread Cert.KernelIdeal.nD Cert.KernelIdeal.τ).loc Cert.KernelIdeal.main_v10_0) = specH (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))
        ∧ r.2.mem ((c.tc : Thread Cert.KernelIdeal.nD Cert.KernelIdeal.τ).loc Cert.KernelIdeal.main_v10_1) = specC (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))
        ∧ r.2.mem ((c.tc : Thread Cert.KernelIdeal.nD Cert.KernelIdeal.τ).loc Cert.KernelIdeal.main_v10_2) = specN (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))
        ∧ r.2.mem ((c.tc : Thread Cert.KernelIdeal.nD Cert.KernelIdeal.τ).loc Cert.KernelIdeal.main_v10_3) = specM (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
        ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
        ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
        ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
        ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
        ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
        ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
        ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
        ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
        ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
        ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
        ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)) :
    Cert.algebraic_KernelIdeal_ReferenceIdeal := by
  intro m g m' g' hpre hagree
  refine ⟨_, _, _, _, hk m g hpre, ?_⟩
  refine (θ_run Cert.ReferenceIdeal.defs _ _).mono (fun _ h c => ?_) (run_spec m' g')
  obtain ⟨e0, e1, e2, e3, e4, e5, e6, e7, e8, e9, e10, e11, e12, e13, e14, e15, e16, e17, e18⟩ := hagree c
  rw [← e0, ← e1, ← e2, ← e3, ← e4, ← e5, ← e6, ← e7, ← e8, ← e9, ← e10, ← e11, ← e12, ← e13, ← e14, ← e15, ← e16, ← e17, ← e18]
  exact h c

end Cert.Proof.RefClaims

end
-- ==== Proof.lean ====
/-
  The certificate of an sLSTM cell's forward step written as one Pallas kernel, against its jnp reference, over the extended reals.

  Both programs stack the four gates' input weights, biases and recurrent weights. The reference computes the pre-activations
  x · Wᵀ + b + h · Rᵀ as two matrix products; the kernel lays x beside h and the input weights beside the recurrent weights,
  and accumulates the one product over the 3072 joined columns in twelve steps of 256 columns per batch tile of 256 rows,
  starting each tile from zero, adding the bias after the last step. A sum over 3072 consecutive terms is the sum of its
  twelve chunk sums, and splits into the first 1024 and the last 2048 terms; with commutativity and associativity of the
  sum of extended reals — no finiteness is used — the two pre-activations agree. From them both programs compute the same
  gates (a logistic, which is 1 / (1 + e⁻ˣ), and a hyperbolic tangent), the new stabiliser, cell state and normaliser, and the
  hidden state through a normalisation of c / n over each row (mean, variance, reciprocal square root), entry by entry the
  same expression.

  The frames of the word-level kernel and of its idealization: the kernel body is run once per case of its two conditions on
  the reduction coordinate (first step, a middle step, last step), the accumulator carried from point to point, and the
  pipeline's launch theorem gives the run of @main with the argument arrays unchanged. The idealization rewrote nothing.
-/
import proofs.«142335_j2551210574034_2_alg».proof.Defs
import proofs.«142335_j2551210574034_2_alg».proof.Proof.Gen.Kernel
import proofs.«142335_j2551210574034_2_alg».proof.Proof.Gen.Kernel.Skeleton
import proofs.«142335_j2551210574034_2_alg».proof.Proof.Gen.Kernel.Launch
import proofs.«142335_j2551210574034_2_alg».proof.Proof.Gen.Kernel.Points
import proofs.«142335_j2551210574034_2_alg».proof.Proof.Gen.KernelIdeal
import proofs.«142335_j2551210574034_2_alg».proof.Proof.Gen.KernelIdeal.Skeleton
import proofs.«142335_j2551210574034_2_alg».proof.Proof.Gen.KernelIdeal.Launch
import proofs.«142335_j2551210574034_2_alg».proof.Proof.Gen.KernelIdeal.Points
import proofs.«142335_j2551210574034_2_alg».proof.Proof.Gen.ReferenceIdeal
import proofs.«142335_j2551210574034_2_alg».proof.Proof.Gen.Pre_finite_inputs
import proofs.«142335_j2551210574034_2_alg».proof.Proof.FrFrameK
import proofs.«142335_j2551210574034_2_alg».proof.Proof.FrFrameKI
import proofs.«142335_j2551210574034_2_alg».proof.Proof.KValOut
import proofs.«142335_j2551210574034_2_alg».proof.Proof.RefClaims
import Idealize.ShloMosaic.Adequacy
import Idealize.ShloMosaic.Init

noncomputable section

namespace Cert.Proof

open Idealize.ShloMosaic Idealize.SL.Sem

/-- The word-level kernel runs to the end, faults nowhere and leaves its argument arrays unchanged. -/
theorem frame_k : Cert.frame_Kernel := fun m ρ _ => Cert.Kernel.Fr.frame m ρ

/-- So does its idealization. -/
theorem frame_ki : Cert.frame_KernelIdeal := fun m ρ _ => Cert.KernelIdeal.Fr.frame m ρ

/-- The idealized kernel and the idealized reference, from memories agreeing on the arguments, end with equal results. -/
theorem algebraic : Cert.algebraic_KernelIdeal_ReferenceIdeal :=
  Cert.Proof.RefClaims.algebraic_of_kernel_run (fun m g _ => Cert.KernelIdeal.Val.run_val m g)

theorem claim : Cert.Claim := ⟨Cert.Kernel.Gen.facts, Cert.KernelIdeal.Gen.facts, Cert.ReferenceIdeal.Gen.facts, Cert.Pre_finite_inputs.Gen.facts,
  frame_k, frame_ki, Cert.Proof.RefClaims.frame_ri, trivial, algebraic⟩

end Cert.Proof

end
